-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1024x32 : Shape := ⟨3, ![2, 1024, 32]⟩
abbrev S32x32 : Shape := ⟨2, ![32, 32]⟩
abbrev S_ : Shape := ⟨0, ![]⟩

class Facts : Prop where
  bcast_S_S2x1024x32 : S_.BroadcastsInDim S2x1024x32 (![] : Fin 0 → Fin S2x1024x32.rank)
  reducesTo_S2x1024x32_S_d0_1_2 : S2x1024x32.ReducesTo [0, 1, 2] S_
  h_S_ : 0 < S_.numel
  bcast_S_S32x32 : S_.BroadcastsInDim S32x32 (![] : Fin 0 → Fin S32x32.rank)
  reducesTo_S32x32_S_d0_1 : S32x32.ReducesTo [0, 1] S_

variable [Facts]

def fn {F : FTy → Type} [FloatOps F] (main_arg0 : FVec F S2x1024x32 .f32) (main_arg1 : FVec F S32x32 .f32) (main_arg2 : FVec F S32x32 .f32) : IVec S_ 1 :=
  let main_v0 : FVec F S2x1024x32 .f32 := Host.absf main_arg0
  let main_cst : FVec F S_ .f32 := constant S_ .f32 0x7F800000#32
  let main_v1 : FVec F S2x1024x32 .f32 := broadcastInDim S2x1024x32 ![] bcast_S_S2x1024x32 main_cst
  let main_v2 : IVec S2x1024x32 1 := cmpf .olt main_v0 main_v1
  let main_c : IVec S_ 1 := constantI S_ 1 1#1
  let main_v3 : IVec S_ 1 := (fun x v => Host.reduce IntOp.andi x v reducesTo_S2x1024x32_S_d0_1_2 h_S_) main_v2 main_c
  let main_v4 : FVec F S32x32 .f32 := Host.absf main_arg1
  let main_cst_0 : FVec F S_ .f32 := constant S_ .f32 0x7F800000#32
  let main_v5 : FVec F S32x32 .f32 := broadcastInDim S32x32 ![] bcast_S_S32x32 main_cst_0
  let main_v6 : IVec S32x32 1 := cmpf .olt main_v4 main_v5
  let main_c_1 : IVec S_ 1 := constantI S_ 1 1#1
  let main_v7 : IVec S_ 1 := (fun x v => Host.reduce IntOp.andi x v reducesTo_S32x32_S_d0_1 h_S_) main_v6 main_c_1
  let main_v8 : IVec S_ 1 := andi main_v3 main_v7
  let main_v9 : FVec F S32x32 .f32 := Host.absf main_arg2
  let main_cst_2 : FVec F S_ .f32 := constant S_ .f32 0x7F800000#32
  let main_v10 : FVec F S32x32 .f32 := broadcastInDim S32x32 ![] bcast_S_S32x32 main_cst_2
  let main_v11 : IVec S32x32 1 := cmpf .olt main_v9 main_v10
  let main_c_3 : IVec S_ 1 := constantI S_ 1 1#1
  let main_v12 : IVec S_ 1 := (fun x v => Host.reduce IntOp.andi x v reducesTo_S32x32_S_d0_1 h_S_) main_v11 main_c_3
  let main_v13 : IVec S_ 1 := andi main_v8 main_v12
  main_v13
-- ==== Kernel.lean ====
abbrev S2x1024x32 : Shape := ⟨3, ![2, 1024, 32]⟩
abbrev S32x32 : Shape := ⟨2, ![32, 32]⟩
abbrev S1x1024x32 : Shape := ⟨3, ![1, 1024, 32]⟩
abbrev S1024x32 : Shape := ⟨2, ![1024, 32]⟩
abbrev S32x1024 : Shape := ⟨2, ![32, 1024]⟩
abbrev S1024x1024 : Shape := ⟨2, ![1024, 1024]⟩

abbrev nBuf : Space → Nat
  | .hbm => 4
  | .vmem => 4
  | .smem => 0
  | _ => 0

abbrev bufTy : (tb : Table) → Fin (tcTables nBuf tb) → BufTy
  | .hbm, ⟨0, _⟩ => ⟨S2x1024x32, .f32⟩
  | .hbm, ⟨1, _⟩ => ⟨S32x32, .f32⟩
  | .hbm, ⟨2, _⟩ => ⟨S32x32, .f32⟩
  | .hbm, ⟨3, _⟩ => ⟨S2x1024x32, .f32⟩
  | .local _ .vmem, ⟨0, _⟩ => ⟨S2x1024x32, .f32⟩
  | .local _ .vmem, ⟨1, _⟩ => ⟨S32x32, .f32⟩
  | .local _ .vmem, ⟨2, _⟩ => ⟨S32x32, .f32⟩
  | .local _ .vmem, ⟨3, _⟩ => ⟨S2x1024x32, .f32⟩
  | _, _ => ⟨S2x1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S2x1024x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  inb_S2x1024x32_S1x1024x32_0_0_0 : ∀ a, (![0, 0, 0] : Fin 3 → Nat) a + S1x1024x32.size a ≤ S2x1024x32.size a
  h_S1x1024x32 : 0 < S1x1024x32.numel
  shapeCasts_S1x1024x32_S1024x32 : S1x1024x32.ShapeCasts S1024x32
  inb_S2x1024x32_S1x1024x32_1_0_0 : ∀ a, (![1, 0, 0] : Fin 3 → Nat) a + S1x1024x32.size a ≤ S2x1024x32.size a
  inb_S32x32_S32x32_0_0 : ∀ a, (![0, 0] : Fin 2 → Nat) a + S32x32.size a ≤ S32x32.size a
  h_S32x32 : 0 < S32x32.numel
  bitsLt_bf16_f32 : FTy.bits .bf16 < FTy.bits .f32
  transposes_S1024x32_p1_0_S32x1024 : S1024x32.Transposes [1, 0] S32x1024
  shapeCasts_S1024x32_S1x1024x32 : S1024x32.ShapeCasts S1x1024x32
  dot_S1024x32_S32x32_S1024x32_1_0_0_1_n_n_wf : DotDims.WF S1024x32 S32x32 S1024x32 [1] [0] [0] [1] [] []
  dot_S1024x32_S32x1024_S1024x1024_1_0_0_1_n_n_wf : DotDims.WF S1024x32 S32x1024 S1024x1024 [1] [0] [0] [1] [] []
  dot_S1024x1024_S1024x32_S1024x32_1_0_0_1_n_n_wf : DotDims.WF S1024x1024 S1024x32 S1024x32 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

def dot_S1024x32_S32x32_S1024x32_1_0_0_1_n_n : DotDims S1024x32 S32x32 S1024x32 where
  lhsContracting := [1]
  rhsContracting := [0]
  lhsNonContracting := [0]
  rhsNonContracting := [1]
  lhsBatch := []
  rhsBatch := []
  wf := dot_S1024x32_S32x32_S1024x32_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf
def dot_S1024x1024_S1024x32_S1024x32_1_0_0_1_n_n : DotDims S1024x1024 S1024x32 S1024x32 where
  lhsContracting := [1]
  rhsContracting := [0]
  lhsNonContracting := [0]
  rhsNonContracting := [1]
  lhsBatch := []
  rhsBatch := []
  wf := dot_S1024x1024_S1024x32_S1024x32_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v0) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x1024x32 : Shape := ⟨3, ![2, 1024, 32]⟩
abbrev S32x32 : Shape := ⟨2, ![32, 32]⟩
abbrev S2x900x32 : Shape := ⟨3, ![2, 900, 32]⟩
abbrev S2x124x32 : Shape := ⟨3, ![2, 124, 32]⟩
abbrev S2x1024x1024 : Shape := ⟨3, ![2, 1024, 1024]⟩
abbrev S_ : Shape := ⟨0, ![]⟩
abbrev S1024 : Shape := ⟨1, ![1024]⟩
abbrev S1024x1024 : Shape := ⟨2, ![1024, 1024]⟩
abbrev S1048576 : Shape := ⟨1, ![1048576]⟩
abbrev S1x1024 : Shape := ⟨2, ![1, 1024]⟩
abbrev S2 : Shape := ⟨1, ![2]⟩
abbrev S2x1 : Shape := ⟨2, ![2, 1]⟩
abbrev S1x1048576 : Shape := ⟨2, ![1, 1048576]⟩
abbrev S2x1048576 : Shape := ⟨2, ![2, 1048576]⟩
abbrev S2097152 : Shape := ⟨1, ![2097152]⟩
abbrev S2048x32 : Shape := ⟨2, ![2048, 32]⟩
abbrev S2097152x1 : Shape := ⟨2, ![2097152, 1]⟩
abbrev S1 : Shape := ⟨1, ![1]⟩
abbrev S1x1 : Shape := ⟨2, ![1, 1]⟩
abbrev S2097152x32 : Shape := ⟨2, ![2097152, 32]⟩

abbrev nBuf : Space → Nat
  | .hbm => 128
  | .vmem => 0
  | .smem => 0
  | _ => 0

abbrev bufTy : (tb : Table) → Fin (tcTables nBuf tb) → BufTy
  | .hbm, ⟨0, _⟩ => ⟨S2x1024x32, .f32⟩
  | .hbm, ⟨1, _⟩ => ⟨S32x32, .f32⟩
  | .hbm, ⟨2, _⟩ => ⟨S32x32, .f32⟩
  | .hbm, ⟨3, _⟩ => ⟨S2x900x32, .f32⟩
  | .hbm, ⟨4, _⟩ => ⟨S2x124x32, .f32⟩
  | .hbm, ⟨5, _⟩ => ⟨S2x1024x32, .f32⟩
  | .hbm, ⟨6, _⟩ => ⟨S2x1024x1024, .f32⟩
  | .hbm, ⟨7, _⟩ => ⟨S_, .f32⟩
  | .hbm, ⟨8, _⟩ => ⟨S2x1024x1024, .f32⟩
  | .hbm, ⟨9, _⟩ => ⟨S2x1024x1024, .f32⟩
  | .hbm, ⟨10, _⟩ => ⟨S2x1024x1024, .f32⟩
  | .hbm, ⟨11, _⟩ => ⟨S1024, .i32⟩
  | .hbm, ⟨12, _⟩ => ⟨S1024x1024, .i32⟩
  | .hbm, ⟨13, _⟩ => ⟨S1048576, .i32⟩
  | .hbm, ⟨14, _⟩ => ⟨S1024, .i32⟩
  | .hbm, ⟨15, _⟩ => ⟨S1x1024, .i32⟩
  | .hbm, ⟨16, _⟩ => ⟨S1024x1024, .i32⟩
  | .hbm, ⟨17, _⟩ => ⟨S1048576, .i32⟩
  | .hbm, ⟨18, _⟩ => ⟨S2, .i32⟩
  | .hbm, ⟨19, _⟩ => ⟨S_, .i32⟩
  | .hbm, ⟨20, _⟩ => ⟨S2, .i32⟩
  | .hbm, ⟨21, _⟩ => ⟨S2, .i32⟩
  | .hbm, ⟨22, _⟩ => ⟨S2x1, .i32⟩
  | .hbm, ⟨23, _⟩ => ⟨S1x1048576, .i32⟩
  | .hbm, ⟨24, _⟩ => ⟨S2x1048576, .i32⟩
  | .hbm, ⟨25, _⟩ => ⟨S2x1048576, .i32⟩
  | .hbm, ⟨26, _⟩ => ⟨S2x1048576, .i32⟩
  | .hbm, ⟨27, _⟩ => ⟨S2097152, .i32⟩
  | .hbm, ⟨28, _⟩ => ⟨S1x1048576, .i32⟩
  | .hbm, ⟨29, _⟩ => ⟨S2x1048576, .i32⟩
  | .hbm, ⟨30, _⟩ => ⟨S2x1048576, .i32⟩
  | .hbm, ⟨31, _⟩ => ⟨S2x1048576, .i32⟩
  | .hbm, ⟨32, _⟩ => ⟨S2097152, .i32⟩
  | .hbm, ⟨33, _⟩ => ⟨S2097152, .f32⟩
  | .hbm, ⟨34, _⟩ => ⟨S2048x32, .f32⟩
  | .hbm, ⟨35, _⟩ => ⟨S2097152x1, .f32⟩
  | .hbm, ⟨36, _⟩ => ⟨S_, .i32⟩
  | .hbm, ⟨37, _⟩ => ⟨S2097152, .i32⟩
  | .hbm, ⟨38, _⟩ => ⟨S2097152, .i1⟩
  | .hbm, ⟨39, _⟩ => ⟨S_, .i32⟩
  | .hbm, ⟨40, _⟩ => ⟨S2097152, .i32⟩
  | .hbm, ⟨41, _⟩ => ⟨S2097152, .i32⟩
  | .hbm, ⟨42, _⟩ => ⟨S2097152, .i32⟩
  | .hbm, ⟨43, _⟩ => ⟨S2097152x1, .i32⟩
  | .hbm, ⟨44, _⟩ => ⟨S1, .i32⟩
  | .hbm, ⟨45, _⟩ => ⟨S_, .i32⟩
  | .hbm, ⟨46, _⟩ => ⟨S2097152x1, .i32⟩
  | .hbm, ⟨47, _⟩ => ⟨S2097152x1, .i1⟩
  | .hbm, ⟨48, _⟩ => ⟨S1x1, .i32⟩
  | .hbm, ⟨49, _⟩ => ⟨S2097152x1, .i32⟩
  | .hbm, ⟨50, _⟩ => ⟨S2097152x1, .i1⟩
  | .hbm, ⟨51, _⟩ => ⟨S2097152x1, .i1⟩
  | .hbm, ⟨52, _⟩ => ⟨S_, .i1⟩
  | .hbm, ⟨53, _⟩ => ⟨S2097152, .i1⟩
  | .hbm, ⟨54, _⟩ => ⟨S2097152x32, .f32⟩
  | .hbm, ⟨55, _⟩ => ⟨S2097152x32, .i1⟩
  | .hbm, ⟨56, _⟩ => ⟨S_, .f32⟩
  | .hbm, ⟨57, _⟩ => ⟨S2097152x32, .f32⟩
  | .hbm, ⟨58, _⟩ => ⟨S2097152x32, .f32⟩
  | .hbm, ⟨59, _⟩ => ⟨S2097152x32, .f32⟩
  | .hbm, ⟨60, _⟩ => ⟨S2097152x32, .f32⟩
  | .hbm, ⟨61, _⟩ => ⟨S_, .f32⟩
  | .hbm, ⟨62, _⟩ => ⟨S2048x32, .f32⟩
  | .hbm, ⟨63, _⟩ => ⟨S2097152x1, .i32⟩
  | .hbm, ⟨64, _⟩ => ⟨S2048x32, .f32⟩
  | .hbm, ⟨65, _⟩ => ⟨S2048x32, .f32⟩
  | .hbm, ⟨66, _⟩ => ⟨S_, .f32⟩
  | .hbm, ⟨67, _⟩ => ⟨S2048x32, .f32⟩
  | .hbm, ⟨68, _⟩ => ⟨S2048x32, .i1⟩
  | .hbm, ⟨69, _⟩ => ⟨S_, .f32⟩
  | .hbm, ⟨70, _⟩ => ⟨S2048x32, .f32⟩
  | .hbm, ⟨71, _⟩ => ⟨S2048x32, .i1⟩
  | .hbm, ⟨72, _⟩ => ⟨S_, .f32⟩
  | .hbm, ⟨73, _⟩ => ⟨S_, .f32⟩
  | .hbm, ⟨74, _⟩ => ⟨S2048x32, .f32⟩
  | .hbm, ⟨75, _⟩ => ⟨S2048x32, .f32⟩
  | .hbm, ⟨76, _⟩ => ⟨S2048x32, .f32⟩
  | .hbm, ⟨77, _⟩ => ⟨S_, .f32⟩
  | .hbm, ⟨78, _⟩ => ⟨S2048x32, .f32⟩
  | .hbm, ⟨79, _⟩ => ⟨S2048x32, .f32⟩
  | .hbm, ⟨80, _⟩ => ⟨S2048x32, .f32⟩
  | .hbm, ⟨81, _⟩ => ⟨S2097152x1, .f32⟩
  | .hbm, ⟨82, _⟩ => ⟨S_, .i32⟩
  | .hbm, ⟨83, _⟩ => ⟨S2097152, .i32⟩
  | .hbm, ⟨84, _⟩ => ⟨S2097152, .i1⟩
  | .hbm, ⟨85, _⟩ => ⟨S_, .i32⟩
  | .hbm, ⟨86, _⟩ => ⟨S2097152, .i32⟩
  | .hbm, ⟨87, _⟩ => ⟨S2097152, .i32⟩
  | .hbm, ⟨88, _⟩ => ⟨S2097152, .i32⟩
  | .hbm, ⟨89, _⟩ => ⟨S2097152x1, .i32⟩
  | .hbm, ⟨90, _⟩ => ⟨S1, .i32⟩
  | .hbm, ⟨91, _⟩ => ⟨S_, .i32⟩
  | .hbm, ⟨92, _⟩ => ⟨S2097152x1, .i32⟩
  | .hbm, ⟨93, _⟩ => ⟨S2097152x1, .i1⟩
  | .hbm, ⟨94, _⟩ => ⟨S1x1, .i32⟩
  | .hbm, ⟨95, _⟩ => ⟨S2097152x1, .i32⟩
  | .hbm, ⟨96, _⟩ => ⟨S2097152x1, .i1⟩
  | .hbm, ⟨97, _⟩ => ⟨S2097152x1, .i1⟩
  | .hbm, ⟨98, _⟩ => ⟨S_, .i1⟩
  | .hbm, ⟨99, _⟩ => ⟨S2097152, .i1⟩
  | .hbm, ⟨100, _⟩ => ⟨S2097152x32, .f32⟩
  | .hbm, ⟨101, _⟩ => ⟨S2097152x32, .i1⟩
  | .hbm, ⟨102, _⟩ => ⟨S_, .f32⟩
  | .hbm, ⟨103, _⟩ => ⟨S2097152x32, .f32⟩
  | .hbm, ⟨104, _⟩ => ⟨S2097152x32, .f32⟩
  | .hbm, ⟨105, _⟩ => ⟨S2097152x32, .f32⟩
  | .hbm, ⟨106, _⟩ => ⟨S2097152x32, .f32⟩
  | .hbm, ⟨107, _⟩ => ⟨S_, .f32⟩
  | .hbm, ⟨108, _⟩ => ⟨S2048x32, .f32⟩
  | .hbm, ⟨109, _⟩ => ⟨S2097152x1, .i32⟩
  | .hbm, ⟨110, _⟩ => ⟨S2048x32, .f32⟩
  | .hbm, ⟨111, _⟩ => ⟨S2048x32, .f32⟩
  | .hbm, ⟨112, _⟩ => ⟨S_, .f32⟩
  | .hbm, ⟨113, _⟩ => ⟨S2048x32, .f32⟩
  | .hbm, ⟨114, _⟩ => ⟨S2048x32, .i1⟩
  | .hbm, ⟨115, _⟩ => ⟨S_, .f32⟩
  | .hbm, ⟨116, _⟩ => ⟨S2048x32, .f32⟩
  | .hbm, ⟨117, _⟩ => ⟨S2048x32, .i1⟩
  | .hbm, ⟨118, _⟩ => ⟨S_, .f32⟩
  | .hbm, ⟨119, _⟩ => ⟨S_, .f32⟩
  | .hbm, ⟨120, _⟩ => ⟨S2048x32, .f32⟩
  | .hbm, ⟨121, _⟩ => ⟨S2048x32, .f32⟩
  | .hbm, ⟨122, _⟩ => ⟨S2048x32, .f32⟩
  | .hbm, ⟨123, _⟩ => ⟨S_, .f32⟩
  | .hbm, ⟨124, _⟩ => ⟨S2048x32, .f32⟩
  | .hbm, ⟨125, _⟩ => ⟨S2048x32, .f32⟩
  | .hbm, ⟨126, _⟩ => ⟨S2048x32, .f32⟩
  | .hbm, ⟨127, _⟩ => ⟨S2x1024x32, .f32⟩
  | _, _ => ⟨S2x1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_call1_c : Ref sig .tc := ⟨.hbm, 36, rfl⟩
abbrev main_call1_v0 : Ref sig .tc := ⟨.hbm, 37, rfl⟩
abbrev main_call1_v1 : Ref sig .tc := ⟨.hbm, 38, rfl⟩
abbrev main_call1_c_0 : Ref sig .tc := ⟨.hbm, 39, rfl⟩
abbrev main_call1_v2 : Ref sig .tc := ⟨.hbm, 40, rfl⟩
abbrev main_call1_v3 : Ref sig .tc := ⟨.hbm, 41, rfl⟩
abbrev main_call1_v4 : Ref sig .tc := ⟨.hbm, 42, rfl⟩
abbrev main_call1_v5 : Ref sig .tc := ⟨.hbm, 43, rfl⟩
abbrev main_call1_c_1 : Ref sig .tc := ⟨.hbm, 44, rfl⟩
abbrev main_call1_c_2 : Ref sig .tc := ⟨.hbm, 45, rfl⟩
abbrev main_call1_v6 : Ref sig .tc := ⟨.hbm, 46, rfl⟩
abbrev main_call1_v7 : Ref sig .tc := ⟨.hbm, 47, rfl⟩
abbrev main_call1_v8 : Ref sig .tc := ⟨.hbm, 48, rfl⟩
abbrev main_call1_v9 : Ref sig .tc := ⟨.hbm, 49, rfl⟩
abbrev main_call1_v10 : Ref sig .tc := ⟨.hbm, 50, rfl⟩
abbrev main_call1_v11 : Ref sig .tc := ⟨.hbm, 51, rfl⟩
abbrev main_call1_c_3 : Ref sig .tc := ⟨.hbm, 52, rfl⟩
abbrev main_call1_v12 : Ref sig .tc := ⟨.hbm, 53, rfl⟩
abbrev main_call1_v13 : Ref sig .tc := ⟨.hbm, 54, rfl⟩
abbrev main_call1_v14 : Ref sig .tc := ⟨.hbm, 55, rfl⟩
abbrev main_call1_cst : Ref sig .tc := ⟨.hbm, 56, rfl⟩
abbrev main_call1_v15 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_cst : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_call2_cst : Ref sig .tc := ⟨.hbm, 66, rfl⟩
abbrev main_call2_v0 : Ref sig .tc := ⟨.hbm, 67, rfl⟩
abbrev main_call2_v1 : Ref sig .tc := ⟨.hbm, 68, rfl⟩
abbrev main_call2_cst_0 : Ref sig .tc := ⟨.hbm, 69, rfl⟩
abbrev main_call2_v2 : Ref sig .tc := ⟨.hbm, 70, rfl⟩
abbrev main_call2_v3 : Ref sig .tc := ⟨.hbm, 71, rfl⟩
abbrev main_call2_cst_1 : Ref sig .tc := ⟨.hbm, 72, rfl⟩
abbrev main_call2_call0_v0 : Ref sig .tc := ⟨.hbm, 73, rfl⟩
abbrev main_call2_call0_v1 : Ref sig .tc := ⟨.hbm, 74, rfl⟩
abbrev main_call2_v4 : Ref sig .tc := ⟨.hbm, 75, rfl⟩
abbrev main_call2_v5 : Ref sig .tc := ⟨.hbm, 76, rfl⟩
abbrev main_call2_cst_2 : Ref sig .tc := ⟨.hbm, 77, rfl⟩
abbrev main_call2_v6 : Ref sig .tc := ⟨.hbm, 78, rfl⟩
abbrev main_call2_v7 : Ref sig .tc := ⟨.hbm, 79, rfl⟩
abbrev main_v37 : Ref sig .tc := ⟨.hbm, 80, rfl⟩
abbrev main_v38 : Ref sig .tc := ⟨.hbm, 81, rfl⟩
abbrev main_call3_c : Ref sig .tc := ⟨.hbm, 82, rfl⟩
abbrev main_call3_v0 : Ref sig .tc := ⟨.hbm, 83, rfl⟩
abbrev main_call3_v1 : Ref sig .tc := ⟨.hbm, 84, rfl⟩
abbrev main_call3_c_0 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_call3_v5 : Ref sig .tc := ⟨.hbm, 89, rfl⟩
abbrev main_call3_c_1 : Ref sig .tc := ⟨.hbm, 90, rfl⟩
abbrev main_call3_c_2 : Ref sig .tc := ⟨.hbm, 91, rfl⟩
abbrev main_call3_v6 : Ref sig .tc := ⟨.hbm, 92, rfl⟩
abbrev main_call3_v7 : Ref sig .tc := ⟨.hbm, 93, rfl⟩
abbrev main_call3_v8 : Ref sig .tc := ⟨.hbm, 94, rfl⟩
abbrev main_call3_v9 : Ref sig .tc := ⟨.hbm, 95, rfl⟩
abbrev main_call3_v10 : Ref sig .tc := ⟨.hbm, 96, rfl⟩
abbrev main_call3_v11 : Ref sig .tc := ⟨.hbm, 97, rfl⟩
abbrev main_call3_c_3 : Ref sig .tc := ⟨.hbm, 98, rfl⟩
abbrev main_call3_v12 : Ref sig .tc := ⟨.hbm, 99, rfl⟩
abbrev main_call3_v13 : Ref sig .tc := ⟨.hbm, 100, rfl⟩
abbrev main_call3_v14 : Ref sig .tc := ⟨.hbm, 101, rfl⟩
abbrev main_call3_cst : Ref sig .tc := ⟨.hbm, 102, rfl⟩
abbrev main_call3_v15 : Ref sig .tc := ⟨.hbm, 103, rfl⟩
abbrev main_v39 : Ref sig .tc := ⟨.hbm, 104, rfl⟩
abbrev main_v40 : Ref sig .tc := ⟨.hbm, 105, rfl⟩
abbrev main_v41 : Ref sig .tc := ⟨.hbm, 106, rfl⟩
abbrev main_cst_0 : Ref sig .tc := ⟨.hbm, 107, rfl⟩
abbrev main_v42 : Ref sig .tc := ⟨.hbm, 108, rfl⟩
abbrev main_v43 : Ref sig .tc := ⟨.hbm, 109, rfl⟩
abbrev main_v44 : Ref sig .tc := ⟨.hbm, 110, rfl⟩
abbrev main_v45 : Ref sig .tc := ⟨.hbm, 111, rfl⟩
abbrev main_call4_cst : Ref sig .tc := ⟨.hbm, 112, rfl⟩
abbrev main_call4_v0 : Ref sig .tc := ⟨.hbm, 113, rfl⟩
abbrev main_call4_v1 : Ref sig .tc := ⟨.hbm, 114, rfl⟩
abbrev main_call4_cst_0 : Ref sig .tc := ⟨.hbm, 115, rfl⟩
abbrev main_call4_v2 : Ref sig .tc := ⟨.hbm, 116, rfl⟩
abbrev main_call4_v3 : Ref sig .tc := ⟨.hbm, 117, rfl⟩
abbrev main_call4_cst_1 : Ref sig .tc := ⟨.hbm, 118, rfl⟩
abbrev main_call4_call0_v0 : Ref sig .tc := ⟨.hbm, 119, rfl⟩
abbrev main_call4_call0_v1 : Ref sig .tc := ⟨.hbm, 120, rfl⟩
abbrev main_call4_v4 : Ref sig .tc := ⟨.hbm, 121, rfl⟩
abbrev main_call4_v5 : Ref sig .tc := ⟨.hbm, 122, rfl⟩
abbrev main_call4_cst_2 : Ref sig .tc := ⟨.hbm, 123, rfl⟩
abbrev main_call4_v6 : Ref sig .tc := ⟨.hbm, 124, rfl⟩
abbrev main_call4_v7 : Ref sig .tc := ⟨.hbm, 125, rfl⟩
abbrev main_v46 : Ref sig .tc := ⟨.hbm, 126, rfl⟩
abbrev main_v47 : Ref sig .tc := ⟨.hbm, 127, rfl⟩

abbrev nD : Nat := 1
abbrev τ : Topo := Topo.v7x

variable {F : FTy → Type} [FloatOps F]

class Facts₀ : Prop where
  slices_S2x1024x32_S2x900x32_0_0_0 : S2x1024x32.Slices ![0, 0, 0] S2x900x32
  slices_S2x1024x32_S2x124x32_0_900_0 : S2x1024x32.Slices ![0, 900, 0] S2x124x32
  concatenates_S2x900x32_S2x124x32_S2x1024x32_d1 : Shape.Concatenates [S2x900x32, S2x124x32] S2x1024x32 1
  bcast_S_S2x1024x1024 : S_.BroadcastsInDim S2x1024x1024 (![] : Fin 0 → Fin S2x1024x1024.rank)
  bcast_S1024_S1024x1024_0 : S1024.BroadcastsInDim S1024x1024 (![0] : Fin 1 → Fin S1024x1024.rank)
  shapeCasts_S1024x1024_S1048576 : S1024x1024.ShapeCasts S1048576
  shapeCasts_S1024_S1x1024 : S1024.ShapeCasts S1x1024
  bcast_S1x1024_S1024x1024_0_1 : S1x1024.BroadcastsInDim S1024x1024 (![0, 1] : Fin 2 → Fin S1024x1024.rank)
  bcast_S_S2 : S_.BroadcastsInDim S2 (![] : Fin 0 → Fin S2.rank)
  bcast_S2_S2x1_0 : S2.BroadcastsInDim S2x1 (![0] : Fin 1 → Fin S2x1.rank)
  bcast_S1048576_S1x1048576_1 : S1048576.BroadcastsInDim S1x1048576 (![1] : Fin 1 → Fin S1x1048576.rank)
  bcast_S1x1048576_S2x1048576_0_1 : S1x1048576.BroadcastsInDim S2x1048576 (![0, 1] : Fin 2 → Fin S2x1048576.rank)
  bcast_S2x1_S2x1048576_0_1 : S2x1.BroadcastsInDim S2x1048576 (![0, 1] : Fin 2 → Fin S2x1048576.rank)
  shapeCasts_S2x1048576_S2097152 : S2x1048576.ShapeCasts S2097152
  shapeCasts_S2x1024x1024_S2097152 : S2x1024x1024.ShapeCasts S2097152
  shapeCasts_S2x1024x32_S2048x32 : S2x1024x32.ShapeCasts S2048x32
  bcast_S2097152_S2097152x1_0 : S2097152.BroadcastsInDim S2097152x1 (![0] : Fin 1 → Fin S2097152x1.rank)
  bcast_S_S2097152 : S_.BroadcastsInDim S2097152 (![] : Fin 0 → Fin S2097152.rank)
  bcast_S_S2097152x1 : S_.BroadcastsInDim S2097152x1 (![] : Fin 0 → Fin S2097152x1.rank)
  bcast_S1_S1x1_1 : S1.BroadcastsInDim S1x1 (![1] : Fin 1 → Fin S1x1.rank)
  bcast_S1x1_S2097152x1_0_1 : S1x1.BroadcastsInDim S2097152x1 (![0, 1] : Fin 2 → Fin S2097152x1.rank)
  reducesTo_S2097152x1_S2097152_d1 : S2097152x1.ReducesTo [1] S2097152
  h_S_ : 0 < S_.numel
  bcast_S2097152_S2097152x32_0 : S2097152.BroadcastsInDim S2097152x32 (![0] : Fin 1 → Fin S2097152x32.rank)
  bcast_S_S2097152x32 : S_.BroadcastsInDim S2097152x32 (![] : Fin 0 → Fin S2097152x32.rank)
  bcast_S2097152x1_S2097152x32_0_1 : S2097152x1.BroadcastsInDim S2097152x32 (![0, 1] : Fin 2 → Fin S2097152x32.rank)
  bcast_S_S2048x32 : S_.BroadcastsInDim S2048x32 (![] : Fin 0 → Fin S2048x32.rank)
  shapeCasts_S2048x32_S2x1024x32 : S2048x32.ShapeCasts S2x1024x32
  dot_S2x1024x32_S2x1024x32_S2x1024x1024_2_2_1_1_0_0_wf : DotDims.WF S2x1024x32 S2x1024x32 S2x1024x1024 [2] [2] [1] [1] [0] [0]
  gather_S2048x32_S2097152x1_S2097152x32_1_0_n_n_0_1_132_wf : GatherDims.WF S2048x32 S2097152x1 S2097152x32 [1] [0] [] [0] [] 1 ![1, 32]
  scatter_S2048x32_S2097152x1_S2097152x32_1_0_0_1_wf : ScatterDims.WF S2048x32 S2097152x1 S2097152x32 [1] [0] [0] 1
  dot_S2048x32_S32x32_S2048x32_1_0_0_1_n_n_wf : DotDims.WF S2048x32 S32x32 S2048x32 [1] [0] [0] [1] [] []

variable [Facts₀]

def dot_S2x1024x32_S2x1024x32_S2x1024x1024_2_2_1_1_0_0 : DotDims S2x1024x32 S2x1024x32 S2x1024x1024 where
  lhsContracting := [2]
  rhsContracting := [2]
  lhsNonContracting := [1]
  rhsNonContracting := [1]
  lhsBatch := [0]
  rhsBatch := [0]
  wf := dot_S2x1024x32_S2x1024x32_S2x1024x1024_2_2_1_1_0_0_wf
def gather_S2048x32_S2097152x1_S2097152x32_1_0_n_n_0_1_132 : GatherDims S2048x32 S2097152x1 S2097152x32 where
  offsetDims := [1]
  collapsedSliceDims := [0]
  operandBatchingDims := []
  startIndicesBatchingDims := []
  startIndexMap := [0]
  indexVectorDim := 1
  sliceSizes := ![1, 32]
  wf := gather_S2048x32_S2097152x1_S2097152x32_1_0_n_n_0_1_132_wf
def scatter_S2048x32_S2097152x1_S2097152x32_1_0_0_1 : ScatterDims S2048x32 S2097152x1 S2097152x32 where
  updateWindowDims := [1]
  insertedWindowDims := [0]
  scatterDimsToOperandDims := [0]
  indexVectorDim := 1
  wf := scatter_S2048x32_S2097152x1_S2097152x32_1_0_0_1_wf
def dot_S2048x32_S32x32_S2048x32_1_0_0_1_n_n : DotDims S2048x32 S32x32 S2048x32 where
  lhsContracting := [1]
  rhsContracting := [0]
  lhsNonContracting := [0]
  rhsNonContracting := [1]
  lhsBatch := []
  rhsBatch := []
  wf := dot_S2048x32_S32x32_S2048x32_1_0_0_1_n_n_wf

class Facts : Prop extends Facts₀ where

variable [Facts]
-- ==== Proof.Spec.lean ====
/-
  The two-layer graph convolution over a dense adjacency, as functions of real-indexed rows.

  For one batch, `x` is the array of 1024 node embeddings of width 32. The adjacency is
  `a n m = tanh (max (∑ f, x n f * x m f) 0)`; it is symmetric because a product of two extended reals commutes.
  One layer with weights `w` maps node features `h` to `elu (A h w)`, where the product of the three matrices is
  taken in one of two groupings:

  * `kerLayer`: `∑ n, a m n * (∑ k, h n k * w k j)` — the adjacency applied to the projected features;
  * `refLayer`: `∑ k, (∑ n, a n m * h n k) * w k j` — messages `a n m * h n` summed into node `m`, then projected.

  The two agree when every entry is a real number (distributivity and the exchange of two finite sums hold on the
  reals; on the extended reals they can fail at the infinities), and the result of a layer is again real, so the
  two-layer outputs `kerOut` and `refOut` agree on real inputs.
-/
import Idealize.ShloMosaic.PureOps.Ideal
import Idealize.ShloMosaic.Lib.ValueIdx

noncomputable section

open scoped BigOperators

namespace Cert.Gcn

open Idealize.ShloMosaic Idealize.ShloMosaic.ValueIdx

/-- Node features of one batch: 1024 rows of width 32. -/
abbrev Rows := Fin 1024 → Fin 32 → EReal
/-- A 32×32 weight matrix. -/
abbrev Wt := Fin 32 → Fin 32 → EReal
/-- A 1024×1024 adjacency. -/
abbrev Adj := Fin 1024 → Fin 1024 → EReal

/-- The inner product of the embeddings of nodes `n` and `m`. -/
def gram (x : Rows) (n m : Fin 1024) : EReal := ∑ f : Fin 32, x n f * x m f

/-- The adjacency: `tanh` of the positive part of the inner product. -/
def adj (x : Rows) : Adj := fun n m => Ideal.tanh (max (gram x n m) 0)

/-- The exponential linear unit: `z` for `z > 0`, else `exp z - 1`. -/
def elu (z : EReal) : EReal := if 0 < z then z else Ideal.exp z - 1

/-- One layer, the adjacency applied to the projected features. -/
def kerLayer (a : Adj) (h : Rows) (w : Wt) : Rows :=
  fun m j => elu (∑ n : Fin 1024, a m n * ∑ k : Fin 32, h n k * w k j)

/-- One layer, the messages summed into each node and then projected. -/
def refLayer (a : Adj) (h : Rows) (w : Wt) : Rows :=
  fun m j => elu (∑ k : Fin 32, (∑ n : Fin 1024, a n m * h n k) * w k j)

/-- Two layers in the first grouping. -/
def kerOut (x : Rows) (w1 w2 : Wt) : Rows := kerLayer (adj x) (kerLayer (adj x) x w1) w2

/-- Two layers in the second grouping. -/
def refOut (x : Rows) (w1 w2 : Wt) : Rows := refLayer (adj x) (refLayer (adj x) x w1) w2

/-- An extended real that is a real number. -/
def IsReal (z : EReal) : Prop := ∃ r : ℝ, z = (r : EReal)

/-- Batch `b` of a `[2, 1024, 32]` array as rows. -/
def rowsOf (X : (⟨3, ![2, 1024, 32]⟩ : Shape).Idx → EReal) (b : Fin 2) : Rows := fun n f => X (ix3 b n f)

/-- A `[32, 32]` array as a weight matrix. -/
def wtOf (W : (⟨2, ![32, 32]⟩ : Shape).Idx → EReal) : Wt := fun k j => W (ix2 k j)

end Cert.Gcn

end
-- ==== Proof.LibRowOps.lean ====
/-
  Rows and columns of rank-2 vectors read at an index, at the ideal values (extended reals, exact operations).

  * the keep-dimensions column forms: a length-`a` vector cast to `[a, 1]`, and an `[a, 1]` column broadcast over
    `b` lanes, read at `(p, c)`;
  * a bias row: a length-`b` vector cast to `[1, b]` and broadcast over `a` rows reads, at `(p, c)`, its entry `c`;
  * the sum over the lanes of a row (`vector.multi_reduction <add>` over axis 1 of an `[a, b]` vector into the zero
    accumulator) is the `Fin b`-indexed sum of the row's entries;
  * a plain `M×K` by `K×N` matrix product into the zero accumulator is, at `(r, j)`, the sum over `k : Fin K` of
    `lhs (r, k) * rhs (k, j)`, whatever the operands' float formats;
  * a sum over `Fin (m + n)` splits into the sums over its first `m` and its last `n` indices.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibRowOps

open Idealize.ShloMosaic Idealize.ShloMosaic.ValueIdx

variable {α : Type}

/-- A length-`a` vector cast to an `[a, 1]` column reads, at `(p, u)`, its entry `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast over `b` lanes reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A bias row: a length-`b` vector cast to `[1, b]` and broadcast over `a` rows reads, at `(p, c)`, its entry `c`. -/
theorem biasRow_apply {a b : ℕ} (x : (⟨1, ![b]⟩ : Shape).Idx → α) (h : (⟨1, ![b]⟩ : Shape).ShapeCasts ⟨2, ![1, b]⟩)
    (h' : (⟨2, ![1, b]⟩ : Shape).Broadcasts ⟨2, ![a, b]⟩) (p : Fin a) (c : Fin b) :
    broadcastTo ⟨2, ![a, b]⟩ (shapeCast ⟨2, ![1, b]⟩ x h) h' (ix2 p c) = x (ix1 c) :=
  (broadcastTo_1b_ab_apply _ h' p c).trans (shapeCast_a_1a_apply x h 0 c)

/-- A keep-dimensions column: a length-`a` vector `s` cast to `[a, 1]`, mapped entry by entry by `f`, and broadcast over
    `b` lanes reads, at `(p, c)`, `f` of the entry `p`. -/
theorem keepCol_apply {β : Type} {a b : ℕ} (x : (⟨1, ![a]⟩ : Shape).Idx → α) (h : (⟨1, ![a]⟩ : Shape).ShapeCasts ⟨2, ![a, 1]⟩)
    (f : α → β) (h' : (⟨2, ![a, 1]⟩ : Shape).Broadcasts ⟨2, ![a, b]⟩) (p : Fin a) (c : Fin b) :
    broadcastTo ⟨2, ![a, b]⟩ (fun i => f (shapeCast ⟨2, ![a, 1]⟩ x h i)) h' (ix2 p c) = f (x (ix1 p)) :=
  (broadcastTo_a1_ab_apply _ h' p c).trans (congrArg f (shapeCast_a_a1_apply x h p 0))

/-- The sum over the lanes of row `p` of an `[a, b]` vector, into the zero accumulator, at the ideal values. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun ax => Fin.ext ?_)
  match ax with
  | ⟨0, _⟩ => rfl
  | ⟨1, _⟩ => rfl

/-- In a plain product the left operand's index at output `(r, j)` keeps the output row on its first axis; -/
theorem plain_lhs0 (M K N : ℕ) (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin 2) ∈ (DotDims.plain M K N).lhsBatch by simp [DotDims.plain]),
    dif_pos (show (0 : Fin 2) ∈ (DotDims.plain M K N).lhsNonContracting by simp [DotDims.plain])]
  rfl
/-- and the right operand's keeps the output lane on its second. -/
theorem plain_rhs1 (M K N : ℕ) (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin 2) ∈ (DotDims.plain M K N).rhsBatch by simp [DotDims.plain]),
    dif_pos (show (1 : Fin 2) ∈ (DotDims.plain M K N).rhsNonContracting by simp [DotDims.plain])]
  rfl

/-- A plain `M×K` by `K×N` product into the zero accumulator, at `(r, j)`: the sum over `k` of `lhs (r, k) * rhs (k, j)`. -/
theorem matmul_plain_apply {M K N : ℕ} {φ₁ φ₂ : FTy} (d : DotDims ⟨2, ![M, K]⟩ ⟨2, ![K, N]⟩ ⟨2, ![M, N]⟩)
    (hd : d = DotDims.plain M K N) (prec : Option ContractPrecision)
    (lhs : FVec Ideal ⟨2, ![M, K]⟩ φ₁) (rhs : FVec Ideal ⟨2, ![K, N]⟩ φ₂) (r : Fin M) (j : Fin N) :
    FloatOps.matmul d prec lhs rhs (constant ⟨2, ![M, N]⟩ .f32 0x00000000#32) (ix2 r j)
      = ∑ k : Fin K, lhs (ix2 r k) * rhs (ix2 k j) := by
  subst hd
  rw [Ideal.matmul_constant_zero_apply, ← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 r j) ((contrEquiv1 (DotDims.plain M K N) K rfl rfl).symm k) = ix2 r k :=
    funext fun ax => Fin.ext (by
      match ax with
      | ⟨0, _⟩ => exact plain_lhs0 M K N _ _
      | ⟨1, _⟩ => exact ((DotDims.plain M K N).lhsIdx_val_of_single (cl := (1 : Fin 2)) rfl _ _).trans hk)
  have er : (DotDims.plain M K N).rhsIdx (ix2 r j) ((contrEquiv1 (DotDims.plain M K N) K rfl rfl).symm k) = ix2 k j :=
    funext fun ax => Fin.ext (by
      match ax with
      | ⟨0, _⟩ => exact ((DotDims.plain M K N).rhsIdx_val_of_single (cr := (0 : Fin 2)) rfl _ _).trans hk
      | ⟨1, _⟩ => exact plain_rhs1 M K N _ _)
  rw [el, er]

/-- A sum over `Fin (m + n)` is the sum over its first `m` indices plus the sum over its last `n`. -/
theorem sum_fin_split {M : Type} [AddCommMonoid M] (m n : ℕ) (f : Fin (m + n) → M) :
    ∑ k, f k = (∑ a : Fin m, f ⟨a.val, by omega⟩) + ∑ a : Fin n, f ⟨m + a.val, by omega⟩ :=
  Fin.sum_univ_add f

end Cert.LibRowOps

end
-- ==== Proof.KernelValue.lean ====
/-
  The value of the fused two-layer graph convolution at the exact (extended-real) semantics.

  For each of the two batches the program loads the 1024 × 32 node features `x`, forms the adjacency
  `A n m = tanh (max (∑ f, x n f * x m f) 0)` as the product of the rows with their transpose, and applies twice the
  layer `h ↦ elu (A · (h · W))` — first with `W1`, then with `W2` —, `elu z = z` for `z > 0` and `exp z - 1` otherwise; a
  change of float format is the identity on extended reals. It stores each batch's result through that batch's
  rectangle of the output buffer.

  Read bottom-up:
  * the word `0x3F800000` is one, and the compare–select form of `elu` is `Cert.Gcn.elu`;
  * one layer (`layerVec`) and the adjacency (`adjVec`) read at an index, each matrix product by the plain
    product's sum over the contracted axis;
  * the stored payload of one batch at `(u, r, j)` is `Cert.Gcn.kerOut` of that batch's rows (`batch_apply`);
  * the two stores read back at `(b, r, j)` give batch `b`'s payload (`out_apply`): index `(1, r, j)` lies under the last
    store, index `(0, r, j)` lies off it and under the earlier one;
  * the launch has one grid point and every window's block is its whole array, so the array after the run is what the
    body leaves of the arrays as launched (`final_array`), and `final_apply` reads it at an index.
-/
import proofs.«112177_g63393717289321_cont_9to1c4b_364_24_alg».proof.Proof.Gen.KernelIdeal.Value
import proofs.«112177_g63393717289321_cont_9to1c4b_364_24_alg».proof.Proof.Spec
import proofs.«112177_g63393717289321_cont_9to1c4b_364_24_alg».proof.Proof.LibRowOps
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.KValue

open Cert.KernelIdeal Cert.KernelIdeal.Gen Idealize.ShloMosaic Idealize.ShloMosaic.TcCoe Idealize.SL.Sem
open Idealize.ShloMosaic.ValueIdx
open Idealize.ShloMosaic.Pipeline (Dat)

/-! ## Constants and the exponential linear unit -/

/-- The single-precision word `0x3F800000` denotes one. -/
theorem ofBits_one_f32 : Ideal.ofBits .f32 0x3F800000#32 = 1 := by
  simp [Ideal.ofBits, Ideal.ieee, -EReal.coe_mul]
  norm_num

/-- Comparing with zero, taking `exp z - 1` where the comparison fails: the exponential linear unit. -/
theorem elu_select (z : EReal) :
    Scalar.select (FloatOps.cmpf (F := Ideal) (φ := .f32) .ogt z (Scalar.ofBits (F := Ideal) .f32 0x00000000#32)) z
        (FloatOps.subf (F := Ideal) (φ := .f32) (FloatOps.exp (F := Ideal) (φ := .f32) z) (Scalar.ofBits (F := Ideal) .f32 0x3F800000#32))
      = Cert.Gcn.elu z := by
  show (if Ideal.cmp .ogt z (Ideal.ofBits .f32 0x00000000#32) = 1 then z else Ideal.exp z - Ideal.ofBits .f32 0x3F800000#32) = _
  rw [Ideal.ofBits_zero_f32, ofBits_one_f32]
  unfold Cert.Gcn.elu Ideal.cmp
  by_cases h : (0 : EReal) < z
  · simp [h]
  · simp [h]

/-! ## The printed dimension records are the plain matrix product's -/

theorem dotProj_eq : dot_S1024x32_S32x32_S1024x32_1_0_0_1_n_n = DotDims.plain 1024 32 32 := rfl
theorem dotGram_eq : dot_S1024x32_S32x1024_S1024x1024_1_0_0_1_n_n = DotDims.plain 1024 32 1024 := rfl
theorem dotAdj_eq : dot_S1024x1024_S1024x32_S1024x32_1_0_0_1_n_n = DotDims.plain 1024 1024 32 := rfl

/-! ## One layer -/

/-- One layer as the body computes it: project the features by the weights, apply the adjacency, then the
    exponential linear unit entry by entry. -/
def layerVec (A : FVec Ideal S1024x1024 .bf16) (h : FVec Ideal S1024x32 .f32) (w : FVec Ideal S32x32 .f32) : FVec Ideal S1024x32 .f32 :=
  let p : FVec Ideal S1024x32 .f32 := matmul dot_S1024x32_S32x32_S1024x32_1_0_0_1_n_n none h w (constant S1024x32 .f32 0x00000000#32)
  let q : FVec Ideal S1024x32 .f32 := matmul dot_S1024x1024_S1024x32_S1024x32_1_0_0_1_n_n none A (truncf .bf16 p bitsLt_bf16_f32) (constant S1024x32 .f32 0x00000000#32)
  select (cmpf .ogt q (broadcast S1024x32 (Scalar.ofBits .f32 0x00000000#32))) q
    (subf (exp q) (broadcast S1024x32 (Scalar.ofBits .f32 0x3F800000#32)))

/-- The layer at row `r`, lane `j`. -/
theorem layerVec_apply (A : FVec Ideal S1024x1024 .bf16) (h : FVec Ideal S1024x32 .f32) (w : FVec Ideal S32x32 .f32) (r : Fin 1024) (j : Fin 32) :
    layerVec A h w (ix2 r j)
      = Cert.Gcn.kerLayer (fun m n => A (ix2 m n)) (fun n k => h (ix2 n k)) (fun k j => w (ix2 k j)) r j := by
  unfold layerVec
  refine (elu_select _).trans ?_
  unfold Cert.Gcn.kerLayer
  refine congrArg Cert.Gcn.elu ?_
  refine (Cert.LibRowOps.matmul_plain_apply _ dotAdj_eq none A _ r j).trans ?_
  refine Finset.sum_congr rfl fun n _ => ?_
  refine congrArg (A (ix2 r n) * ·) ?_
  exact Cert.LibRowOps.matmul_plain_apply _ dotProj_eq none h w n j

/-! ## The adjacency -/

/-- The block with its leading unit axis dropped reads row `n`, feature `f`. -/
theorem rows3_apply (v : Vec Ideal S1x1024x32 .f32) (n : Fin 1024) (f : Fin 32) :
    k0_pay3 v (ix2 n f) = v (ix3 (0 : Fin 1) n f) :=
  shapeCast_1ab_ab_apply v shapeCasts_S1x1024x32_S1024x32 n f

theorem rows4_apply (v : Vec Ideal S1x1024x32 .f32) (n : Fin 1024) (f : Fin 32) :
    k0_pay4 v (ix2 n f) = v (ix3 (0 : Fin 1) n f) :=
  shapeCast_1ab_ab_apply v shapeCasts_S1x1024x32_S1024x32 n f

/-- The adjacency as the body computes it from the rows `h`: the rows times their transpose, the positive part, `tanh`. -/
def adjVec (h : FVec Ideal S1024x32 .f32) : FVec Ideal S1024x1024 .bf16 :=
  let hb : FVec Ideal S1024x32 .bf16 := truncf .bf16 h bitsLt_bf16_f32
  let g : FVec Ideal S1024x1024 .f32 := matmul dot_S1024x32_S32x1024_S1024x1024_1_0_0_1_n_n none hb
    (transpose S32x1024 [1, 0] hb transposes_S1024x32_p1_0_S32x1024) (constant S1024x1024 .f32 0x00000000#32)
  truncf .bf16 (tanh (maximumf g (broadcast S1024x1024 (Scalar.ofBits .f32 0x00000000#32)))) bitsLt_bf16_f32

/-- The adjacency at `(n, m)`. -/
theorem adjVec_apply (h : FVec Ideal S1024x32 .f32) (n m : Fin 1024) :
    adjVec h (ix2 n m) = Cert.Gcn.adj (fun n f => h (ix2 n f)) n m := by
  unfold adjVec Cert.Gcn.adj Cert.Gcn.gram
  show Ideal.tanh (max _ (Ideal.ofBits .f32 0x00000000#32)) = _
  rw [Ideal.ofBits_zero_f32]
  refine congrArg (fun z => Ideal.tanh (max z 0)) ?_
  refine (Cert.LibRowOps.matmul_plain_apply _ dotGram_eq none _ _ n m).trans ?_
  refine Finset.sum_congr rfl fun f _ => ?_
  refine congrArg (h (ix2 n f) * ·) ?_
  exact transpose_ix2_apply (a := 1024) (b := 32) h transposes_S1024x32_p1_0_S32x1024 f m

theorem pay5_eq (v : Vec Ideal S1x1024x32 .f32) : k0_pay5 v = adjVec (k0_pay3 v) := rfl
theorem pay6_eq (v : Vec Ideal S1x1024x32 .f32) : k0_pay6 v = adjVec (k0_pay4 v) := rfl
theorem pay7_eq (v : Vec Ideal S1x1024x32 .f32) (w : Vec Ideal S32x32 .f32) :
    k0_pay7 v w = layerVec (k0_pay5 v) (k0_pay3 v) w := rfl
theorem pay8_eq (v : Vec Ideal S1x1024x32 .f32) (w : Vec Ideal S32x32 .f32) :
    k0_pay8 v w = layerVec (k0_pay6 v) (k0_pay4 v) w := rfl
theorem pay1_eq (w : Vec Ideal S32x32 .f32) (A : FVec Ideal S1024x1024 .bf16) (h : FVec Ideal S1024x32 .f32) :
    k0_pay1 w A h = shapeCast S1x1024x32 (layerVec A h w) shapeCasts_S1024x32_S1x1024x32 := rfl
theorem pay2_eq (w : Vec Ideal S32x32 .f32) (A : FVec Ideal S1024x1024 .bf16) (h : FVec Ideal S1024x32 .f32) :
    k0_pay2 w A h = shapeCast S1x1024x32 (layerVec A h w) shapeCasts_S1024x32_S1x1024x32 := rfl

/-! ## The whole payload of one batch -/

/-- Two layers over the adjacency of the block's rows: the stored payload at `(u, r, j)`, for the rows `v` of one
    batch and the two weight matrices. -/
theorem batch_apply (v : Vec Ideal S1x1024x32 .f32) (w1 w2 : Vec Ideal S32x32 .f32) (u : Fin 1) (r : Fin 1024) (j : Fin 32) :
    shapeCast S1x1024x32 (layerVec (adjVec (k0_pay3 v)) (layerVec (adjVec (k0_pay3 v)) (k0_pay3 v) w1) w2)
        shapeCasts_S1024x32_S1x1024x32 (ix3 u r j)
      = Cert.Gcn.kerOut (fun n f => v (ix3 (0 : Fin 1) n f)) (fun k j => w1 (ix2 k j)) (fun k j => w2 (ix2 k j)) r j := by
  refine (shapeCast_ab_1ab_apply _ shapeCasts_S1024x32_S1x1024x32 u r j).trans ?_
  refine (layerVec_apply _ _ _ r j).trans ?_
  unfold Cert.Gcn.kerOut
  have hA : (fun m n => adjVec (k0_pay3 v) (ix2 m n)) = Cert.Gcn.adj (fun n f => v (ix3 (0 : Fin 1) n f)) := by
    funext m n
    refine (adjVec_apply _ m n).trans ?_
    refine congrArg (fun x => Cert.Gcn.adj x m n) ?_
    funext n f
    exact rows3_apply v n f
  have hx : (fun n f => k0_pay3 v (ix2 n f)) = fun n f => v (ix3 (0 : Fin 1) n f) := by
    funext n f
    exact rows3_apply v n f
  have h1 : (fun n k => layerVec (adjVec (k0_pay3 v)) (k0_pay3 v) w1 (ix2 n k))
      = Cert.Gcn.kerLayer (Cert.Gcn.adj (fun n f => v (ix3 (0 : Fin 1) n f))) (fun n f => v (ix3 (0 : Fin 1) n f)) (fun k j => w1 (ix2 k j)) := by
    funext n k
    refine (layerVec_apply _ _ _ n k).trans ?_
    rw [hA, hx]
  rw [hA, h1]

theorem pay34_eq (v : Vec Ideal S1x1024x32 .f32) : k0_pay4 v = k0_pay3 v := rfl

/-! ## The two stores, read back at an index -/

theorem hz2 : (![0, 0] : Fin 2 → Nat) = fun _ => 0 := funext fun a => by fin_cases a <;> rfl

/-- A weight matrix loaded whole is the matrix. -/
theorem ld_wt (x : Vec Ideal S32x32 .f32) : (fun k j => View.ld x r0_2 (ix2 k j)) = Cert.Gcn.wtOf x := by
  unfold r0_2
  rw [View.ld_unit_zero (S := S32x32) hz2]
  rfl

/-- The load of batch 0's rectangle reads batch 0's rows; -/
theorem ld_rows0 (x : Vec Ideal S2x1024x32 .f32) : (fun n f => View.ld x r0_0 (ix3 (0 : Fin 1) n f)) = Cert.Gcn.rowsOf x 0 := by
  funext n f
  show x (r0_0.emb (ix3 (0 : Fin 1) n f)) = x (ix3 (0 : Fin 2) n f)
  refine congrArg x (funext fun a => Fin.ext ?_)
  rw [Rect.emb_apply]
  match a with
  | ⟨0, _⟩ => rfl
  | ⟨1, _⟩ => show 0 + 1 * n.val = n.val; omega
  | ⟨2, _⟩ => show 0 + 1 * f.val = f.val; omega

/-- that of batch 1's rectangle, batch 1's. -/
theorem ld_rows1 (x : Vec Ideal S2x1024x32 .f32) : (fun n f => View.ld x r0_1 (ix3 (0 : Fin 1) n f)) = Cert.Gcn.rowsOf x 1 := by
  funext n f
  show x (r0_1.emb (ix3 (0 : Fin 1) n f)) = x (ix3 (1 : Fin 2) n f)
  refine congrArg x (funext fun a => Fin.ext ?_)
  rw [Rect.emb_apply]
  match a with
  | ⟨0, _⟩ => rfl
  | ⟨1, _⟩ => show 0 + 1 * n.val = n.val; omega
  | ⟨2, _⟩ => show 0 + 1 * f.val = f.val; omega

/-- Index `(0, r, j)` of the result is element `(0, r, j)` of batch 0's rectangle; -/
theorem emb0 (r : Fin 1024) (j : Fin 32) : r0_0.emb (ix3 (0 : Fin 1) r j) = ix3 (0 : Fin 2) r j := by
  refine funext fun a => Fin.ext ?_
  rw [Rect.emb_apply]
  match a with
  | ⟨0, _⟩ => rfl
  | ⟨1, _⟩ => show 0 + 1 * r.val = r.val; omega
  | ⟨2, _⟩ => show 0 + 1 * j.val = j.val; omega

/-- index `(1, r, j)` is element `(0, r, j)` of batch 1's. -/
theorem emb1 (r : Fin 1024) (j : Fin 32) : r0_1.emb (ix3 (0 : Fin 1) r j) = ix3 (1 : Fin 2) r j := by
  refine funext fun a => Fin.ext ?_
  rw [Rect.emb_apply]
  match a with
  | ⟨0, _⟩ => rfl
  | ⟨1, _⟩ => show 0 + 1 * r.val = r.val; omega
  | ⟨2, _⟩ => show 0 + 1 * j.val = j.val; omega

/-- Batch 0's index is outside batch 1's rectangle. -/
theorem not_mem1 (r : Fin 1024) (j : Fin 32) : ix3 (0 : Fin 2) r j ∉ r0_1.set := by
  unfold r0_1
  rw [Rect.mem_set_unit]
  intro h
  have h0 : (1 : Nat) ≤ 0 := (h 0).1
  omega

/-- Off the last store's rectangle, two stores read back as the earlier one alone. -/
theorem canon_pair_of_not_mem {S : Shape} {e : EltTy} (rA rB : Rect S) (pA : rA.shape.Idx → Elt Ideal e) (pB : rB.shape.Idx → Elt Ideal e)
    (y : S.Idx) (h : y ∉ rA.set) :
    View.canon ([⟨rA, pA⟩, ⟨rB, pB⟩] : List (View.Piece (Elt Ideal) S e)) y = View.canon ([⟨rB, pB⟩] : List (View.Piece (Elt Ideal) S e)) y :=
  View.canon_cons_of_not_mem (⟨rA, pA⟩ : View.Piece (Elt Ideal) S e) _ h

/-- Batch 1 of what the body leaves. -/
theorem out_apply1 (x0 : Vec Ideal S2x1024x32 .f32) (x1 x2 : Vec Ideal S32x32 .f32) (r : Fin 1024) (j : Fin 32) :
    out0_3 x0 x1 x2 (ix3 (1 : Fin 2) r j)
      = Cert.Gcn.kerOut (Cert.Gcn.rowsOf x0 1) (Cert.Gcn.wtOf x1) (Cert.Gcn.wtOf x2) r j := by
  unfold out0_3
  refine (congrArg _ (emb1 r j).symm).trans ?_
  refine (View.canon_cons_emb r0_1 _ _ (ix3 (0 : Fin 1) r j)).trans ?_
  refine (batch_apply (View.ld x0 r0_1) (View.ld x1 r0_2) (View.ld x2 r0_2) 0 r j).trans ?_
  rw [ld_rows1, ld_wt, ld_wt]

/-- Batch 0 of what the body leaves. -/
theorem out_apply0 (x0 : Vec Ideal S2x1024x32 .f32) (x1 x2 : Vec Ideal S32x32 .f32) (r : Fin 1024) (j : Fin 32) :
    out0_3 x0 x1 x2 (ix3 (0 : Fin 2) r j)
      = Cert.Gcn.kerOut (Cert.Gcn.rowsOf x0 0) (Cert.Gcn.wtOf x1) (Cert.Gcn.wtOf x2) r j := by
  unfold out0_3
  refine (canon_pair_of_not_mem r0_1 r0_0 _ _ _ (not_mem1 r j)).trans ?_
  refine (congrArg _ (emb0 r j).symm).trans ?_
  refine (View.canon_cons_emb r0_0 _ _ (ix3 (0 : Fin 1) r j)).trans ?_
  refine (batch_apply (View.ld x0 r0_0) (View.ld x1 r0_2) (View.ld x2 r0_2) 0 r j).trans ?_
  rw [ld_rows0, ld_wt, ld_wt]

/-- What the body leaves in the output's buffer, at `(b, r, j)`: two layers on batch `b`. -/
theorem out_apply (x0 : Vec Ideal S2x1024x32 .f32) (x1 x2 : Vec Ideal S32x32 .f32) (b : Fin 2) (r : Fin 1024) (j : Fin 32) :
    out0_3 x0 x1 x2 (ix3 b r j)
      = Cert.Gcn.kerOut (Cert.Gcn.rowsOf x0 b) (Cert.Gcn.wtOf x1) (Cert.Gcn.wtOf x2) r j := by
  have hb : b = 0 ∨ b = 1 := by omega
  rcases hb with rfl | rfl
  · exact out_apply0 x0 x1 x2 r j
  · exact out_apply1 x0 x1 x2 r j

/-! ## From the one block to the array

The launch has a single grid point; every window's block is its whole array, read at zero offsets. -/

variable (m : (ℓ : Loc nD τ sig) → Buf (Elt Ideal) ℓ)

/-- The first input's block is the array of node features as launched; -/
theorem iblk0_eq (c : Dev nD) (t : Fin cfg0.N) :
    (iblk m c 0 t : Vec Ideal S2x1024x32 .f32) = m ((c : Thread nD τ).loc main_arg0) := by
  have hz' : (fun a => win0_0.index t a * main_arg0.ty.shape.size a) = fun _ => 0 := funext fun a => Nat.zero_mul _
  unfold iblk
  exact Memref.read_access_unit_zero (Elt Ideal) main_arg0 hz' (fun a => by rw [congrFun hz' a]; simp) (V m c main_arg0)

/-- the second's, the first weight matrix; -/
theorem iblk1_eq (c : Dev nD) (t : Fin cfg0.N) :
    (iblk m c 1 t : Vec Ideal S32x32 .f32) = m ((c : Thread nD τ).loc main_arg1) := by
  have hz' : (fun a => win0_1.index t a * main_arg1.ty.shape.size a) = fun _ => 0 := funext fun a => Nat.zero_mul _
  unfold iblk
  exact Memref.read_access_unit_zero (Elt Ideal) main_arg1 hz' (fun a => by rw [congrFun hz' a]; simp) (V m c main_arg1)

/-- the third's, the second weight matrix. -/
theorem iblk2_eq (c : Dev nD) (t : Fin cfg0.N) :
    (iblk m c 2 t : Vec Ideal S32x32 .f32) = m ((c : Thread nD τ).loc main_arg2) := by
  have hz' : (fun a => win0_2.index t a * main_arg2.ty.shape.size a) = fun _ => 0 := funext fun a => Nat.zero_mul _
  unfold iblk
  exact Memref.read_access_unit_zero (Elt Ideal) main_arg2 hz' (fun a => by rw [congrFun hz' a]; simp) (V m c main_arg2)

/-- The output's block, read off any contents of the whole array, is those contents. -/
theorem read_blk3 (t : Fin cfg0.N) (G : Vec Ideal S2x1024x32 .f32) :
    ((cfg0.win 3).blk t).view.read (Elt Ideal) G = (cfg0.win 3).cut (grid0.coords t) G := by
  have hz' : (fun a => win0_3.index t a * main_v0.ty.shape.size a) = fun _ => 0 := funext fun a => Nat.zero_mul _
  exact Memref.read_access_unit_zero (Elt Ideal) main_v0 hz' (fun a => by rw [congrFun hz' a]; simp) G

/-- What the point writes back is the block of the body's result on the arrays as launched. -/
theorem flushed_eq (c : Dev nD) (t : Fin cfg0.N) :
    (dats m 0 c).flushed 3 t = ((cfg0.win 3).blk t).view.read (Elt Ideal)
      (out0_3 (m ((c : Thread nD τ).loc main_arg0)) (m ((c : Thread nD τ).loc main_arg1)) (m ((c : Thread nD τ).loc main_arg2))) := by
  rw [Cert.KernelIdeal.Value.flushed3, iblk0_eq m c t, iblk1_eq m c t, iblk2_eq m c t]
  exact (read_blk3 t _).symm

/-- The point's block covers the array. -/
theorem cover3 (c : Dev nD) (i : S2x1024x32.Idx) :
    ∃ t : Fin cfg0.N, (cfg0.win 3).flush t = true ∧ i ∈ ((cfg0.win 3).blk t).view.set := by
  refine ⟨t0_0, flush0_3 t0_0, ?_⟩
  show i ∈ ((View.whole main_v0).slice (win0_3.rect t0_0)).set
  rw [View.set_slice_whole, Rect.mem_set_unit]
  intro a
  have h0 : (i 0 : Nat) < 2 := (i 0).isLt
  have h1 : (i 1 : Nat) < 1024 := (i 1).isLt
  have h2 : (i 2 : Nat) < 32 := (i 2).isLt
  match a with
  | ⟨0, _⟩ => show 0 * 2 ≤ (i 0 : Nat) ∧ (i 0 : Nat) < 0 * 2 + 2; omega
  | ⟨1, _⟩ => show 0 * 1024 ≤ (i 1 : Nat) ∧ (i 1 : Nat) < 0 * 1024 + 1024; omega
  | ⟨2, _⟩ => show 0 * 32 ≤ (i 2 : Nat) ∧ (i 2 : Nat) < 0 * 32 + 32; omega

/-- The result array after the run is the body's result on the arrays as launched. -/
theorem final_array (c : Dev nD) :
    (dats m 0 c).arrAt 3 cfg0.N
      = out0_3 (m ((c : Thread nD τ).loc main_arg0)) (m ((c : Thread nD τ).loc main_arg1)) (m ((c : Thread nD τ).loc main_arg2)) :=
  (dats m 0 c).arrAt_eq_of_cover 3 _ (fun t _ => flushed_eq m c t) (cover3 c)

/-- THE KERNEL'S VALUE: after the run the result array holds, at `(b, r, j)`, the two-layer graph convolution of batch `b`
    in the grouping that applies the adjacency to the projected features. -/
theorem final_apply (c : Dev nD) (b : Fin 2) (r : Fin 1024) (j : Fin 32) :
    (Gen.dats m 0 c).arrAt 3 cfg0.N (ValueIdx.ix3 b r j)
      = Cert.Gcn.kerOut (Cert.Gcn.rowsOf (m ((c : Thread nD τ).loc main_arg0)) b)
          (Cert.Gcn.wtOf (m ((c : Thread nD τ).loc main_arg1))) (Cert.Gcn.wtOf (m ((c : Thread nD τ).loc main_arg2))) r j :=
  (congrFun (final_array m c) (ix3 b r j)).trans (out_apply _ _ _ b r j)

end Cert.KernelIdeal.KValue

end
-- ==== Proof.RefStages.lean ====
/-
  The reference program's result as one pure function of its three argument arrays, built stage by stage in the
  program's own operations:

  * `adjFlat X`: the node embeddings (the first 900 rows and the last 124, concatenated: the array itself), their
    batched inner products, the positive part, `tanh`, flattened to one axis of `2·1024·1024` edge weights;
  * `srcIdx`, `tgtIdx`: for the edge number `b·1024² + n·1024 + m`, the flat node numbers `b·1024 + n` of its
    source and `b·1024 + m` of its target, computed by iotas, broadcasts, one product and one sum of 32-bit words;
  * `take H idx`: the rows of `H` at the given node numbers (a negative number wrapped once, a number outside
    `[0, 2047]` answered by a fill value);
  * `layer w H W`: every edge's message (its weight times its source's row) added into its target's row, the
    sums multiplied by `W`, and the exponential linear unit;
  * `out`: two layers, reshaped to `[2, 1024, 32]`.
-/
import proofs.«112177_g63393717289321_cont_9to1c4b_364_24_alg».proof.Proof.Gen.ReferenceIdeal

noncomputable section

namespace Cert.ReferenceIdeal.RefStages

open Cert.ReferenceIdeal Cert.ReferenceIdeal.Gen Idealize.ShloMosaic Idealize.SL.Sem

variable {F : FTy → Type} [FloatOps F]

/-- The positive part: the maximum with a broadcast zero. -/
def relu (x : FVec F S2x1024x1024 .f32) : FVec F S2x1024x1024 .f32 :=
  maximumf x (broadcastInDim S2x1024x1024 ![] bcast_S_S2x1024x1024 (constant S_ .f32 0x00000000#32))

/-- The node embeddings: rows `0..899` and rows `900..1023` of the array, concatenated along the row axis. -/
def nodes (X : FVec F S2x1024x32 .f32) : FVec F S2x1024x32 .f32 :=
  concatenate S2x1024x32 1 [⟨S2x900x32, extractStridedSlice S2x900x32 ![0, 0, 0] X slices_S2x1024x32_S2x900x32_0_0_0⟩,
    ⟨S2x124x32, extractStridedSlice S2x124x32 ![0, 900, 0] X slices_S2x1024x32_S2x124x32_0_900_0⟩]
    concatenates_S2x900x32_S2x124x32_S2x1024x32_d1

/-- The adjacency of both batches before flattening. -/
def adj3 (X : FVec F S2x1024x32 .f32) : FVec F S2x1024x1024 .f32 :=
  Host.tanh (relu (Host.dotGeneral dot_S2x1024x32_S2x1024x32_S2x1024x1024_2_2_1_1_0_0 none (nodes X) (nodes X)))

/-- The edge weights on one axis. -/
def adjFlat (X : FVec F S2x1024x32 .f32) : FVec F S2097152 .f32 :=
  shapeCast S2097152 (adj3 X) shapeCasts_S2x1024x1024_S2097152

/-- The batch offsets `[0, 1024]` as a column. -/
def offs : IVec S2x1 32 :=
  broadcastInDim S2x1 ![0] bcast_S2_S2x1_0
    (muli (iotaInDim S2 32 0) (broadcastInDim S2 ![] bcast_S_S2 (constantI S_ 32 1024#32)))

/-- The source node within a batch, per in-batch edge number: `n` at `n·1024 + m`. -/
def srcLocal : IVec S1048576 32 :=
  shapeCast S1048576 (broadcastInDim S1024x1024 ![0] bcast_S1024_S1024x1024_0 (iotaInDim S1024 32 0))
    shapeCasts_S1024x1024_S1048576

/-- The target node within a batch, per in-batch edge number: `m` at `n·1024 + m`. -/
def tgtLocal : IVec S1048576 32 :=
  shapeCast S1048576 (broadcastInDim S1024x1024 ![0, 1] bcast_S1x1024_S1024x1024_0_1
    (shapeCast S1x1024 (iotaInDim S1024 32 0) shapeCasts_S1024_S1x1024)) shapeCasts_S1024x1024_S1048576

/-- In-batch node numbers made flat node numbers: the batch offset added, both batches on one axis. -/
def globalIdx (loc : IVec S1048576 32) : IVec S2097152 32 :=
  shapeCast S2097152 (addi
    (broadcastInDim S2x1048576 ![0, 1] bcast_S1x1048576_S2x1048576_0_1
      (broadcastInDim S1x1048576 ![1] bcast_S1048576_S1x1048576_1 loc))
    (broadcastInDim S2x1048576 ![0, 1] bcast_S2x1_S2x1048576_0_1 offs)) shapeCasts_S2x1048576_S2097152

/-- The flat source node of every edge. -/
def srcIdx : IVec S2097152 32 := globalIdx srcLocal
/-- The flat target node of every edge. -/
def tgtIdx : IVec S2097152 32 := globalIdx tgtLocal

/-- A row number with a negative one wrapped by the number of rows, as a column. -/
def takeIdx (idx : IVec S2097152 32) : IVec S2097152x1 32 :=
  broadcastInDim S2097152x1 ![0] bcast_S2097152_S2097152x1_0
    (select (cmpi .slt idx (broadcastInDim S2097152 ![] bcast_S_S2097152 (constantI S_ 32 0#32)))
      (addi idx (broadcastInDim S2097152 ![] bcast_S_S2097152 (constantI S_ 32 2048#32))) idx)

/-- Whether a row number lies in `[0, 2047]`. -/
def takeOk (i5 : IVec S2097152x1 32) : IVec S2097152 1 :=
  Host.reduce IntOp.andi
    (andi (cmpi .sge i5 (broadcastInDim S2097152x1 ![] bcast_S_S2097152x1 (constantI S_ 32 0#32)))
      (cmpi .sle i5 (broadcastInDim S2097152x1 ![0, 1] bcast_S1x1_S2097152x1_0_1
        (broadcastInDim S1x1 ![1] bcast_S1_S1x1_1 (constantI S1 32 2047#32)))))
    (constantI S_ 1 1#1) reducesTo_S2097152x1_S2097152_d1 h_S_

/-- The rows of `H` at the given row numbers; a number out of range gives the fill value. -/
def take (H : FVec F S2048x32 .f32) (idx : IVec S2097152 32) : FVec F S2097152x32 .f32 :=
  select (broadcastInDim S2097152x32 ![0] bcast_S2097152_S2097152x32_0 (takeOk (takeIdx idx)))
    (Host.gather gather_S2048x32_S2097152x1_S2097152x32_1_0_n_n_0_1_132 H (takeIdx idx))
    (broadcastInDim S2097152x32 ![] bcast_S_S2097152x32 (constant S_ .f32 0x7FC00000#32))

/-- The exponential linear unit as the reference spells it. -/
def elu (z : FVec F S2048x32 .f32) : FVec F S2048x32 .f32 :=
  select (cmpf .ogt z (broadcastInDim S2048x32 ![] bcast_S_S2048x32 (constant S_ .f32 0x00000000#32))) z
    (mulf (broadcastInDim S2048x32 ![] bcast_S_S2048x32 (constant S_ .f32 0x3F800000#32))
      (Host.expm1 (select (cmpf .ogt z (broadcastInDim S2048x32 ![] bcast_S_S2048x32 (constant S_ .f32 0x00000000#32)))
        (broadcastInDim S2048x32 ![] bcast_S_S2048x32 (id (constant S_ .f32 0x00000000#32))) z)))

/-- The messages: every edge's weight times its source's row. -/
def msgs (w : FVec F S2097152 .f32) (H : FVec F S2048x32 .f32) : FVec F S2097152x32 .f32 :=
  mulf (broadcastInDim S2097152x32 ![0, 1] bcast_S2097152x1_S2097152x32_0_1
      (broadcastInDim S2097152x1 ![0] bcast_S2097152_S2097152x1_0 w)) (take H srcIdx)

/-- The messages added into their targets' rows, from zero. -/
def agg (w : FVec F S2097152 .f32) (H : FVec F S2048x32 .f32) : FVec F S2048x32 .f32 :=
  Host.scatterAdd scatter_S2048x32_S2097152x1_S2097152x32_1_0_0_1
    (broadcastInDim S2048x32 ![] bcast_S_S2048x32 (constant S_ .f32 0x00000000#32))
    (broadcastInDim S2097152x1 ![0] bcast_S2097152_S2097152x1_0 tgtIdx) (msgs w H)

/-- One layer. -/
def layer (w : FVec F S2097152 .f32) (H : FVec F S2048x32 .f32) (W : FVec F S32x32 .f32) : FVec F S2048x32 .f32 :=
  elu (Host.dotGeneral dot_S2048x32_S32x32_S2048x32_1_0_0_1_n_n none (agg w H) W)

/-- The reference's result. -/
def out (X : FVec F S2x1024x32 .f32) (W1 W2 : FVec F S32x32 .f32) : FVec F S2x1024x32 .f32 :=
  shapeCast S2x1024x32
    (layer (adjFlat X) (layer (adjFlat X) (shapeCast S2048x32 X shapeCasts_S2x1024x32_S2048x32) W1) W2)
    shapeCasts_S2048x32_S2x1024x32

end Cert.ReferenceIdeal.RefStages

end
-- ==== Proof.RefReadA.lean ====
/-
  The reference's adjacency read at an index.

  The node embeddings are the argument array itself: rows `0..899` come from the first slice and rows `900..1023`
  from the second, each at its own place. The batched contraction over the feature axis gives, at `(b, n, m)`, the
  inner product of rows `n` and `m` of batch `b`; the positive part and `tanh` act entrywise; and the flattening to
  one axis puts entry `(b, n, m)` at position `(b·1024 + n)·1024 + m`.
-/
import proofs.«112177_g63393717289321_cont_9to1c4b_364_24_alg».proof.Proof.RefStages
import proofs.«112177_g63393717289321_cont_9to1c4b_364_24_alg».proof.Proof.Spec
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

open scoped BigOperators

namespace Cert.ReferenceIdeal.RefRead

open Cert.ReferenceIdeal Cert.ReferenceIdeal.Gen Cert.ReferenceIdeal.RefStages Idealize.ShloMosaic
  Idealize.ShloMosaic.ValueIdx Cert.Gcn

/-- The concatenation of the two row ranges of the array is the array. -/
theorem nodes_apply (X : FVec Ideal S2x1024x32 .f32) (b : Fin 2) (n : Fin 1024) (f : Fin 32) :
    nodes X (ix3 b n f) = X (ix3 b n f) := by
  unfold nodes
  by_cases h : n.val < 900
  · refine (concatenate_pair_apply_left (t := S2x1024x32) (s₁ := S2x900x32) (s₂ := S2x124x32) (1 : Fin 3) _ _ concatenates_S2x900x32_S2x124x32_S2x1024x32_d1 (ix3 b n f) rfl
      (ix3 b (⟨n.val, h⟩ : Fin 900) f) fun a => ?_).trans ?_
    · match a with
      | ⟨0, _⟩ => rfl
      | ⟨1, _⟩ => rfl
      | ⟨2, _⟩ => rfl
    · refine extractStridedSlice_apply _ X _ _ _ fun a => ?_
      match a with
      | ⟨0, _⟩ => show b.val = 0 + b.val; omega
      | ⟨1, _⟩ => show n.val = 0 + n.val; omega
      | ⟨2, _⟩ => show f.val = 0 + f.val; omega
  · have h' : n.val - 900 < 124 := by have := n.isLt; omega
    refine (concatenate_pair_apply_right (t := S2x1024x32) (s₁ := S2x900x32) (s₂ := S2x124x32) (1 : Fin 3) _ _ concatenates_S2x900x32_S2x124x32_S2x1024x32_d1 (ix3 b n f) rfl rfl
      (ix3 b (⟨n.val - 900, h'⟩ : Fin 124) f) (fun a ha => ?_) ?_).trans ?_
    · match a with
      | ⟨0, _⟩ => rfl
      | ⟨1, _⟩ => exact absurd rfl ha
      | ⟨2, _⟩ => rfl
    · show (n.val - 900) + 900 = n.val
      omega
    · refine extractStridedSlice_apply _ X _ _ _ fun a => ?_
      match a with
      | ⟨0, _⟩ => show b.val = 0 + b.val; omega
      | ⟨1, _⟩ => show n.val = 900 + (n.val - 900); omega
      | ⟨2, _⟩ => show f.val = 0 + f.val; omega

/-- The batched contraction over the feature axis at `(b, n, m)`: the inner product of rows `n` and `m`. -/
theorem gram_apply (Y : FVec Ideal S2x1024x32 .f32) (b : Fin 2) (n m : Fin 1024) :
    Host.dotGeneral dot_S2x1024x32_S2x1024x32_S2x1024x1024_2_2_1_1_0_0 none Y Y (ix3 b n m)
      = ∑ f : Fin 32, Y (ix3 b n f) * Y (ix3 b m f) := by
  show FloatOps.dotGeneral dot_S2x1024x32_S2x1024x32_S2x1024x1024_2_2_1_1_0_0 none .single Y Y (ix3 b n m) = _
  rw [Ideal.dotGeneral_apply,
    ← Equiv.sum_comp (contrEquiv1 dot_S2x1024x32_S2x1024x32_S2x1024x1024_2_2_1_1_0_0 32 rfl rfl).symm]
  refine Finset.sum_congr rfl fun k _ => ?_
  have hk := contrEquiv1_symm_val dot_S2x1024x32_S2x1024x32_S2x1024x1024_2_2_1_1_0_0 32 rfl rfl k
  have el : dot_S2x1024x32_S2x1024x32_S2x1024x1024_2_2_1_1_0_0.lhsIdx (ix3 b n m)
      ((contrEquiv1 dot_S2x1024x32_S2x1024x32_S2x1024x1024_2_2_1_1_0_0 32 rfl rfl).symm k) = ix3 b n k :=
    funext fun ax => Fin.ext (by
      match ax with
      | ⟨0, _⟩ => rfl
      | ⟨1, _⟩ => rfl
      | ⟨2, _⟩ => exact (dot_S2x1024x32_S2x1024x32_S2x1024x1024_2_2_1_1_0_0.lhsIdx_val_of_single (cl := (2 : Fin 3)) rfl _ _).trans hk)
  have er : dot_S2x1024x32_S2x1024x32_S2x1024x1024_2_2_1_1_0_0.rhsIdx (ix3 b n m)
      ((contrEquiv1 dot_S2x1024x32_S2x1024x32_S2x1024x1024_2_2_1_1_0_0 32 rfl rfl).symm k) = ix3 b m k :=
    funext fun ax => Fin.ext (by
      match ax with
      | ⟨0, _⟩ => rfl
      | ⟨1, _⟩ => rfl
      | ⟨2, _⟩ => exact (dot_S2x1024x32_S2x1024x32_S2x1024x1024_2_2_1_1_0_0.rhsIdx_val_of_single (cr := (2 : Fin 3)) rfl _ _).trans hk)
  rw [el, er]

/-- The adjacency of batch `b` at `(n, m)`. -/
theorem adj3_apply (X : FVec Ideal S2x1024x32 .f32) (b : Fin 2) (n m : Fin 1024) :
    adj3 X (ix3 b n m) = adj (rowsOf X b) n m := by
  unfold adj3 relu
  show Ideal.tanh (max (Host.dotGeneral dot_S2x1024x32_S2x1024x32_S2x1024x1024_2_2_1_1_0_0 none (nodes X) (nodes X) (ix3 b n m))
    (Ideal.ofBits .f32 0x00000000#32)) = _
  rw [gram_apply, Ideal.ofBits_zero_f32]
  unfold adj gram rowsOf
  simp only [nodes_apply]

/-- The edge weight at position `(b·1024 + n)·1024 + m`. -/
theorem adjFlat_apply (X : FVec Ideal S2x1024x32 .f32) (b : Fin 2) (n m : Fin 1024) (e : Fin 2097152)
    (he : e.val = (b.val * 1024 + n.val) * 1024 + m.val) :
    adjFlat X (ix1 e) = adj (rowsOf X b) n m := by
  unfold adjFlat
  refine (shapeCast_apply (adj3 X) shapeCasts_S2x1024x1024_S2097152 (ix1 e) (ix3 b n m) ?_).trans (adj3_apply X b n m)
  rw [Shape.rowMajor_val_three, Shape.rowMajor_val_one]
  exact he.symm

end Cert.ReferenceIdeal.RefRead

end
-- ==== Proof.RefReadI.lean ====
/-
  The reference's edge lists read at an index.

  Edge number `e = (b·1024 + n)·1024 + m` (batch `b`, source `n`, target `m`) has the flat source node `b·1024 + n`
  and the flat target node `b·1024 + m`: the in-batch node numbers are an iota repeated along one axis of a
  1024×1024 table or the other, and the batch offset `b·1024` is an iota times 1024. All of it is arithmetic on
  32-bit words that stays below 2048, so nothing wraps and the words read signed are the numbers themselves.
-/
import proofs.«112177_g63393717289321_cont_9to1c4b_364_24_alg».proof.Proof.RefStages
import Idealize.ShloMosaic.Lib.ValueIdx
import Idealize.ShloMosaic.Lib.ValueLayout
import Idealize.ShloMosaic.Lib.Pipeline.Value
import Idealize.ShloMosaic.Lib.IdealHost

noncomputable section

namespace Cert.ReferenceIdeal.RefRead

open Cert.ReferenceIdeal Cert.ReferenceIdeal.Gen Cert.ReferenceIdeal.RefStages Idealize.ShloMosaic
  Idealize.ShloMosaic.ValueIdx

/-- The batch offset of batch `b`. -/
theorem offs_apply (b : Fin 2) (u : Fin 1) :
    offs (ix2 b u) = IntOp.muli (BitVec.ofNat 32 b.val) 1024#32 := by
  unfold offs
  refine (broadcastInDim_apply _ bcast_S2_S2x1_0 _ (ix2 b u) (ix1 b) fun a => ?_).trans rfl
  match a with
  | ⟨0, _⟩ => rfl

/-- The in-batch source node of in-batch edge `n·1024 + m` is `n`. -/
theorem srcLocal_apply (n m : Fin 1024) (e' : Fin 1048576) (he : e'.val = n.val * 1024 + m.val) :
    srcLocal (ix1 e') = BitVec.ofNat 32 n.val := by
  unfold srcLocal
  refine (shapeCast_apply _ shapeCasts_S1024x1024_S1048576 (ix1 e') (ix2 n m) ?_).trans ?_
  · rw [Shape.rowMajor_val_two, Shape.rowMajor_val_one]; exact he.symm
  · refine (broadcastInDim_apply _ bcast_S1024_S1024x1024_0 _ (ix2 n m) (ix1 n) fun a => ?_).trans rfl
    match a with
    | ⟨0, _⟩ => rfl

/-- The in-batch target node of in-batch edge `n·1024 + m` is `m`. -/
theorem tgtLocal_apply (n m : Fin 1024) (e' : Fin 1048576) (he : e'.val = n.val * 1024 + m.val) :
    tgtLocal (ix1 e') = BitVec.ofNat 32 m.val := by
  unfold tgtLocal
  refine (shapeCast_apply _ shapeCasts_S1024x1024_S1048576 (ix1 e') (ix2 n m) ?_).trans ?_
  · rw [Shape.rowMajor_val_two, Shape.rowMajor_val_one]; exact he.symm
  · refine (broadcastInDim_apply _ bcast_S1x1024_S1024x1024_0_1 _ (ix2 n m) (ix2 (0 : Fin 1) m) fun a => ?_).trans ?_
    · match a with
      | ⟨0, _⟩ => rfl
      | ⟨1, _⟩ => rfl
    · refine (shapeCast_apply _ shapeCasts_S1024_S1x1024 (ix2 (0 : Fin 1) m) (ix1 m) ?_).trans rfl
      rw [Shape.rowMajor_val_two, Shape.rowMajor_val_one]
      show m.val = 0 * 1024 + m.val
      omega

/-- An in-batch node number plus the batch offset, as a word. -/
theorem word_eq (b : Fin 2) (n : Fin 1024) :
    IntOp.addi (BitVec.ofNat 32 n.val) (IntOp.muli (BitVec.ofNat 32 b.val) 1024#32)
      = BitVec.ofNat 32 (b.val * 1024 + n.val) := by
  show BitVec.ofNat 32 n.val + BitVec.ofNat 32 b.val * BitVec.ofNat 32 1024 = _
  rw [← BitVec.ofNat_mul, ← BitVec.ofNat_add, Nat.add_comm]

/-- In-batch node numbers made flat: at edge `b·1024² + e'` the in-batch number at `e'` plus `b·1024`. -/
theorem globalIdx_apply (loc : IVec S1048576 32) (b : Fin 2) (e' : Fin 1048576) (e : Fin 2097152)
    (he : e.val = b.val * 1048576 + e'.val) :
    globalIdx loc (ix1 e) = IntOp.addi (loc (ix1 e')) (IntOp.muli (BitVec.ofNat 32 b.val) 1024#32) := by
  unfold globalIdx
  refine (shapeCast_apply _ shapeCasts_S2x1048576_S2097152 (ix1 e) (ix2 b e') ?_).trans ?_
  · rw [Shape.rowMajor_val_two, Shape.rowMajor_val_one]; exact he.symm
  · show IntOp.addi _ _ = _
    congr 1
    refine (broadcastInDim_apply _ bcast_S1x1048576_S2x1048576_0_1 _ (ix2 b e') (ix2 (0 : Fin 1) e') fun a => ?_).trans ?_
    · match a with
      | ⟨0, _⟩ => rfl
      | ⟨1, _⟩ => rfl
    · refine (broadcastInDim_apply _ bcast_S1048576_S1x1048576_1 _ (ix2 (0 : Fin 1) e') (ix1 e') fun a => ?_)
      match a with
      | ⟨0, _⟩ => rfl

/-- The flat source node of edge `(b·1024 + n)·1024 + m`. -/
theorem srcIdx_apply (b : Fin 2) (n m : Fin 1024) (e : Fin 2097152)
    (he : e.val = (b.val * 1024 + n.val) * 1024 + m.val) :
    srcIdx (ix1 e) = BitVec.ofNat 32 (b.val * 1024 + n.val) := by
  have h' : n.val * 1024 + m.val < 1048576 := by have := n.isLt; have := m.isLt; omega
  unfold srcIdx
  rw [globalIdx_apply srcLocal b ⟨n.val * 1024 + m.val, h'⟩ e (by show e.val = b.val * 1048576 + (n.val * 1024 + m.val); omega),
    srcLocal_apply n m _ rfl, word_eq]

/-- The flat target node of edge `(b·1024 + n)·1024 + m`. -/
theorem tgtIdx_apply (b : Fin 2) (n m : Fin 1024) (e : Fin 2097152)
    (he : e.val = (b.val * 1024 + n.val) * 1024 + m.val) :
    tgtIdx (ix1 e) = BitVec.ofNat 32 (b.val * 1024 + m.val) := by
  have h' : n.val * 1024 + m.val < 1048576 := by have := n.isLt; have := m.isLt; omega
  unfold tgtIdx
  rw [globalIdx_apply tgtLocal b ⟨n.val * 1024 + m.val, h'⟩ e (by show e.val = b.val * 1048576 + (n.val * 1024 + m.val); omega),
    tgtLocal_apply n m _ rfl, word_eq]

/-- A word below `2048` read signed is the number. -/
theorem toInt_small (k : Nat) (hk : k < 2048) : (BitVec.ofNat 32 k).toInt = (k : Int) := by
  have h1 : (BitVec.ofNat 32 k).toNat = k := by rw [BitVec.toNat_ofNat]; omega
  rw [BitVec.toInt_eq_toNat_of_lt (by rw [h1]; omega), h1]

end Cert.ReferenceIdeal.RefRead

end
-- ==== Proof.RefReadT.lean ====
/-
  Taking rows by node number, read at an index.

  When every row number of a list, read signed, lies in `[0, 2047]`, no number is wrapped, every number passes the
  range test, the clamp of the gather changes nothing, and the fill value is never chosen: row `e` of the result is
  row `idx e` of the operand.
-/
import proofs.«112177_g63393717289321_cont_9to1c4b_364_24_alg».proof.Proof.RefStages
import Idealize.ShloMosaic.Lib.ValueIdx
import Idealize.ShloMosaic.Lib.ValueLayout
import Idealize.ShloMosaic.Lib.Pipeline.Value
import Idealize.ShloMosaic.Lib.IdealHost
import Idealize.ShloMosaic.Lib.ReduceAll

noncomputable section

namespace Cert.ReferenceIdeal.RefRead

open Cert.ReferenceIdeal Cert.ReferenceIdeal.Gen Cert.ReferenceIdeal.RefStages Idealize.ShloMosaic
  Idealize.ShloMosaic.ValueIdx

/-- A conjunction folded over a list of true conditions, from true, is true. -/
theorem foldl_andi_one {ι : Type} (f : ι → BitVec 1) (hf : ∀ n, f n = 1#1) :
    ∀ l : List ι, l.foldl (fun r n => IntOp.andi r (f n)) 1#1 = 1#1
  | [] => rfl
  | a :: l => by
    rw [List.foldl_cons, hf a]
    exact foldl_andi_one f hf l

/-- A nonnegative row number is not wrapped. -/
theorem takeIdx_apply (idx : IVec S2097152 32) (e : Fin 2097152) (u : Fin 1) (h0 : 0 ≤ (idx (ix1 e)).toInt) :
    RefStages.takeIdx idx (ix2 e u) = idx (ix1 e) := by
  unfold RefStages.takeIdx
  refine (broadcastInDim_apply _ bcast_S2097152_S2097152x1_0 _ (ix2 e u) (ix1 e) fun a => ?_).trans ?_
  · match a with
    | ⟨0, _⟩ => rfl
  · show Scalar.select (IntOp.cmpi .slt (idx (ix1 e)) 0#32) _ (idx (ix1 e)) = _
    have hc : IntOp.cmpi .slt (idx (ix1 e)) 0#32 = 0#1 :=
      eq_zero_of_ne_one fun h => by
        have := IntOp.cmpi_slt.1 h
        rw [show (0#32 : BitVec 32).toInt = 0 from rfl] at this
        omega
    rw [hc, select_zero]

/-- Row numbers all in range pass the range test. -/
theorem takeOk_apply (i5 : IVec S2097152x1 32)
    (hall : ∀ i, 0 ≤ (i5 i).toInt ∧ (i5 i).toInt ≤ 2047) (e : Fin 2097152) :
    takeOk i5 (ix1 e) = 1#1 := by
  unfold takeOk
  rw [Host.reduce_eq_foldl]
  refine foldl_andi_one _ (fun i => ?_) _
  show IntOp.andi (IntOp.cmpi .sge (i5 i) 0#32) (IntOp.cmpi .sle (i5 i) 2047#32) = 1#1
  refine IntOp.andi_eq_one.2 ⟨IntOp.cmpi_sge.2 ?_, IntOp.cmpi_sle.2 ?_⟩
  · rw [show (0#32 : BitVec 32).toInt = 0 from rfl]; exact (hall i).1
  · rw [show (2047#32 : BitVec 32).toInt = 2047 from rfl]; exact (hall i).2

/-- The gather of rows at `(e, k)`: the operand's row at the start index read signed (in range: not clamped), lane `k`. -/
theorem gather_rows_apply {α : Type} (H : S2048x32.Idx → α) (i5 : IVec S2097152x1 32) (e : Fin 2097152) (k : Fin 32)
    (t : Fin 2048) (ht : (i5 (ix2 e (0 : Fin 1))).toInt = (t.val : Int)) :
    Host.gather gather_S2048x32_S2097152x1_S2097152x32_1_0_n_n_0_1_132 H i5 (ix2 e k) = H (ix2 t k) := by
  have h0 : gather_S2048x32_S2097152x1_S2097152x32_1_0_n_n_0_1_132.start (ix2 e k) i5 (0 : Fin 2)
      + gather_S2048x32_S2097152x1_S2097152x32_1_0_n_n_0_1_132.batchCoord (ix2 e k) (0 : Fin 2)
      + gather_S2048x32_S2097152x1_S2097152x32_1_0_n_n_0_1_132.offCoord (ix2 e k) (0 : Fin 2) = t.val := by
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S2048x32_S2097152x1_S2097152x32_1_0_n_n_0_1_132.startIndexMap from
      List.mem_singleton.mpr rfl)]
    have hsi : gather_S2048x32_S2097152x1_S2097152x32_1_0_n_n_0_1_132.siIdx (ix2 e k)
        ⟨List.idxOf (0 : Fin 2) gather_S2048x32_S2097152x1_S2097152x32_1_0_n_n_0_1_132.startIndexMap,
          List.idxOf_lt_length_iff.2 (List.mem_singleton.mpr rfl)⟩ = ix2 e (0 : Fin 1) := by
      funext c; refine Fin.ext ?_
      match c with
      | ⟨0, _⟩ => rfl
      | ⟨1, _⟩ => rfl
    rw [hsi, ht]
    show min (t.val : Int).toNat (2048 - 1) = t.val
    have := t.isLt
    simp only [Int.toNat_natCast]
    omega
  have h1 : gather_S2048x32_S2097152x1_S2097152x32_1_0_n_n_0_1_132.start (ix2 e k) i5 (1 : Fin 2)
      + gather_S2048x32_S2097152x1_S2097152x32_1_0_n_n_0_1_132.batchCoord (ix2 e k) (1 : Fin 2)
      + gather_S2048x32_S2097152x1_S2097152x32_1_0_n_n_0_1_132.offCoord (ix2 e k) (1 : Fin 2) = k.val := by
    have hs : gather_S2048x32_S2097152x1_S2097152x32_1_0_n_n_0_1_132.start (ix2 e k) i5 (1 : Fin 2) = 0 := by
      unfold GatherDims.start
      rw [dif_neg (show ¬ (1 : Fin 2) ∈ gather_S2048x32_S2097152x1_S2097152x32_1_0_n_n_0_1_132.startIndexMap by decide)]
    rw [hs, GatherDims.batchCoord_eq_zero _ _ _ List.not_mem_nil]
    show 0 + 0 + k.val = k.val
    omega
  unfold Host.gather
  refine congrArg H (funext fun a => Fin.ext ?_)
  match a with
  | ⟨0, _⟩ => exact h0
  | ⟨1, _⟩ => exact h1

/-- Rows taken at row numbers all in range: row `e` is the operand's row `idx e`. -/
theorem take_apply (H : FVec Ideal S2048x32 .f32) (idx : IVec S2097152 32)
    (hall : ∀ e', 0 ≤ (idx (ix1 e')).toInt ∧ (idx (ix1 e')).toInt ≤ 2047)
    (e : Fin 2097152) (k : Fin 32) (t : Fin 2048) (ht : (idx (ix1 e)).toInt = (t.val : Int)) :
    take H idx (ix2 e k) = H (ix2 t k) := by
  have hidx : ∀ e' (u : Fin 1), RefStages.takeIdx idx (ix2 e' u) = idx (ix1 e') := fun e' u => takeIdx_apply idx e' u (hall e').1
  have hall5 : ∀ i, 0 ≤ (RefStages.takeIdx idx i).toInt ∧ (RefStages.takeIdx idx i).toInt ≤ 2047 := fun i => by
    rw [eq_ix2 i]
    rw [show ix2 (i 0) (i 1) = ix2 (⟨(i 0).val, idx2_lt0 i⟩ : Fin 2097152) (⟨(i 1).val, idx2_lt1 i⟩ : Fin 1) from rfl, hidx]
    exact hall _
  unfold take
  rw [select_apply]
  have hok : broadcastInDim S2097152x32 ![0] bcast_S2097152_S2097152x32_0 (takeOk (RefStages.takeIdx idx)) (ix2 e k) = 1#1 := by
    refine (broadcastInDim_apply _ bcast_S2097152_S2097152x32_0 _ (ix2 e k) (ix1 e) fun a => ?_).trans
      (takeOk_apply _ hall5 e)
    match a with
    | ⟨0, _⟩ => rfl
  rw [hok, select_one]
  exact gather_rows_apply H (RefStages.takeIdx idx) e k t (by rw [hidx, ht])

end Cert.ReferenceIdeal.RefRead

end
-- ==== Proof.EdgeSum.lean ====
/-
  The edges of the two batches, numbered in row-major order, and a sum over the edges into one node.

  Edge `(b, n, m)` — batch `b`, source node `n`, target node `m` — has the number `(b * 1024 + n) * 1024 + m`;
  the numbering is a bijection between the triples and `Fin 2097152` (`2 * 1024 * 1024 = 2097152`). A sum over the
  edges that a predicate selects, when the predicate selects exactly the edges into node `m` of batch `b`, is
  therefore a sum over the source nodes `n`.
-/
import Mathlib.Algebra.BigOperators.Group.Finset.Basic
import Mathlib.Data.Fintype.Basic
import Mathlib.Data.Fin.Basic

open scoped BigOperators

namespace Cert.Gcn

/-- The number of the edge of batch `b` from node `n` to node `m`. -/
def edge (b : Fin 2) (n m : Fin 1024) : Fin 2097152 :=
  ⟨(b.val * 1024 + n.val) * 1024 + m.val, by
    have hb := b.isLt
    have hn := n.isLt
    have hm := m.isLt
    omega⟩

theorem edge_val (b : Fin 2) (n m : Fin 1024) : (edge b n m).val = (b.val * 1024 + n.val) * 1024 + m.val := rfl

/-- Every edge number is the number of a triple: `b = e / 1048576`, `n = e / 1024 % 1024`, `m = e % 1024`. -/
theorem edge_surj (e : Fin 2097152) : ∃ b n m, e = edge b n m := by
  have he := e.isLt
  refine ⟨⟨e.val / 1048576, by omega⟩, ⟨e.val / 1024 % 1024, by omega⟩, ⟨e.val % 1024, by omega⟩, Fin.ext ?_⟩
  rw [edge_val]
  show e.val = (e.val / 1048576 * 1024 + e.val / 1024 % 1024) * 1024 + e.val % 1024
  omega

/-- Distinct triples have distinct edge numbers. -/
theorem edge_inj {b b' : Fin 2} {n n' m m' : Fin 1024} (h : edge b n m = edge b' n' m') :
    b = b' ∧ n = n' ∧ m = m' := by
  have h' : (b.val * 1024 + n.val) * 1024 + m.val = (b'.val * 1024 + n'.val) * 1024 + m'.val := congrArg Fin.val h
  have hn := n.isLt
  have hm := m.isLt
  have hn' := n'.isLt
  have hm' := m'.isLt
  refine ⟨Fin.ext ?_, Fin.ext ?_, Fin.ext ?_⟩ <;> omega

/-- A sum over the edges that a predicate selects, when the predicate selects exactly the edges into node `m` of
    batch `b`, is the sum over the source nodes. -/
theorem sum_filter_edges {M : Type*} [AddCommMonoid M] (f : Fin 2097152 → M) (P : Fin 2097152 → Prop)
    [DecidablePred P] (b : Fin 2) (m : Fin 1024) (hP : ∀ b' n m', P (edge b' n m') ↔ (b' = b ∧ m' = m)) :
    ∑ e ∈ Finset.univ.filter P, f e = ∑ n : Fin 1024, f (edge b n m) := by
  symm
  refine Finset.sum_bij (fun n _ => edge b n m) ?_ ?_ ?_ ?_
  · intro n _
    exact Finset.mem_filter.2 ⟨Finset.mem_univ _, (hP b n m).2 ⟨rfl, rfl⟩⟩
  · intro n _ n' _ h
    exact (edge_inj h).2.1
  · intro e he
    obtain ⟨b', n, m', rfl⟩ := edge_surj e
    obtain ⟨rfl, rfl⟩ := (hP b' n m').1 (Finset.mem_filter.1 he).2
    exact ⟨n, Finset.mem_univ _, rfl⟩
  · intro n _
    rfl

end Cert.Gcn
-- ==== Proof.RefReadS.lean ====
/-
  The reference's layers read at an index.

  Edge `(b, n, m)` carries the message `a n m · h (b, n)` (its weight times its source's row). The accumulating
  scatter adds into row `b·1024 + m` exactly the messages of the edges whose target is that row — the edges
  `(b, n, m)` over all sources `n` — so the row holds `∑ n, a n m · h (b, n) k` on lane `k`. The product with the
  weights and the exponential linear unit then give one layer in the second grouping of the specification; two layers
  and a reshape give the result.
-/
import proofs.«112177_g63393717289321_cont_9to1c4b_364_24_alg».proof.Proof.RefReadA
import proofs.«112177_g63393717289321_cont_9to1c4b_364_24_alg».proof.Proof.RefReadI
import proofs.«112177_g63393717289321_cont_9to1c4b_364_24_alg».proof.Proof.RefReadT
import proofs.«112177_g63393717289321_cont_9to1c4b_364_24_alg».proof.Proof.EdgeSum
import proofs.«112177_g63393717289321_cont_9to1c4b_364_24_alg».proof.Proof.LibRowOps
import Idealize.ShloMosaic.Lib.KernelVsHost

noncomputable section

open scoped BigOperators

namespace Cert.ReferenceIdeal.RefRead

open Cert.ReferenceIdeal Cert.ReferenceIdeal.Gen Cert.ReferenceIdeal.RefStages Idealize.ShloMosaic
  Idealize.ShloMosaic.ValueIdx Cert.Gcn

local notation "dS" => scatter_S2048x32_S2097152x1_S2097152x32_1_0_0_1

/-! ### Where an update lands -/

theorem scatter_start0 (idx : IVec S2097152x1 32) (e : Fin 2097152) (k' : Fin 32) :
    ScatterDims.start dS (ix2 e k') idx (0 : Fin 2) = (idx (ix2 e (0 : Fin 1))).toInt := by
  unfold ScatterDims.start
  rw [dif_pos (show (0 : Fin 2) ∈ ScatterDims.scatterDimsToOperandDims dS from List.mem_singleton.mpr rfl)]
  have hsi : ScatterDims.siIdx dS (ix2 e k')
      ⟨List.idxOf (0 : Fin 2) (ScatterDims.scatterDimsToOperandDims dS),
        List.idxOf_lt_length_iff.2 (List.mem_singleton.mpr rfl)⟩ = ix2 e (0 : Fin 1) := by
    funext c; refine Fin.ext ?_
    match c with
    | ⟨0, _⟩ => rfl
    | ⟨1, _⟩ => rfl
  rw [hsi]

theorem scatter_start1 (idx : IVec S2097152x1 32) (e : Fin 2097152) (k' : Fin 32) :
    ScatterDims.start dS (ix2 e k') idx (1 : Fin 2) = 0 := by
  unfold ScatterDims.start
  rw [dif_neg (show ¬ (1 : Fin 2) ∈ ScatterDims.scatterDimsToOperandDims dS by decide)]

theorem scatter_window0 (e : Fin 2097152) (k' : Fin 32) : ScatterDims.window dS (ix2 e k') (0 : Fin 2) = 0 := by
  unfold ScatterDims.window
  rw [dif_neg (show ¬ (0 : Fin 2) ∈ ScatterDims.sKept dS by decide)]

theorem scatter_window1 (e : Fin 2097152) (k' : Fin 32) : ScatterDims.window dS (ix2 e k') (1 : Fin 2) = k'.val := by
  unfold ScatterDims.window
  rw [dif_pos (show (1 : Fin 2) ∈ ScatterDims.sKept dS by decide)]
  rfl

/-- Update `(e, k')` lands on `(t, k)` exactly when the scatter index of `e`, read signed, is `t` and `k' = k`. -/
theorem resultIdx_iff (idx : IVec S2097152x1 32) (e : Fin 2097152) (k' : Fin 32) (t : Fin 2048) (k : Fin 32) :
    ScatterDims.resultIdx? dS (ix2 e k') idx = some (ix2 t k)
      ↔ ((idx (ix2 e (0 : Fin 1))).toInt = (t.val : Int) ∧ k' = k) := by
  have ht := t.isLt
  have hk' := k'.isLt
  unfold ScatterDims.resultIdx?
  split
  · next h =>
    rw [Option.some_inj]
    constructor
    · intro hEq
      have e0 := congrArg (fun f => (f (0 : Fin 2)).val) hEq
      have e1 := congrArg (fun f => (f (1 : Fin 2)).val) hEq
      have h0 := (h (0 : Fin 2)).1
      simp only [scatter_start0, scatter_window0, scatter_start1, scatter_window1] at e0 e1 h0
      have e0' : ((idx (ix2 e (0 : Fin 1))).toInt + ((0 : Nat) : Int)).toNat = t.val := e0
      have e1' : ((0 : Int) + (k'.val : Int)).toNat = k.val := e1
      refine ⟨by omega, Fin.ext (by omega)⟩
    · rintro ⟨h0, rfl⟩
      funext a
      refine Fin.ext ?_
      match a with
      | ⟨0, _⟩ =>
        show (ScatterDims.start dS (ix2 e k') idx (0 : Fin 2) + (ScatterDims.window dS (ix2 e k') (0 : Fin 2) : Int)).toNat = t.val
        rw [scatter_start0, scatter_window0, h0]
        omega
      | ⟨1, _⟩ =>
        show (ScatterDims.start dS (ix2 e k') idx (1 : Fin 2) + (ScatterDims.window dS (ix2 e k') (1 : Fin 2) : Int)).toNat = k'.val
        rw [scatter_start1, scatter_window1]
        omega
  · next h =>
    constructor
    · intro hEq; exact absurd hEq (by simp)
    · rintro ⟨h0, rfl⟩
      refine absurd (fun a => ?_) h
      match a with
      | ⟨0, _⟩ =>
        show 0 ≤ ScatterDims.start dS (ix2 e k') idx (0 : Fin 2) + (ScatterDims.window dS (ix2 e k') (0 : Fin 2) : Int)
          ∧ ScatterDims.start dS (ix2 e k') idx (0 : Fin 2) + (ScatterDims.window dS (ix2 e k') (0 : Fin 2) : Int) < ((2048 : Nat) : Int)
        rw [scatter_start0, scatter_window0, h0]
        omega
      | ⟨1, _⟩ =>
        show 0 ≤ ScatterDims.start dS (ix2 e k') idx (1 : Fin 2) + (ScatterDims.window dS (ix2 e k') (1 : Fin 2) : Int)
          ∧ ScatterDims.start dS (ix2 e k') idx (1 : Fin 2) + (ScatterDims.window dS (ix2 e k') (1 : Fin 2) : Int) < ((32 : Nat) : Int)
        rw [scatter_start1, scatter_window1]
        omega

/-! ### The flat node numbers are in range -/

/-- The flat number of node `n` of batch `b`. -/
def node (b : Fin 2) (n : Fin 1024) : Fin 2048 := ⟨b.val * 1024 + n.val, by have := b.isLt; have := n.isLt; omega⟩

theorem srcIdx_toInt (b : Fin 2) (n m : Fin 1024) :
    (srcIdx (ix1 (edge b n m))).toInt = ((node b n).val : Int) := by
  rw [srcIdx_apply b n m (edge b n m) (edge_val b n m)]
  exact toInt_small _ (node b n).isLt

theorem tgtIdx_toInt (b : Fin 2) (n m : Fin 1024) :
    (tgtIdx (ix1 (edge b n m))).toInt = ((node b m).val : Int) := by
  rw [tgtIdx_apply b n m (edge b n m) (edge_val b n m)]
  exact toInt_small _ (node b m).isLt

theorem srcIdx_range (e' : Fin 2097152) : 0 ≤ (srcIdx (ix1 e')).toInt ∧ (srcIdx (ix1 e')).toInt ≤ 2047 := by
  obtain ⟨b, n, m, rfl⟩ := edge_surj e'
  rw [srcIdx_toInt]
  have := (node b n).isLt
  omega

/-! ### One layer -/

/-- The message of edge `(b, n, m)` on lane `k`: its weight times its source's entry. -/
theorem msgs_apply (X : FVec Ideal S2x1024x32 .f32) (H : FVec Ideal S2048x32 .f32) (b : Fin 2) (n m : Fin 1024) (k : Fin 32) :
    msgs (adjFlat X) H (ix2 (edge b n m) k) = adj (rowsOf X b) n m * H (ix2 (node b n) k) := by
  unfold msgs
  rw [mulf_apply, take_apply H srcIdx srcIdx_range (edge b n m) k (node b n) (srcIdx_toInt b n m)]
  refine congrArg (· * H (ix2 (node b n) k)) ?_
  refine (broadcastInDim_apply _ bcast_S2097152x1_S2097152x32_0_1 _ (ix2 (edge b n m) k) (ix2 (edge b n m) (0 : Fin 1))
    fun a => ?_).trans ?_
  · match a with
    | ⟨0, _⟩ => rfl
    | ⟨1, _⟩ => rfl
  · refine (broadcastInDim_apply _ bcast_S2097152_S2097152x1_0 _ (ix2 (edge b n m) (0 : Fin 1)) (ix1 (edge b n m))
      fun a => ?_).trans (adjFlat_apply X b n m (edge b n m) (edge_val b n m))
    match a with
    | ⟨0, _⟩ => rfl

/-- A sum over the lanes in which only lane `k` can contribute. -/
theorem sum_lane {A : Prop} [Decidable A] (k : Fin 32) (g : Fin 32 → EReal) :
    (∑ k' : Fin 32, if A ∧ k' = k then g k' else 0) = if A then g k else 0 := by
  by_cases hA : A
  · simp only [hA, true_and, if_true]
    exact Finset.sum_ite_eq' Finset.univ k g |>.trans (by simp)
  · simp only [hA, false_and, if_false, Finset.sum_const_zero]

/-- The accumulating scatter at an index: the operand's entry plus the sum of the updates that land there. -/
theorem scatterAdd_apply {s si u : Shape} {w : Nat} {φ : FTy} (d : ScatterDims s si u) (x : FVec Ideal s φ) (idx : IVec si w)
    (upd : FVec Ideal u φ) (i : s.Idx) :
    Host.scatterAdd d x idx upd i = x i + ∑ j ∈ Finset.univ.filter (fun j => d.resultIdx? j idx = some i), upd j := rfl

/-- The messages summed into node `m` of batch `b`, lane `k`. -/
theorem agg_apply (X : FVec Ideal S2x1024x32 .f32) (H : FVec Ideal S2048x32 .f32) (b : Fin 2) (m : Fin 1024) (k : Fin 32) :
    (agg (adjFlat X) H (ix2 (node b m) k) : EReal) = ∑ n : Fin 1024, adj (rowsOf X b) n m * H (ix2 (node b n) k) := by
  unfold agg
  rw [scatterAdd_apply, broadcastInDim_scalar_apply, constant_apply, Ideal.ofBits_zero_f32, zero_add, Finset.sum_filter, sum_idx2]
  have hidx : ∀ e : Fin 2097152,
      broadcastInDim S2097152x1 ![0] bcast_S2097152_S2097152x1_0 tgtIdx (ix2 e (0 : Fin 1)) = tgtIdx (ix1 e) := fun e => by
    refine broadcastInDim_apply _ bcast_S2097152_S2097152x1_0 _ (ix2 e (0 : Fin 1)) (ix1 e) fun a => ?_
    match a with
    | ⟨0, _⟩ => rfl
  refine (Finset.sum_congr rfl fun e _ =>
    (Finset.sum_congr rfl fun k' _ => if_congr ((resultIdx_iff _ e k' (node b m) k).trans (by rw [hidx])) rfl rfl).trans
      (sum_lane (A := (tgtIdx (ix1 e)).toInt = ((node b m).val : Int)) k fun k' => msgs (adjFlat X) H (ix2 e k'))).trans ?_
  rw [← Finset.sum_filter,
    sum_filter_edges (fun e => msgs (adjFlat X) H (ix2 e k)) (fun e => (tgtIdx (ix1 e)).toInt = ((node b m).val : Int)) b m
      (fun b' n m' => by
        rw [tgtIdx_toInt]
        show (((b'.val * 1024 + m'.val : Nat)) : Int) = ((b.val * 1024 + m.val : Nat) : Int) ↔ _
        have := m.isLt; have := m'.isLt
        constructor
        · intro h; exact ⟨Fin.ext (by omega), Fin.ext (by omega)⟩
        · rintro ⟨rfl, rfl⟩; rfl)]
  exact Finset.sum_congr rfl fun n _ => msgs_apply X H b n m k

/-- The single-precision pattern of `1.0` denotes `1`. -/
theorem ofBits_one_f32 : Ideal.ofBits .f32 0x3F800000#32 = 1 := by
  rw [show (1 : EReal) = ((1 : ℝ) : EReal) by norm_cast]
  simp [Ideal.ofBits, Ideal.ieee, -EReal.coe_mul]; norm_num

/-- The exponential linear unit as the reference spells it, at an index, is the specification's. -/
theorem elu_apply (z : FVec Ideal S2048x32 .f32) (i : S2048x32.Idx) : RefStages.elu z i = Gcn.elu (z i) := by
  unfold RefStages.elu Gcn.elu
  show Scalar.select (Ideal.cmp .ogt (z i) (Ideal.ofBits .f32 0x00000000#32)) (z i)
    (Ideal.ofBits .f32 0x3F800000#32 * (Ideal.exp (Scalar.select (Ideal.cmp .ogt (z i) (Ideal.ofBits .f32 0x00000000#32))
      (Ideal.ofBits .f32 0x00000000#32) (z i)) - 1)) = _
  rw [Ideal.ofBits_zero_f32, ofBits_one_f32, one_mul]
  by_cases h : 0 < z i
  · have hc : Ideal.cmp .ogt (z i) 0 = 1#1 := by simp [Ideal.cmp, h]
    rw [hc, select_one, if_pos h]
  · have hc : Ideal.cmp .ogt (z i) 0 = 0#1 := by simp [Ideal.cmp, h]
    rw [hc, select_zero, select_zero, if_neg h]

/-- One layer of the reference at node `m` of batch `b`, when row `n` of batch `b` of the features is `h n`. -/
theorem layer_apply (X : FVec Ideal S2x1024x32 .f32) (H : FVec Ideal S2048x32 .f32) (W : FVec Ideal S32x32 .f32) (b : Fin 2)
    (h : Rows) (hH : ∀ n k, H (ix2 (node b n) k) = h n k) (m : Fin 1024) (j : Fin 32) :
    layer (adjFlat X) H W (ix2 (node b m) j) = refLayer (adj (rowsOf X b)) h (wtOf W) m j := by
  unfold layer
  rw [elu_apply, ← matmul_zero_eq_dotGeneral]
  show Gcn.elu (FloatOps.matmul dot_S2048x32_S32x32_S2048x32_1_0_0_1_n_n none (agg (adjFlat X) H) W
    (constant S2048x32 .f32 0x00000000#32) (ix2 (node b m) j)) = _
  rw [Cert.LibRowOps.matmul_plain_apply dot_S2048x32_S32x32_S2048x32_1_0_0_1_n_n rfl none (agg (adjFlat X) H) W (node b m) j]
  unfold refLayer wtOf
  refine congrArg Gcn.elu (Finset.sum_congr rfl fun k _ => ?_)
  rw [agg_apply]
  simp only [hH]

/-! ### The result -/

/-- The reference's result at `(b, m, j)`: two layers in the second grouping, on batch `b`'s rows. -/
theorem out_apply (X : FVec Ideal S2x1024x32 .f32) (W1 W2 : FVec Ideal S32x32 .f32) (b : Fin 2) (m : Fin 1024) (j : Fin 32) :
    RefStages.out X W1 W2 (ix3 b m j) = refOut (rowsOf X b) (wtOf W1) (wtOf W2) m j := by
  unfold RefStages.out refOut
  refine (shapeCast_apply _ shapeCasts_S2048x32_S2x1024x32 (ix3 b m j) (ix2 (node b m) j) ?_).trans ?_
  · rw [Shape.rowMajor_val_three, Shape.rowMajor_val_two]; rfl
  · refine layer_apply X _ W2 b _ (fun n k => ?_) m j
    refine layer_apply X _ W1 b (rowsOf X b) (fun n' k' => ?_) n k
    refine shapeCast_apply X shapeCasts_S2x1024x32_S2048x32 (ix2 (node b n') k') (ix3 b n' k') ?_
    rw [Shape.rowMajor_val_three, Shape.rowMajor_val_two]; rfl

end Cert.ReferenceIdeal.RefRead

end
-- ==== Proof.Algebra.lean ====
/-
  The two groupings of the two-layer graph convolution agree on real inputs.

  The adjacency `a n m = tanh (max (∑ f, x n f * x m f) 0)` is symmetric (a product of two extended reals
  commutes) and, for real `x`, real (finite sums and products of reals are real, the positive part of a real is
  real, `tanh` of a real is real). For a symmetric real adjacency and real features and weights the two layer
  forms are the same real number: distributivity, the exchange of two finite sums and associativity hold on the
  reals. The exponential linear unit of a real is real, so the outputs of the first layer are again real and the
  argument repeats for the second layer.
-/
import proofs.«112177_g63393717289321_cont_9to1c4b_364_24_alg».proof.Proof.Spec
import Mathlib.Data.EReal.Basic
import Mathlib.Data.EReal.Operations

noncomputable section

open scoped BigOperators

namespace Cert.Gcn

open Idealize.ShloMosaic

/-- The coercion of the reals into the extended reals commutes with finite sums. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsReal.coe (r : ℝ) : IsReal (r : EReal) := ⟨r, rfl⟩

theorem IsReal.zero : IsReal 0 := ⟨0, rfl⟩

theorem IsReal.add {y z : EReal} (hy : IsReal y) (hz : IsReal z) : IsReal (y + z) := by
  obtain ⟨r, rfl⟩ := hy
  obtain ⟨s, rfl⟩ := hz
  exact ⟨r + s, (EReal.coe_add r s).symm⟩

theorem IsReal.mul {y z : EReal} (hy : IsReal y) (hz : IsReal z) : IsReal (y * z) := by
  obtain ⟨r, rfl⟩ := hy
  obtain ⟨s, rfl⟩ := hz
  exact ⟨r * s, (EReal.coe_mul r s).symm⟩

/-- A finite sum of reals is real. -/
theorem IsReal.sum {ι : Type} (s : Finset ι) (f : ι → EReal) (hf : ∀ i, IsReal (f i)) :
    IsReal (∑ i ∈ s, f i) := by
  choose g hg using hf
  exact ⟨∑ i ∈ s, g i, by rw [coe_sum]; exact Finset.sum_congr rfl (fun i _ => hg i)⟩

/-- The positive part of a real is real. -/
theorem IsReal.max_zero {z : EReal} (hz : IsReal z) : IsReal (max z 0) := by
  obtain ⟨r, rfl⟩ := hz
  rcases le_total (r : EReal) 0 with h | h
  · rw [max_eq_right h]; exact IsReal.zero
  · rw [max_eq_left h]; exact IsReal.coe r

theorem IsReal.tanh {z : EReal} (hz : IsReal z) : IsReal (Ideal.tanh z) := by
  obtain ⟨r, rfl⟩ := hz
  exact ⟨Real.tanh r, rfl⟩

/-- The exponential linear unit of a real is real. -/
theorem IsReal.elu {z : EReal} (hz : IsReal z) : IsReal (elu z) := by
  obtain ⟨r, rfl⟩ := hz
  unfold Cert.Gcn.elu
  split
  · exact IsReal.coe r
  · exact ⟨Real.exp r - 1, by rw [Ideal.exp_coe, EReal.coe_sub, EReal.coe_one]⟩

/-- The inner product is symmetric. -/
theorem gram_symm (x : Rows) (n m : Fin 1024) : gram x n m = gram x m n :=
  Finset.sum_congr rfl (fun f _ => mul_comm (x n f) (x m f))

/-- The adjacency is symmetric. -/
theorem adj_symm (x : Rows) (n m : Fin 1024) : adj x n m = adj x m n := by
  unfold adj
  rw [gram_symm]

/-- The adjacency of real embeddings is real. -/
theorem adj_real {x : Rows} (hx : ∀ n f, IsReal (x n f)) (n m : Fin 1024) : IsReal (adj x n m) :=
  IsReal.tanh (IsReal.max_zero (IsReal.sum _ _ (fun f => IsReal.mul (hx n f) (hx m f))))

/-- The output of a layer on real inputs is real. -/
theorem kerLayer_real {a : Adj} {h : Rows} {w : Wt} (ha : ∀ n m, IsReal (a n m)) (hh : ∀ n k, IsReal (h n k))
    (hw : ∀ k j, IsReal (w k j)) (m : Fin 1024) (j : Fin 32) : IsReal (kerLayer a h w m j) :=
  IsReal.elu (IsReal.sum _ _ (fun n => IsReal.mul (ha m n) (IsReal.sum _ _ (fun k => IsReal.mul (hh n k) (hw k j)))))

/-- On the reals: messages summed then projected = adjacency applied to the projected features, for a symmetric
    adjacency. -/
theorem real_layer_eq (a : Fin 1024 → Fin 1024 → ℝ) (h : Fin 1024 → Fin 32 → ℝ) (w : Fin 32 → Fin 32 → ℝ)
    (hs : ∀ n m, a n m = a m n) (m : Fin 1024) (j : Fin 32) :
    ∑ k : Fin 32, (∑ n : Fin 1024, a n m * h n k) * w k j = ∑ n : Fin 1024, a m n * ∑ k : Fin 32, h n k * w k j := by
  simp only [Finset.sum_mul, Finset.mul_sum]
  rw [Finset.sum_comm]
  refine Finset.sum_congr rfl (fun n _ => Finset.sum_congr rfl (fun k _ => ?_))
  rw [hs n m, mul_assoc]

/-- One layer: the two groupings agree for a symmetric real adjacency and real features and weights. -/
theorem refLayer_eq_kerLayer {a : Adj} {h : Rows} {w : Wt} (hs : ∀ n m, a n m = a m n)
    (ha : ∀ n m, IsReal (a n m)) (hh : ∀ n k, IsReal (h n k)) (hw : ∀ k j, IsReal (w k j)) :
    refLayer a h w = kerLayer a h w := by
  choose a' ha' using ha
  choose h' hh' using hh
  choose w' hw' using hw
  have hs' : ∀ n m, a' n m = a' m n := fun n m => by
    have := hs n m
    rw [ha', ha'] at this
    exact EReal.coe_injective this
  funext m j
  unfold refLayer kerLayer
  congr 1
  simp only [ha', hh', hw', ← EReal.coe_mul, ← coe_sum]
  exact congrArg _ (real_layer_eq a' h' w' hs' m j)

/-- The two-layer outputs agree on real inputs. -/
theorem refOut_eq_kerOut {x : Rows} {w1 w2 : Wt} (hx : ∀ n f, IsReal (x n f)) (hw1 : ∀ k j, IsReal (w1 k j))
    (hw2 : ∀ k j, IsReal (w2 k j)) : refOut x w1 w2 = kerOut x w1 w2 := by
  unfold refOut kerOut
  rw [refLayer_eq_kerLayer (adj_symm x) (adj_real hx) hx hw1]
  exact refLayer_eq_kerLayer (adj_symm x) (adj_real hx) (kerLayer_real (adj_real hx) hx hw1) hw2

end Cert.Gcn

end
-- ==== Proof.Finite.lean ====
/-
  From the precondition to real entries.

  The precondition is the conjunction of three tests, one per argument array: every entry's absolute value is
  below `+∞`. An extended real whose absolute value `max x (-x)` is below `⊤` is neither `⊤` nor `⊥`
  (the absolute value of either is `⊤`), hence a real number.
-/
import proofs.«112177_g63393717289321_cont_9to1c4b_364_24_alg».proof.Defs
import proofs.«112177_g63393717289321_cont_9to1c4b_364_24_alg».proof.Proof.Gen.Pre_finite_inputs
import proofs.«112177_g63393717289321_cont_9to1c4b_364_24_alg».proof.Proof.Spec
import Idealize.ShloMosaic.Lib.ReduceAll

noncomputable section

namespace Cert.FiniteInputs

open Idealize.ShloMosaic Idealize.ShloMosaic.ValueIdx Cert.Pre_finite_inputs

/-- The f32 pattern `0x7F800000` denotes `+∞`. -/
theorem ofBits_inf : Ideal.ofBits .f32 0x7F800000#32 = (⊤ : EReal) := by
  simp [Ideal.ofBits, Ideal.ieee]

/-- An extended real whose absolute value is below `⊤` is a real number. -/
theorem isReal_of_abs_lt_top (x : EReal) (h : max x (-x) < ⊤) : Cert.Gcn.IsReal x := by
  induction x using EReal.rec with
  | bot => simp at h
  | coe r => exact ⟨r, rfl⟩
  | top => simp at h

instance : Subsingleton S_.Idx := ⟨fun a b => funext fun d => d.elim0⟩

/-- One test read back: an entry whose comparison bit is 1 is real. -/
theorem isReal_of_test {s : Shape} (hb : S_.BroadcastsInDim s (![] : Fin 0 → Fin s.rank)) (X : FVec Ideal s .f32) (i : s.Idx)
    (h : cmpf .olt (Host.absf X) (broadcastInDim s ![] hb (constant S_ .f32 0x7F800000#32)) i = 1#1) :
    Cert.Gcn.IsReal (X i) := by
  have h' : BitVec.ofBool (decide (max (X i) (-(X i)) < Ideal.ofBits .f32 0x7F800000#32)) = 1#1 := h
  rw [ofBits_inf] at h'
  refine isReal_of_abs_lt_top (X i) ?_
  by_contra hn
  rw [decide_eq_false hn] at h'
  exact absurd h' (by decide)

theorem real_of_pre (X : FVec Ideal S2x1024x32 .f32) (W1 W2 : FVec Ideal S32x32 .f32)
    (h : Cert.Pre_finite_inputs.fn (F := Ideal) X W1 W2 = (fun _ => 1#1)) :
    (∀ i, Cert.Gcn.IsReal (X i)) ∧ (∀ i, Cert.Gcn.IsReal (W1 i)) ∧ (∀ i, Cert.Gcn.IsReal (W2 i)) := by
  have h0 := congrFun h ix0
  dsimp only [Cert.Pre_finite_inputs.fn] at h0
  obtain ⟨h01, h2⟩ := IntOp.andi_eq_one.1 h0
  obtain ⟨h0', h1⟩ := IntOp.andi_eq_one.1 h01
  exact ⟨fun i => isReal_of_test _ X i (Host.reduce_andi_all _ _ _ _ _ h0' i),
    fun i => isReal_of_test _ W1 i (Host.reduce_andi_all _ _ _ _ _ h1 i),
    fun i => isReal_of_test _ W2 i (Host.reduce_andi_all _ _ _ _ _ h2 i)⟩

/-- The same, read as rows of each batch and as weight matrices. -/
theorem rows_real_of_pre (X : FVec Ideal S2x1024x32 .f32) (W1 W2 : FVec Ideal S32x32 .f32)
    (h : Cert.Pre_finite_inputs.fn (F := Ideal) X W1 W2 = (fun _ => 1#1)) :
    (∀ b n f, Cert.Gcn.IsReal (Cert.Gcn.rowsOf X b n f)) ∧ (∀ k j, Cert.Gcn.IsReal (Cert.Gcn.wtOf W1 k j))
      ∧ (∀ k j, Cert.Gcn.IsReal (Cert.Gcn.wtOf W2 k j)) := by
  obtain ⟨hX, hW1, hW2⟩ := real_of_pre X W1 W2 h
  exact ⟨fun b n f => hX (ix3 b n f), fun k j => hW1 (ix2 k j), fun k j => hW2 (ix2 k j)⟩

end Cert.FiniteInputs

end
-- ==== Proof.LibAfter.lean ====
/-
  Two facts about a straight line of host operations, for running a long line in segments.

  The contents of the buffers after a line of operations is a fold over the line (each operation rewrites the buffers
  it writes and leaves the rest), so the contents after a concatenation of two lines are the contents after the second
  line, started from the contents after the first (`after_append`). And the side condition "no operation of the line
  allocates a buffer", which a run of the line asks for every member of the list, follows from the same condition
  stated as one conjunction over the list (`fresh_of_forall`), which splits along a concatenation (`forall_append`)
  and which, for a list written out operation by operation, holds by computation (`all_fresh`).
-/
import Idealize.ShloMosaic.Lib.StableHlo.Run

namespace Cert.LibAfter

open Idealize.ShloMosaic Idealize.ShloMosaic.StableHlo

variable {τ : Topo} {sig : RefSig} {Val : EltTy → Type}

/-- The buffer contents after a concatenation of two lines of operations are the contents after the second line,
    started from the contents after the first. -/
theorem after_append (a b : List (HloOp τ sig Val)) (V : Valuation τ sig Val) :
    after (a ++ b) V = after b (after a V) := by
  induction a generalizing V with
  | nil => rfl
  | cons op a ih => rw [List.cons_append, after_cons, after_cons, ih]

/-- A property of every operation of a concatenation is the property of every operation of each part. -/
theorem forall_append {α : Type} (p : α → Prop) (a b : List α) :
    (a ++ b).Forall p ↔ a.Forall p ∧ b.Forall p :=
  List.forall_append

/-- The property of each part gives the property of the concatenation. -/
theorem Forall.append {α : Type} {p : α → Prop} {a b : List α} (ha : a.Forall p) (hb : b.Forall p) :
    (a ++ b).Forall p :=
  (forall_append p a b).mpr ⟨ha, hb⟩

/-- "No operation allocates a buffer", stated as one conjunction over the list, gives it for every member. -/
theorem fresh_of_forall {ops : List (HloOp τ sig Val)} (h : ops.Forall fun op => op.fresh = ∅) :
    ∀ op ∈ ops, op.fresh = ∅ :=
  List.forall_iff_forall_mem.mp h

/-- The same for a family of lines, one per device: the form a run of the line asks for. -/
theorem fresh_of_forall_dev {ι : Type} {ops : ι → List (HloOp τ sig Val)}
    (h : ∀ d, (ops d).Forall fun op => op.fresh = ∅) : ∀ d, ∀ op ∈ ops d, op.fresh = ∅ :=
  fun d => fresh_of_forall (h d)

/-- `all_fresh ops` proves `ops.Forall fun op => op.fresh = ∅` for a list `ops` written out operation by operation
    (under a name, which is unfolded first): the conjunction over the list is split, and each operation built by a
    non-allocating builder has the empty set of fresh buffers by computation. -/
macro "all_fresh " ops:ident : tactic =>
  `(tactic| (first | simp only [$ops:ident, List.Forall] | simp only [List.Forall]
             repeat' constructor))

end Cert.LibAfter
-- ==== Proof.RefRun.lean ====
/-
  The reference program's run.

  The reference is a host program: a straight line of tensor operations, five of them calls of module-local
  functions (the positive part; a row lookup, twice; the exponential linear unit, twice), whose bodies are again
  straight lines. With every call replaced by the callee's operations over that call's buffers, the program is one
  list of 125 operations, and its run is the fold of their results over the contents of the three arguments. Read at
  the result's buffer, that fold is the composition of the operations' functions along the data flow, which is the
  function `RefStages.out` of the three arguments; the arguments' buffers are written by no operation.
-/
import proofs.«112177_g63393717289321_cont_9to1c4b_364_24_alg».proof.Proof.RefStages
import proofs.«112177_g63393717289321_cont_9to1c4b_364_24_alg».proof.Proof.LibAfter
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The program's 125 operations in order, each call replaced by the callee's operations over the call's buffers:
    the positive part is three operations (a zero, its broadcast, the maximum), a row lookup twenty-three (the wrapped
    row number, the range test, the gather, the fill value, the select), the exponential linear unit fifteen. -/
abbrev ops : List (HloOp τ sig (Elt F)) :=
  [ StableHlo.unary main_arg0 main_v0 ((extractStridedSlice S2x900x32 ![0, 0, 0] · slices_S2x1024x32_S2x900x32_0_0_0) : (⟨S2x1024x32, .f32⟩ : BufTy).Contents (Elt F) → (⟨S2x900x32, .f32⟩ : BufTy).Contents (Elt F)),
    StableHlo.unary main_arg0 main_v1 ((extractStridedSlice S2x124x32 ![0, 900, 0] · slices_S2x1024x32_S2x124x32_0_900_0) : (⟨S2x1024x32, .f32⟩ : BufTy).Contents (Elt F) → (⟨S2x124x32, .f32⟩ : BufTy).Contents (Elt F)),
    StableHlo.binary main_v0 main_v1 main_v2 ((fun a b => concatenate S2x1024x32 1 [⟨S2x900x32, a⟩, ⟨S2x124x32, b⟩] concatenates_S2x900x32_S2x124x32_S2x1024x32_d1) : (⟨S2x900x32, .f32⟩ : BufTy).Contents (Elt F) → (⟨S2x124x32, .f32⟩ : BufTy).Contents (Elt F) → (⟨S2x1024x32, .f32⟩ : BufTy).Contents (Elt F)),
    StableHlo.binary main_v2 main_v2 main_v3 ((fun l r => Host.dotGeneral dot_S2x1024x32_S2x1024x32_S2x1024x1024_2_2_1_1_0_0 none l r) : (⟨S2x1024x32, .f32⟩ : BufTy).Contents (Elt F) → (⟨S2x1024x32, .f32⟩ : BufTy).Contents (Elt F) → (⟨S2x1024x1024, .f32⟩ : BufTy).Contents (Elt F)),
    StableHlo.TRef.nullary main_call0.cst (constant S_ .f32 0x00000000#32),
    StableHlo.TRef.unary main_call0.cst main_call0.v0 (broadcastInDim S2x1024x1024 ![] bcast_S_S2x1024x1024),
    StableHlo.TRef.binary (.of main_v3 : StableHlo.TRef sig ⟨S2x1024x1024, .f32⟩) main_call0.v0 main_call0.v1 maximumf,
    StableHlo.unary main_v4 main_v5 (Host.tanh : (⟨S2x1024x1024, .f32⟩ : BufTy).Contents (Elt F) → (⟨S2x1024x1024, .f32⟩ : BufTy).Contents (Elt F)),
    StableHlo.nullary main_v6 (iotaInDim S1024 32 0),
    StableHlo.unary main_v6 main_v7 (broadcastInDim S1024x1024 ![0] bcast_S1024_S1024x1024_0 : (⟨S1024, .i32⟩ : BufTy).Contents (Elt F) → (⟨S1024x1024, .i32⟩ : BufTy).Contents (Elt F)),
    StableHlo.reshape main_v7 main_v8 rfl shapeCasts_S1024x1024_S1048576,
    StableHlo.nullary main_v9 (iotaInDim S1024 32 0),
    StableHlo.reshape main_v9 main_v10 rfl shapeCasts_S1024_S1x1024,
    StableHlo.unary main_v10 main_v11 (broadcastInDim S1024x1024 ![0, 1] bcast_S1x1024_S1024x1024_0_1 : (⟨S1x1024, .i32⟩ : BufTy).Contents (Elt F) → (⟨S1024x1024, .i32⟩ : BufTy).Contents (Elt F)),
    StableHlo.reshape main_v11 main_v12 rfl shapeCasts_S1024x1024_S1048576,
    StableHlo.nullary main_v13 (iotaInDim S2 32 0),
    StableHlo.nullary main_c (constantI S_ 32 1024#32),
    StableHlo.unary main_c main_v14 (broadcastInDim S2 ![] bcast_S_S2 : (⟨S_, .i32⟩ : BufTy).Contents (Elt F) → (⟨S2, .i32⟩ : BufTy).Contents (Elt F)),
    StableHlo.binary main_v13 main_v14 main_v15 (muli : (⟨S2, .i32⟩ : BufTy).Contents (Elt F) → (⟨S2, .i32⟩ : BufTy).Contents (Elt F) → (⟨S2, .i32⟩ : BufTy).Contents (Elt F)),
    StableHlo.unary main_v15 main_v16 (broadcastInDim S2x1 ![0] bcast_S2_S2x1_0 : (⟨S2, .i32⟩ : BufTy).Contents (Elt F) → (⟨S2x1, .i32⟩ : BufTy).Contents (Elt F)),
    StableHlo.unary main_v8 main_v17 (broadcastInDim S1x1048576 ![1] bcast_S1048576_S1x1048576_1 : (⟨S1048576, .i32⟩ : BufTy).Contents (Elt F) → (⟨S1x1048576, .i32⟩ : BufTy).Contents (Elt F)),
    StableHlo.unary main_v17 main_v18 (broadcastInDim S2x1048576 ![0, 1] bcast_S1x1048576_S2x1048576_0_1 : (⟨S1x1048576, .i32⟩ : BufTy).Contents (Elt F) → (⟨S2x1048576, .i32⟩ : BufTy).Contents (Elt F)),
    StableHlo.unary main_v16 main_v19 (broadcastInDim S2x1048576 ![0, 1] bcast_S2x1_S2x1048576_0_1 : (⟨S2x1, .i32⟩ : BufTy).Contents (Elt F) → (⟨S2x1048576, .i32⟩ : BufTy).Contents (Elt F)),
    StableHlo.binary main_v18 main_v19 main_v20 (addi : (⟨S2x1048576, .i32⟩ : BufTy).Contents (Elt F) → (⟨S2x1048576, .i32⟩ : BufTy).Contents (Elt F) → (⟨S2x1048576, .i32⟩ : BufTy).Contents (Elt F)),
    StableHlo.reshape main_v20 main_v21 rfl shapeCasts_S2x1048576_S2097152,
    StableHlo.unary main_v12 main_v22 (broadcastInDim S1x1048576 ![1] bcast_S1048576_S1x1048576_1 : (⟨S1048576, .i32⟩ : BufTy).Contents (Elt F) → (⟨S1x1048576, .i32⟩ : BufTy).Contents (Elt F)),
    StableHlo.unary main_v22 main_v23 (broadcastInDim S2x1048576 ![0, 1] bcast_S1x1048576_S2x1048576_0_1 : (⟨S1x1048576, .i32⟩ : BufTy).Contents (Elt F) → (⟨S2x1048576, .i32⟩ : BufTy).Contents (Elt F)),
    StableHlo.unary main_v16 main_v24 (broadcastInDim S2x1048576 ![0, 1] bcast_S2x1_S2x1048576_0_1 : (⟨S2x1, .i32⟩ : BufTy).Contents (Elt F) → (⟨S2x1048576, .i32⟩ : BufTy).Contents (Elt F)),
    StableHlo.binary main_v23 main_v24 main_v25 (addi : (⟨S2x1048576, .i32⟩ : BufTy).Contents (Elt F) → (⟨S2x1048576, .i32⟩ : BufTy).Contents (Elt F) → (⟨S2x1048576, .i32⟩ : BufTy).Contents (Elt F)),
    StableHlo.reshape main_v25 main_v26 rfl shapeCasts_S2x1048576_S2097152,
    StableHlo.reshape main_v5 main_v27 rfl shapeCasts_S2x1024x1024_S2097152,
    StableHlo.reshape main_arg0 main_v28 rfl shapeCasts_S2x1024x32_S2048x32,
    StableHlo.unary main_v27 main_v29 (broadcastInDim S2097152x1 ![0] bcast_S2097152_S2097152x1_0 : (⟨S2097152, .f32⟩ : BufTy).Contents (Elt F) → (⟨S2097152x1, .f32⟩ : BufTy).Contents (Elt F)),
    StableHlo.TRef.nullary main_call1.c (constantI S_ 32 0#32),
    StableHlo.TRef.unary main_call1.c main_call1.v0 (broadcastInDim S2097152 ![] bcast_S_S2097152),
    StableHlo.TRef.binary (.of main_v21 : StableHlo.TRef sig ⟨S2097152, .i32⟩) main_call1.v0 main_call1.v1 (cmpi .slt),
    StableHlo.TRef.nullary main_call1.c_0 (constantI S_ 32 2048#32),
    StableHlo.TRef.unary main_call1.c_0 main_call1.v2 (broadcastInDim S2097152 ![] bcast_S_S2097152),
    StableHlo.TRef.binary (.of main_v21 : StableHlo.TRef sig ⟨S2097152, .i32⟩) main_call1.v2 main_call1.v3 addi,
    StableHlo.TRef.ternary main_call1.v1 main_call1.v3 (.of main_v21 : StableHlo.TRef sig ⟨S2097152, .i32⟩) main_call1.call0.v0 select,
    StableHlo.TRef.unary main_call1.call0.v0 main_call1.v5 (broadcastInDim S2097152x1 ![0] bcast_S2097152_S2097152x1_0),
    StableHlo.TRef.nullary main_call1.c_1 (constantI S1 32 2047#32),
    StableHlo.TRef.nullary main_call1.c_2 (constantI S_ 32 0#32),
    StableHlo.TRef.unary main_call1.c_2 main_call1.v6 (broadcastInDim S2097152x1 ![] bcast_S_S2097152x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S2097152x1 ![0, 1] bcast_S1x1_S2097152x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S2097152x1_S2097152_d1 h_S_),
    StableHlo.TRef.binary (.of main_v28 : StableHlo.TRef sig ⟨S2048x32, .f32⟩) main_call1.v5 main_call1.v13 (fun x i => Host.gather gather_S2048x32_S2097152x1_S2097152x32_1_0_n_n_0_1_132 x i),
    StableHlo.TRef.unary main_call1.v12 main_call1.v14 (broadcastInDim S2097152x32 ![0] bcast_S2097152_S2097152x32_0),
    StableHlo.TRef.nullary main_call1.cst (constant S_ .f32 0x7FC00000#32),
    StableHlo.TRef.unary main_call1.cst main_call1.v15 (broadcastInDim S2097152x32 ![] bcast_S_S2097152x32),
    StableHlo.TRef.ternary main_call1.v14 main_call1.v13 main_call1.v15 main_call1.v16 select,
    StableHlo.unary main_v29 main_v31 (broadcastInDim S2097152x32 ![0, 1] bcast_S2097152x1_S2097152x32_0_1 : (⟨S2097152x1, .f32⟩ : BufTy).Contents (Elt F) → (⟨S2097152x32, .f32⟩ : BufTy).Contents (Elt F)),
    StableHlo.binary main_v31 main_v30 main_v32 (mulf : (⟨S2097152x32, .f32⟩ : BufTy).Contents (Elt F) → (⟨S2097152x32, .f32⟩ : BufTy).Contents (Elt F) → (⟨S2097152x32, .f32⟩ : BufTy).Contents (Elt F)),
    StableHlo.nullary main_cst (constant S_ .f32 0x00000000#32),
    StableHlo.unary main_cst main_v33 (broadcastInDim S2048x32 ![] bcast_S_S2048x32 : (⟨S_, .f32⟩ : BufTy).Contents (Elt F) → (⟨S2048x32, .f32⟩ : BufTy).Contents (Elt F)),
    StableHlo.unary main_v26 main_v34 (broadcastInDim S2097152x1 ![0] bcast_S2097152_S2097152x1_0 : (⟨S2097152, .i32⟩ : BufTy).Contents (Elt F) → (⟨S2097152x1, .i32⟩ : BufTy).Contents (Elt F)),
    StableHlo.ternary main_v33 main_v34 main_v32 main_v35 ((fun x i u => Host.scatterAdd scatter_S2048x32_S2097152x1_S2097152x32_1_0_0_1 x i u) : (⟨S2048x32, .f32⟩ : BufTy).Contents (Elt F) → (⟨S2097152x1, .i32⟩ : BufTy).Contents (Elt F) → (⟨S2097152x32, .f32⟩ : BufTy).Contents (Elt F) → (⟨S2048x32, .f32⟩ : BufTy).Contents (Elt F)),
    StableHlo.binary main_v35 main_arg1 main_v36 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.TRef.nullary main_call2.cst (constant S_ .f32 0x00000000#32),
    StableHlo.TRef.unary main_call2.cst main_call2.v0 (broadcastInDim S2048x32 ![] bcast_S_S2048x32),
    StableHlo.TRef.binary (.of main_v36 : StableHlo.TRef sig ⟨S2048x32, .f32⟩) main_call2.v0 main_call2.v1 (cmpf .ogt),
    StableHlo.TRef.nullary main_call2.cst_0 (constant S_ .f32 0x00000000#32),
    StableHlo.TRef.unary main_call2.cst_0 main_call2.v2 (broadcastInDim S2048x32 ![] bcast_S_S2048x32),
    StableHlo.TRef.binary (.of main_v36 : StableHlo.TRef sig ⟨S2048x32, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S2048x32 ![] bcast_S_S2048x32),
    StableHlo.TRef.ternary main_call2.v3 main_call2.call0.v1 (.of main_v36 : StableHlo.TRef sig ⟨S2048x32, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S2048x32 ![] bcast_S_S2048x32),
    StableHlo.TRef.binary main_call2.v6 main_call2.v5 main_call2.v7 mulf,
    StableHlo.TRef.ternary main_call2.v1 (.of main_v36 : StableHlo.TRef sig ⟨S2048x32, .f32⟩) main_call2.v7 main_call2.call1.v0 select,
    StableHlo.unary main_v27 main_v38 (broadcastInDim S2097152x1 ![0] bcast_S2097152_S2097152x1_0 : (⟨S2097152, .f32⟩ : BufTy).Contents (Elt F) → (⟨S2097152x1, .f32⟩ : BufTy).Contents (Elt F)),
    StableHlo.TRef.nullary main_call3.c (constantI S_ 32 0#32),
    StableHlo.TRef.unary main_call3.c main_call3.v0 (broadcastInDim S2097152 ![] bcast_S_S2097152),
    StableHlo.TRef.binary (.of main_v21 : StableHlo.TRef sig ⟨S2097152, .i32⟩) main_call3.v0 main_call3.v1 (cmpi .slt),
    StableHlo.TRef.nullary main_call3.c_0 (constantI S_ 32 2048#32),
    StableHlo.TRef.unary main_call3.c_0 main_call3.v2 (broadcastInDim S2097152 ![] bcast_S_S2097152),
    StableHlo.TRef.binary (.of main_v21 : StableHlo.TRef sig ⟨S2097152, .i32⟩) main_call3.v2 main_call3.v3 addi,
    StableHlo.TRef.ternary main_call3.v1 main_call3.v3 (.of main_v21 : StableHlo.TRef sig ⟨S2097152, .i32⟩) main_call3.call0.v0 select,
    StableHlo.TRef.unary main_call3.call0.v0 main_call3.v5 (broadcastInDim S2097152x1 ![0] bcast_S2097152_S2097152x1_0),
    StableHlo.TRef.nullary main_call3.c_1 (constantI S1 32 2047#32),
    StableHlo.TRef.nullary main_call3.c_2 (constantI S_ 32 0#32),
    StableHlo.TRef.unary main_call3.c_2 main_call3.v6 (broadcastInDim S2097152x1 ![] bcast_S_S2097152x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S2097152x1 ![0, 1] bcast_S1x1_S2097152x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S2097152x1_S2097152_d1 h_S_),
    StableHlo.TRef.binary (.of main_v37 : StableHlo.TRef sig ⟨S2048x32, .f32⟩) main_call3.v5 main_call3.v13 (fun x i => Host.gather gather_S2048x32_S2097152x1_S2097152x32_1_0_n_n_0_1_132 x i),
    StableHlo.TRef.unary main_call3.v12 main_call3.v14 (broadcastInDim S2097152x32 ![0] bcast_S2097152_S2097152x32_0),
    StableHlo.TRef.nullary main_call3.cst (constant S_ .f32 0x7FC00000#32),
    StableHlo.TRef.unary main_call3.cst main_call3.v15 (broadcastInDim S2097152x32 ![] bcast_S_S2097152x32),
    StableHlo.TRef.ternary main_call3.v14 main_call3.v13 main_call3.v15 main_call3.v16 select,
    StableHlo.unary main_v38 main_v40 (broadcastInDim S2097152x32 ![0, 1] bcast_S2097152x1_S2097152x32_0_1 : (⟨S2097152x1, .f32⟩ : BufTy).Contents (Elt F) → (⟨S2097152x32, .f32⟩ : BufTy).Contents (Elt F)),
    StableHlo.binary main_v40 main_v39 main_v41 (mulf : (⟨S2097152x32, .f32⟩ : BufTy).Contents (Elt F) → (⟨S2097152x32, .f32⟩ : BufTy).Contents (Elt F) → (⟨S2097152x32, .f32⟩ : BufTy).Contents (Elt F)),
    StableHlo.nullary main_cst_0 (constant S_ .f32 0x00000000#32),
    StableHlo.unary main_cst_0 main_v42 (broadcastInDim S2048x32 ![] bcast_S_S2048x32 : (⟨S_, .f32⟩ : BufTy).Contents (Elt F) → (⟨S2048x32, .f32⟩ : BufTy).Contents (Elt F)),
    StableHlo.unary main_v26 main_v43 (broadcastInDim S2097152x1 ![0] bcast_S2097152_S2097152x1_0 : (⟨S2097152, .i32⟩ : BufTy).Contents (Elt F) → (⟨S2097152x1, .i32⟩ : BufTy).Contents (Elt F)),
    StableHlo.ternary main_v42 main_v43 main_v41 main_v44 ((fun x i u => Host.scatterAdd scatter_S2048x32_S2097152x1_S2097152x32_1_0_0_1 x i u) : (⟨S2048x32, .f32⟩ : BufTy).Contents (Elt F) → (⟨S2097152x1, .i32⟩ : BufTy).Contents (Elt F) → (⟨S2097152x32, .f32⟩ : BufTy).Contents (Elt F) → (⟨S2048x32, .f32⟩ : BufTy).Contents (Elt F)),
    StableHlo.binary main_v44 main_arg2 main_v45 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)),
    StableHlo.TRef.nullary main_call4.cst (constant S_ .f32 0x00000000#32),
    StableHlo.TRef.unary main_call4.cst main_call4.v0 (broadcastInDim S2048x32 ![] bcast_S_S2048x32),
    StableHlo.TRef.binary (.of main_v45 : StableHlo.TRef sig ⟨S2048x32, .f32⟩) main_call4.v0 main_call4.v1 (cmpf .ogt),
    StableHlo.TRef.nullary main_call4.cst_0 (constant S_ .f32 0x00000000#32),
    StableHlo.TRef.unary main_call4.cst_0 main_call4.v2 (broadcastInDim S2048x32 ![] bcast_S_S2048x32),
    StableHlo.TRef.binary (.of main_v45 : StableHlo.TRef sig ⟨S2048x32, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S2048x32 ![] bcast_S_S2048x32),
    StableHlo.TRef.ternary main_call4.v3 main_call4.call0.v1 (.of main_v45 : StableHlo.TRef sig ⟨S2048x32, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S2048x32 ![] bcast_S_S2048x32),
    StableHlo.TRef.binary main_call4.v6 main_call4.v5 main_call4.v7 mulf,
    StableHlo.TRef.ternary main_call4.v1 (.of main_v45 : StableHlo.TRef sig ⟨S2048x32, .f32⟩) main_call4.v7 main_call4.call1.v0 select,
    StableHlo.reshape main_v46 main_v47 rfl shapeCasts_S2048x32_S2x1024x32 ]

set_option maxRecDepth 16384 in
set_option maxHeartbeats 8000000 in
/-- The program is that straight line: the functions' bodies unfolded at their calls, sequencing reassociated. -/
theorem main_eq (c : Dev nD) : main (F := F) c = seq ops := by
  simp only [main, fn_relu.body, fn_where.body, fn_take.body, fn_where_0.body, fn_where_1.body, fn_elu.body, seq,
    bind_assoc, pure_bind]

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
/-- Every operation touches buffers of the tensor program only. -/
theorem ops_sub : (ops : List (HloOp τ sig (Elt F))).Forall fun op => op.bufs ⊆ tcRefs τ sig :=
  ⟨unary_bufs_sub .., unary_bufs_sub .., binary_bufs_sub .., binary_bufs_sub .., nullary_bufs_sub .., unary_bufs_sub .., binary_bufs_sub .., unary_bufs_sub .., nullary_bufs_sub .., unary_bufs_sub .., reshape_bufs_sub .., nullary_bufs_sub .., reshape_bufs_sub .., unary_bufs_sub .., reshape_bufs_sub .., nullary_bufs_sub .., nullary_bufs_sub .., unary_bufs_sub .., binary_bufs_sub .., unary_bufs_sub .., unary_bufs_sub .., unary_bufs_sub .., unary_bufs_sub .., binary_bufs_sub .., reshape_bufs_sub .., unary_bufs_sub .., unary_bufs_sub .., unary_bufs_sub .., binary_bufs_sub .., reshape_bufs_sub .., reshape_bufs_sub .., reshape_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., unary_bufs_sub .., nullary_bufs_sub .., unary_bufs_sub .., binary_bufs_sub .., nullary_bufs_sub .., unary_bufs_sub .., binary_bufs_sub .., ternary_bufs_sub .., unary_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., unary_bufs_sub .., nullary_bufs_sub .., unary_bufs_sub .., ternary_bufs_sub .., unary_bufs_sub .., binary_bufs_sub .., nullary_bufs_sub .., unary_bufs_sub .., unary_bufs_sub .., ternary_bufs_sub .., binary_bufs_sub .., nullary_bufs_sub .., unary_bufs_sub .., binary_bufs_sub .., nullary_bufs_sub .., unary_bufs_sub .., binary_bufs_sub .., nullary_bufs_sub .., unary_bufs_sub .., unary_bufs_sub .., ternary_bufs_sub .., unary_bufs_sub .., nullary_bufs_sub .., unary_bufs_sub .., binary_bufs_sub .., ternary_bufs_sub .., reshape_bufs_sub ..⟩

set_option maxRecDepth 16384 in
/-- No operation allocates a buffer. -/
theorem ops_fresh : (ops : List (HloOp τ sig (Elt F))).Forall fun op => op.fresh = ∅ := by
  all_fresh ops

set_option maxRecDepth 16384 in
/-- From any memory with zero counters every weakly fair execution of the program terminates, and every final state has
    each buffer at the fold of the operations' results over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (Cert.LibAfter.fresh_of_forall_dev fun _ => ops_fresh)

/-! ## The fold, stretch by stretch

The line is cut at the calls: the inner products; the positive part; `tanh`, the index tables and the reshapes; the first
row lookup; the first aggregation and product with the weights; the first exponential linear unit; one broadcast; and
the same four again for the second layer; the final reshape. For each stretch, from ANY contents `W` of the buffers:
what the buffers it hands on hold afterwards, as the matching stage of `RefStages` applied to what `W` holds at the
buffers it reads; and that the buffers later stretches still read are left as they were. Inside a called function a
value sits in a buffer through a typed reference, moved in and out along the equation between the buffer's type and the
value's; those moves cancel in pairs, and at the call's operands and result they are the identity. -/

/-- Contents moved to a typed reference's buffer and back are the contents. -/
theorem ofBuf_toBuf {Val : EltTy → Type} {T : BufTy} (x : TRef sig T) (v : T.Contents Val) : x.ofBuf (x.toBuf v) = v := by
  obtain ⟨r, h, a, b⟩ := x
  subst h
  rfl

/-- At a reference typed by its own buffer type the move to the buffer is the identity. -/
theorem toBuf_id {Val : EltTy → Type} (r : Ref sig .tc) (od : r.space ≠ .host) (us : r.isScoped = false) (v : r.ty.Contents Val) :
    (TRef.of r rfl od us : TRef sig r.ty).toBuf v = v := rfl

/-- At a reference typed by its own buffer type the move from the buffer is the identity. -/
theorem ofBuf_id {Val : EltTy → Type} (r : Ref sig .tc) (od : r.space ≠ .host) (us : r.isScoped = false) (v : r.ty.Contents Val) :
    (TRef.of r rfl od us : TRef sig r.ty).ofBuf v = v := rfl

def segA1 : List (HloOp τ sig (Elt F)) :=
  [ StableHlo.unary main_arg0 main_v0 ((extractStridedSlice S2x900x32 ![0, 0, 0] · slices_S2x1024x32_S2x900x32_0_0_0) : (⟨S2x1024x32, .f32⟩ : BufTy).Contents (Elt F) → (⟨S2x900x32, .f32⟩ : BufTy).Contents (Elt F)),
    StableHlo.unary main_arg0 main_v1 ((extractStridedSlice S2x124x32 ![0, 900, 0] · slices_S2x1024x32_S2x124x32_0_900_0) : (⟨S2x1024x32, .f32⟩ : BufTy).Contents (Elt F) → (⟨S2x124x32, .f32⟩ : BufTy).Contents (Elt F)),
    StableHlo.binary main_v0 main_v1 main_v2 ((fun a b => concatenate S2x1024x32 1 [⟨S2x900x32, a⟩, ⟨S2x124x32, b⟩] concatenates_S2x900x32_S2x124x32_S2x1024x32_d1) : (⟨S2x900x32, .f32⟩ : BufTy).Contents (Elt F) → (⟨S2x124x32, .f32⟩ : BufTy).Contents (Elt F) → (⟨S2x1024x32, .f32⟩ : BufTy).Contents (Elt F)),
    StableHlo.binary main_v2 main_v2 main_v3 ((fun l r => Host.dotGeneral dot_S2x1024x32_S2x1024x32_S2x1024x1024_2_2_1_1_0_0 none l r) : (⟨S2x1024x32, .f32⟩ : BufTy).Contents (Elt F) → (⟨S2x1024x32, .f32⟩ : BufTy).Contents (Elt F) → (⟨S2x1024x1024, .f32⟩ : BufTy).Contents (Elt F)) ]

attribute [local irreducible] select broadcastInDim cmpi cmpf addi muli andi mulf maximumf constantI constant iotaInDim shapeCast extractStridedSlice concatenate Host.gather Host.scatterAdd Host.reduce Host.tanh Host.expm1 in
set_option maxHeartbeats 400000 in
theorem segA1_main_v3 (W : Valuation τ sig (Elt F)) :
    after segA1 W (main_v3 : DevRef τ sig)
      = Host.dotGeneral dot_S2x1024x32_S2x1024x32_S2x1024x1024_2_2_1_1_0_0 none (RefStages.nodes (W (main_arg0 : DevRef τ sig) : FVec F S2x1024x32 .f32)) (RefStages.nodes (W (main_arg0 : DevRef τ sig) : FVec F S2x1024x32 .f32)) := by
  unfold segA1
  after_results_simp
  all_goals delta RefStages.nodes
  all_goals first | with_reducible rfl | rfl

theorem segA1_keep_main_arg0 (W : Valuation τ sig (Elt F)) : after segA1 W (main_arg0 : DevRef τ sig) = W (main_arg0 : DevRef τ sig) := by
  unfold segA1
  after_results_simp

theorem segA1_keep_main_arg1 (W : Valuation τ sig (Elt F)) : after segA1 W (main_arg1 : DevRef τ sig) = W (main_arg1 : DevRef τ sig) := by
  unfold segA1
  after_results_simp

theorem segA1_keep_main_arg2 (W : Valuation τ sig (Elt F)) : after segA1 W (main_arg2 : DevRef τ sig) = W (main_arg2 : DevRef τ sig) := by
  unfold segA1
  after_results_simp

def segR : List (HloOp τ sig (Elt F)) :=
  [ StableHlo.TRef.nullary main_call0.cst (constant S_ .f32 0x00000000#32),
    StableHlo.TRef.unary main_call0.cst main_call0.v0 (broadcastInDim S2x1024x1024 ![] bcast_S_S2x1024x1024),
    StableHlo.TRef.binary (.of main_v3 : StableHlo.TRef sig ⟨S2x1024x1024, .f32⟩) main_call0.v0 main_call0.v1 maximumf ]

attribute [local irreducible] select broadcastInDim cmpi cmpf addi muli andi mulf maximumf constantI constant iotaInDim shapeCast extractStridedSlice concatenate Host.gather Host.scatterAdd Host.reduce Host.tanh Host.expm1 in
set_option maxHeartbeats 400000 in
theorem segR_main_v4 (W : Valuation τ sig (Elt F)) :
    after segR W (main_v4 : DevRef τ sig)
      = RefStages.relu (W (main_v3 : DevRef τ sig) : FVec F S2x1024x1024 .f32) := by
  have h_main_v3 : (TRef.of main_v3 : TRef sig ⟨S2x1024x1024, .f32⟩).ofBuf (W (main_v3 : DevRef τ sig)) = W (main_v3 : DevRef τ sig) := rfl
  unfold segR
  after_results_simp
  simp only [ofBuf_toBuf, h_main_v3]
  refine (toBuf_id main_v4 _ _ _).trans ?_
  all_goals delta RefStages.relu
  all_goals first | with_reducible rfl | rfl

theorem segR_keep_main_arg0 (W : Valuation τ sig (Elt F)) : after segR W (main_arg0 : DevRef τ sig) = W (main_arg0 : DevRef τ sig) := by
  unfold segR
  after_results_simp

theorem segR_keep_main_arg1 (W : Valuation τ sig (Elt F)) : after segR W (main_arg1 : DevRef τ sig) = W (main_arg1 : DevRef τ sig) := by
  unfold segR
  after_results_simp

theorem segR_keep_main_arg2 (W : Valuation τ sig (Elt F)) : after segR W (main_arg2 : DevRef τ sig) = W (main_arg2 : DevRef τ sig) := by
  unfold segR
  after_results_simp

def segA2 : List (HloOp τ sig (Elt F)) :=
  [ StableHlo.unary main_v4 main_v5 (Host.tanh : (⟨S2x1024x1024, .f32⟩ : BufTy).Contents (Elt F) → (⟨S2x1024x1024, .f32⟩ : BufTy).Contents (Elt F)),
    StableHlo.nullary main_v6 (iotaInDim S1024 32 0),
    StableHlo.unary main_v6 main_v7 (broadcastInDim S1024x1024 ![0] bcast_S1024_S1024x1024_0 : (⟨S1024, .i32⟩ : BufTy).Contents (Elt F) → (⟨S1024x1024, .i32⟩ : BufTy).Contents (Elt F)),
    StableHlo.reshape main_v7 main_v8 rfl shapeCasts_S1024x1024_S1048576,
    StableHlo.nullary main_v9 (iotaInDim S1024 32 0),
    StableHlo.reshape main_v9 main_v10 rfl shapeCasts_S1024_S1x1024,
    StableHlo.unary main_v10 main_v11 (broadcastInDim S1024x1024 ![0, 1] bcast_S1x1024_S1024x1024_0_1 : (⟨S1x1024, .i32⟩ : BufTy).Contents (Elt F) → (⟨S1024x1024, .i32⟩ : BufTy).Contents (Elt F)),
    StableHlo.reshape main_v11 main_v12 rfl shapeCasts_S1024x1024_S1048576,
    StableHlo.nullary main_v13 (iotaInDim S2 32 0),
    StableHlo.nullary main_c (constantI S_ 32 1024#32),
    StableHlo.unary main_c main_v14 (broadcastInDim S2 ![] bcast_S_S2 : (⟨S_, .i32⟩ : BufTy).Contents (Elt F) → (⟨S2, .i32⟩ : BufTy).Contents (Elt F)),
    StableHlo.binary main_v13 main_v14 main_v15 (muli : (⟨S2, .i32⟩ : BufTy).Contents (Elt F) → (⟨S2, .i32⟩ : BufTy).Contents (Elt F) → (⟨S2, .i32⟩ : BufTy).Contents (Elt F)),
    StableHlo.unary main_v15 main_v16 (broadcastInDim S2x1 ![0] bcast_S2_S2x1_0 : (⟨S2, .i32⟩ : BufTy).Contents (Elt F) → (⟨S2x1, .i32⟩ : BufTy).Contents (Elt F)),
    StableHlo.unary main_v8 main_v17 (broadcastInDim S1x1048576 ![1] bcast_S1048576_S1x1048576_1 : (⟨S1048576, .i32⟩ : BufTy).Contents (Elt F) → (⟨S1x1048576, .i32⟩ : BufTy).Contents (Elt F)),
    StableHlo.unary main_v17 main_v18 (broadcastInDim S2x1048576 ![0, 1] bcast_S1x1048576_S2x1048576_0_1 : (⟨S1x1048576, .i32⟩ : BufTy).Contents (Elt F) → (⟨S2x1048576, .i32⟩ : BufTy).Contents (Elt F)),
    StableHlo.unary main_v16 main_v19 (broadcastInDim S2x1048576 ![0, 1] bcast_S2x1_S2x1048576_0_1 : (⟨S2x1, .i32⟩ : BufTy).Contents (Elt F) → (⟨S2x1048576, .i32⟩ : BufTy).Contents (Elt F)),
    StableHlo.binary main_v18 main_v19 main_v20 (addi : (⟨S2x1048576, .i32⟩ : BufTy).Contents (Elt F) → (⟨S2x1048576, .i32⟩ : BufTy).Contents (Elt F) → (⟨S2x1048576, .i32⟩ : BufTy).Contents (Elt F)),
    StableHlo.reshape main_v20 main_v21 rfl shapeCasts_S2x1048576_S2097152,
    StableHlo.unary main_v12 main_v22 (broadcastInDim S1x1048576 ![1] bcast_S1048576_S1x1048576_1 : (⟨S1048576, .i32⟩ : BufTy).Contents (Elt F) → (⟨S1x1048576, .i32⟩ : BufTy).Contents (Elt F)),
    StableHlo.unary main_v22 main_v23 (broadcastInDim S2x1048576 ![0, 1] bcast_S1x1048576_S2x1048576_0_1 : (⟨S1x1048576, .i32⟩ : BufTy).Contents (Elt F) → (⟨S2x1048576, .i32⟩ : BufTy).Contents (Elt F)),
    StableHlo.unary main_v16 main_v24 (broadcastInDim S2x1048576 ![0, 1] bcast_S2x1_S2x1048576_0_1 : (⟨S2x1, .i32⟩ : BufTy).Contents (Elt F) → (⟨S2x1048576, .i32⟩ : BufTy).Contents (Elt F)),
    StableHlo.binary main_v23 main_v24 main_v25 (addi : (⟨S2x1048576, .i32⟩ : BufTy).Contents (Elt F) → (⟨S2x1048576, .i32⟩ : BufTy).Contents (Elt F) → (⟨S2x1048576, .i32⟩ : BufTy).Contents (Elt F)),
    StableHlo.reshape main_v25 main_v26 rfl shapeCasts_S2x1048576_S2097152,
    StableHlo.reshape main_v5 main_v27 rfl shapeCasts_S2x1024x1024_S2097152,
    StableHlo.reshape main_arg0 main_v28 rfl shapeCasts_S2x1024x32_S2048x32,
    StableHlo.unary main_v27 main_v29 (broadcastInDim S2097152x1 ![0] bcast_S2097152_S2097152x1_0 : (⟨S2097152, .f32⟩ : BufTy).Contents (Elt F) → (⟨S2097152x1, .f32⟩ : BufTy).Contents (Elt F)) ]

attribute [local irreducible] select broadcastInDim cmpi cmpf addi muli andi mulf maximumf constantI constant iotaInDim shapeCast extractStridedSlice concatenate Host.gather Host.scatterAdd Host.reduce Host.tanh Host.expm1 in
set_option maxHeartbeats 400000 in
theorem segA2_main_v21 (W : Valuation τ sig (Elt F)) :
    after segA2 W (main_v21 : DevRef τ sig)
      = RefStages.srcIdx := by
  unfold segA2
  after_results_simp
  all_goals delta RefStages.srcIdx RefStages.globalIdx RefStages.srcLocal RefStages.offs
  all_goals first | with_reducible rfl | rfl

attribute [local irreducible] select broadcastInDim cmpi cmpf addi muli andi mulf maximumf constantI constant iotaInDim shapeCast extractStridedSlice concatenate Host.gather Host.scatterAdd Host.reduce Host.tanh Host.expm1 in
set_option maxHeartbeats 400000 in
theorem segA2_main_v26 (W : Valuation τ sig (Elt F)) :
    after segA2 W (main_v26 : DevRef τ sig)
      = RefStages.tgtIdx := by
  unfold segA2
  after_results_simp
  all_goals delta RefStages.tgtIdx RefStages.globalIdx RefStages.tgtLocal RefStages.offs
  all_goals first | with_reducible rfl | rfl

attribute [local irreducible] select broadcastInDim cmpi cmpf addi muli andi mulf maximumf constantI constant iotaInDim shapeCast extractStridedSlice concatenate Host.gather Host.scatterAdd Host.reduce Host.tanh Host.expm1 in
set_option maxHeartbeats 400000 in
theorem segA2_main_v27 (W : Valuation τ sig (Elt F)) :
    after segA2 W (main_v27 : DevRef τ sig)
      = shapeCast S2097152 (Host.tanh (W (main_v4 : DevRef τ sig) : FVec F S2x1024x1024 .f32)) shapeCasts_S2x1024x1024_S2097152 := by
  unfold segA2
  after_results_simp
  all_goals first | with_reducible rfl | rfl

attribute [local irreducible] select broadcastInDim cmpi cmpf addi muli andi mulf maximumf constantI constant iotaInDim shapeCast extractStridedSlice concatenate Host.gather Host.scatterAdd Host.reduce Host.tanh Host.expm1 in
set_option maxHeartbeats 400000 in
theorem segA2_main_v28 (W : Valuation τ sig (Elt F)) :
    after segA2 W (main_v28 : DevRef τ sig)
      = shapeCast S2048x32 (W (main_arg0 : DevRef τ sig) : FVec F S2x1024x32 .f32) shapeCasts_S2x1024x32_S2048x32 := by
  unfold segA2
  after_results_simp
  all_goals first | with_reducible rfl | rfl

attribute [local irreducible] select broadcastInDim cmpi cmpf addi muli andi mulf maximumf constantI constant iotaInDim shapeCast extractStridedSlice concatenate Host.gather Host.scatterAdd Host.reduce Host.tanh Host.expm1 in
set_option maxHeartbeats 400000 in
theorem segA2_main_v29 (W : Valuation τ sig (Elt F)) :
    after segA2 W (main_v29 : DevRef τ sig)
      = broadcastInDim S2097152x1 ![0] bcast_S2097152_S2097152x1_0 (shapeCast S2097152 (Host.tanh (W (main_v4 : DevRef τ sig) : FVec F S2x1024x1024 .f32)) shapeCasts_S2x1024x1024_S2097152) := by
  unfold segA2
  after_results_simp
  all_goals first | with_reducible rfl | rfl

theorem segA2_keep_main_arg0 (W : Valuation τ sig (Elt F)) : after segA2 W (main_arg0 : DevRef τ sig) = W (main_arg0 : DevRef τ sig) := by
  unfold segA2
  after_results_simp

theorem segA2_keep_main_arg1 (W : Valuation τ sig (Elt F)) : after segA2 W (main_arg1 : DevRef τ sig) = W (main_arg1 : DevRef τ sig) := by
  unfold segA2
  after_results_simp

theorem segA2_keep_main_arg2 (W : Valuation τ sig (Elt F)) : after segA2 W (main_arg2 : DevRef τ sig) = W (main_arg2 : DevRef τ sig) := by
  unfold segA2
  after_results_simp

def segT1 : List (HloOp τ sig (Elt F)) :=
  [ StableHlo.TRef.nullary main_call1.c (constantI S_ 32 0#32),
    StableHlo.TRef.unary main_call1.c main_call1.v0 (broadcastInDim S2097152 ![] bcast_S_S2097152),
    StableHlo.TRef.binary (.of main_v21 : StableHlo.TRef sig ⟨S2097152, .i32⟩) main_call1.v0 main_call1.v1 (cmpi .slt),
    StableHlo.TRef.nullary main_call1.c_0 (constantI S_ 32 2048#32),
    StableHlo.TRef.unary main_call1.c_0 main_call1.v2 (broadcastInDim S2097152 ![] bcast_S_S2097152),
    StableHlo.TRef.binary (.of main_v21 : StableHlo.TRef sig ⟨S2097152, .i32⟩) main_call1.v2 main_call1.v3 addi,
    StableHlo.TRef.ternary main_call1.v1 main_call1.v3 (.of main_v21 : StableHlo.TRef sig ⟨S2097152, .i32⟩) main_call1.call0.v0 select,
    StableHlo.TRef.unary main_call1.call0.v0 main_call1.v5 (broadcastInDim S2097152x1 ![0] bcast_S2097152_S2097152x1_0),
    StableHlo.TRef.nullary main_call1.c_1 (constantI S1 32 2047#32),
    StableHlo.TRef.nullary main_call1.c_2 (constantI S_ 32 0#32),
    StableHlo.TRef.unary main_call1.c_2 main_call1.v6 (broadcastInDim S2097152x1 ![] bcast_S_S2097152x1),
    StableHlo.TRef.binary main_call1.v5 main_call1.v6 main_call1.v7 (cmpi .sge),
    StableHlo.TRef.unary main_call1.c_1 main_call1.v8 (broadcastInDim S1x1 ![1] bcast_S1_S1x1_1),
    StableHlo.TRef.unary main_call1.v8 main_call1.v9 (broadcastInDim S2097152x1 ![0, 1] bcast_S1x1_S2097152x1_0_1),
    StableHlo.TRef.binary main_call1.v5 main_call1.v9 main_call1.v10 (cmpi .sle),
    StableHlo.TRef.binary main_call1.v7 main_call1.v10 main_call1.v11 andi,
    StableHlo.TRef.nullary main_call1.c_3 (constantI S_ 1 1#1),
    StableHlo.TRef.binary main_call1.v11 main_call1.c_3 main_call1.v12 (fun x v => Host.reduce IntOp.andi x v reducesTo_S2097152x1_S2097152_d1 h_S_),
    StableHlo.TRef.binary (.of main_v28 : StableHlo.TRef sig ⟨S2048x32, .f32⟩) main_call1.v5 main_call1.v13 (fun x i => Host.gather gather_S2048x32_S2097152x1_S2097152x32_1_0_n_n_0_1_132 x i),
    StableHlo.TRef.unary main_call1.v12 main_call1.v14 (broadcastInDim S2097152x32 ![0] bcast_S2097152_S2097152x32_0),
    StableHlo.TRef.nullary main_call1.cst (constant S_ .f32 0x7FC00000#32),
    StableHlo.TRef.unary main_call1.cst main_call1.v15 (broadcastInDim S2097152x32 ![] bcast_S_S2097152x32),
    StableHlo.TRef.ternary main_call1.v14 main_call1.v13 main_call1.v15 main_call1.v16 select ]

attribute [local irreducible] select broadcastInDim cmpi cmpf addi muli andi mulf maximumf constantI constant iotaInDim shapeCast extractStridedSlice concatenate Host.gather Host.scatterAdd Host.reduce Host.tanh Host.expm1 in
set_option maxHeartbeats 400000 in
theorem segT1_main_v30 (W : Valuation τ sig (Elt F)) :
    after segT1 W (main_v30 : DevRef τ sig)
      = RefStages.take (W (main_v28 : DevRef τ sig) : FVec F S2048x32 .f32) (W (main_v21 : DevRef τ sig) : IVec S2097152 32) := by
  have h_main_v21 : (TRef.of main_v21 : TRef sig ⟨S2097152, .i32⟩).ofBuf (W (main_v21 : DevRef τ sig)) = W (main_v21 : DevRef τ sig) := rfl
  have h_main_v28 : (TRef.of main_v28 : TRef sig ⟨S2048x32, .f32⟩).ofBuf (W (main_v28 : DevRef τ sig)) = W (main_v28 : DevRef τ sig) := rfl
  unfold segT1
  after_results_simp
  simp only [ofBuf_toBuf, h_main_v21, h_main_v28]
  refine (toBuf_id main_v30 _ _ _).trans ?_
  all_goals delta RefStages.take RefStages.takeOk RefStages.takeIdx
  all_goals first | with_reducible rfl | rfl

theorem segT1_keep_main_v29 (W : Valuation τ sig (Elt F)) : after segT1 W (main_v29 : DevRef τ sig) = W (main_v29 : DevRef τ sig) := by
  unfold segT1
  after_results_simp

theorem segT1_keep_main_v26 (W : Valuation τ sig (Elt F)) : after segT1 W (main_v26 : DevRef τ sig) = W (main_v26 : DevRef τ sig) := by
  unfold segT1
  after_results_simp

theorem segT1_keep_main_v27 (W : Valuation τ sig (Elt F)) : after segT1 W (main_v27 : DevRef τ sig) = W (main_v27 : DevRef τ sig) := by
  unfold segT1
  after_results_simp

theorem segT1_keep_main_v21 (W : Valuation τ sig (Elt F)) : after segT1 W (main_v21 : DevRef τ sig) = W (main_v21 : DevRef τ sig) := by
  unfold segT1
  after_results_simp

theorem segT1_keep_main_arg0 (W : Valuation τ sig (Elt F)) : after segT1 W (main_arg0 : DevRef τ sig) = W (main_arg0 : DevRef τ sig) := by
  unfold segT1
  after_results_simp

theorem segT1_keep_main_arg1 (W : Valuation τ sig (Elt F)) : after segT1 W (main_arg1 : DevRef τ sig) = W (main_arg1 : DevRef τ sig) := by
  unfold segT1
  after_results_simp

theorem segT1_keep_main_arg2 (W : Valuation τ sig (Elt F)) : after segT1 W (main_arg2 : DevRef τ sig) = W (main_arg2 : DevRef τ sig) := by
  unfold segT1
  after_results_simp

def segB : List (HloOp τ sig (Elt F)) :=
  [ StableHlo.unary main_v29 main_v31 (broadcastInDim S2097152x32 ![0, 1] bcast_S2097152x1_S2097152x32_0_1 : (⟨S2097152x1, .f32⟩ : BufTy).Contents (Elt F) → (⟨S2097152x32, .f32⟩ : BufTy).Contents (Elt F)),
    StableHlo.binary main_v31 main_v30 main_v32 (mulf : (⟨S2097152x32, .f32⟩ : BufTy).Contents (Elt F) → (⟨S2097152x32, .f32⟩ : BufTy).Contents (Elt F) → (⟨S2097152x32, .f32⟩ : BufTy).Contents (Elt F)),
    StableHlo.nullary main_cst (constant S_ .f32 0x00000000#32),
    StableHlo.unary main_cst main_v33 (broadcastInDim S2048x32 ![] bcast_S_S2048x32 : (⟨S_, .f32⟩ : BufTy).Contents (Elt F) → (⟨S2048x32, .f32⟩ : BufTy).Contents (Elt F)),
    StableHlo.unary main_v26 main_v34 (broadcastInDim S2097152x1 ![0] bcast_S2097152_S2097152x1_0 : (⟨S2097152, .i32⟩ : BufTy).Contents (Elt F) → (⟨S2097152x1, .i32⟩ : BufTy).Contents (Elt F)),
    StableHlo.ternary main_v33 main_v34 main_v32 main_v35 ((fun x i u => Host.scatterAdd scatter_S2048x32_S2097152x1_S2097152x32_1_0_0_1 x i u) : (⟨S2048x32, .f32⟩ : BufTy).Contents (Elt F) → (⟨S2097152x1, .i32⟩ : BufTy).Contents (Elt F) → (⟨S2097152x32, .f32⟩ : BufTy).Contents (Elt F) → (⟨S2048x32, .f32⟩ : BufTy).Contents (Elt F)),
    StableHlo.binary main_v35 main_arg1 main_v36 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)) ]

attribute [local irreducible] select broadcastInDim cmpi cmpf addi muli andi mulf maximumf constantI constant iotaInDim shapeCast extractStridedSlice concatenate Host.gather Host.scatterAdd Host.reduce Host.tanh Host.expm1 in
set_option maxHeartbeats 400000 in
theorem segB_main_v36 (W : Valuation τ sig (Elt F)) :
    after segB W (main_v36 : DevRef τ sig)
      = Host.dotGeneral dot_S2048x32_S32x32_S2048x32_1_0_0_1_n_n none (Host.scatterAdd scatter_S2048x32_S2097152x1_S2097152x32_1_0_0_1 (broadcastInDim S2048x32 ![] bcast_S_S2048x32 (constant S_ .f32 0x00000000#32)) (broadcastInDim S2097152x1 ![0] bcast_S2097152_S2097152x1_0 (W (main_v26 : DevRef τ sig) : IVec S2097152 32)) (mulf (broadcastInDim S2097152x32 ![0, 1] bcast_S2097152x1_S2097152x32_0_1 (W (main_v29 : DevRef τ sig) : FVec F S2097152x1 .f32)) (W (main_v30 : DevRef τ sig) : FVec F S2097152x32 .f32))) (W (main_arg1 : DevRef τ sig) : FVec F S32x32 .f32) := by
  unfold segB
  after_results_simp
  all_goals first | with_reducible rfl | rfl

theorem segB_keep_main_v27 (W : Valuation τ sig (Elt F)) : after segB W (main_v27 : DevRef τ sig) = W (main_v27 : DevRef τ sig) := by
  unfold segB
  after_results_simp

theorem segB_keep_main_v21 (W : Valuation τ sig (Elt F)) : after segB W (main_v21 : DevRef τ sig) = W (main_v21 : DevRef τ sig) := by
  unfold segB
  after_results_simp

theorem segB_keep_main_v26 (W : Valuation τ sig (Elt F)) : after segB W (main_v26 : DevRef τ sig) = W (main_v26 : DevRef τ sig) := by
  unfold segB
  after_results_simp

theorem segB_keep_main_arg0 (W : Valuation τ sig (Elt F)) : after segB W (main_arg0 : DevRef τ sig) = W (main_arg0 : DevRef τ sig) := by
  unfold segB
  after_results_simp

theorem segB_keep_main_arg1 (W : Valuation τ sig (Elt F)) : after segB W (main_arg1 : DevRef τ sig) = W (main_arg1 : DevRef τ sig) := by
  unfold segB
  after_results_simp

theorem segB_keep_main_arg2 (W : Valuation τ sig (Elt F)) : after segB W (main_arg2 : DevRef τ sig) = W (main_arg2 : DevRef τ sig) := by
  unfold segB
  after_results_simp

def segE1 : List (HloOp τ sig (Elt F)) :=
  [ StableHlo.TRef.nullary main_call2.cst (constant S_ .f32 0x00000000#32),
    StableHlo.TRef.unary main_call2.cst main_call2.v0 (broadcastInDim S2048x32 ![] bcast_S_S2048x32),
    StableHlo.TRef.binary (.of main_v36 : StableHlo.TRef sig ⟨S2048x32, .f32⟩) main_call2.v0 main_call2.v1 (cmpf .ogt),
    StableHlo.TRef.nullary main_call2.cst_0 (constant S_ .f32 0x00000000#32),
    StableHlo.TRef.unary main_call2.cst_0 main_call2.v2 (broadcastInDim S2048x32 ![] bcast_S_S2048x32),
    StableHlo.TRef.binary (.of main_v36 : StableHlo.TRef sig ⟨S2048x32, .f32⟩) main_call2.v2 main_call2.v3 (cmpf .ogt),
    StableHlo.TRef.nullary main_call2.cst_1 (constant S_ .f32 0x00000000#32),
    StableHlo.TRef.unary main_call2.cst_1 main_call2.call0.v0 id,
    StableHlo.TRef.unary main_call2.call0.v0 main_call2.call0.v1 (broadcastInDim S2048x32 ![] bcast_S_S2048x32),
    StableHlo.TRef.ternary main_call2.v3 main_call2.call0.v1 (.of main_v36 : StableHlo.TRef sig ⟨S2048x32, .f32⟩) main_call2.call0.v2 select,
    StableHlo.TRef.unary main_call2.call0.v2 main_call2.v5 Host.expm1,
    StableHlo.TRef.nullary main_call2.cst_2 (constant S_ .f32 0x3F800000#32),
    StableHlo.TRef.unary main_call2.cst_2 main_call2.v6 (broadcastInDim S2048x32 ![] bcast_S_S2048x32),
    StableHlo.TRef.binary main_call2.v6 main_call2.v5 main_call2.v7 mulf,
    StableHlo.TRef.ternary main_call2.v1 (.of main_v36 : StableHlo.TRef sig ⟨S2048x32, .f32⟩) main_call2.v7 main_call2.call1.v0 select ]

attribute [local irreducible] select broadcastInDim cmpi cmpf addi muli andi mulf maximumf constantI constant iotaInDim shapeCast extractStridedSlice concatenate Host.gather Host.scatterAdd Host.reduce Host.tanh Host.expm1 in
set_option maxHeartbeats 400000 in
theorem segE1_main_v37 (W : Valuation τ sig (Elt F)) :
    after segE1 W (main_v37 : DevRef τ sig)
      = RefStages.elu (W (main_v36 : DevRef τ sig) : FVec F S2048x32 .f32) := by
  have h_main_v36 : (TRef.of main_v36 : TRef sig ⟨S2048x32, .f32⟩).ofBuf (W (main_v36 : DevRef τ sig)) = W (main_v36 : DevRef τ sig) := rfl
  unfold segE1
  after_results_simp
  simp only [ofBuf_toBuf, h_main_v36]
  refine (toBuf_id main_v37 _ _ _).trans ?_
  all_goals delta RefStages.elu
  all_goals first | with_reducible rfl | rfl

theorem segE1_keep_main_v27 (W : Valuation τ sig (Elt F)) : after segE1 W (main_v27 : DevRef τ sig) = W (main_v27 : DevRef τ sig) := by
  unfold segE1
  after_results_simp

theorem segE1_keep_main_v21 (W : Valuation τ sig (Elt F)) : after segE1 W (main_v21 : DevRef τ sig) = W (main_v21 : DevRef τ sig) := by
  unfold segE1
  after_results_simp

theorem segE1_keep_main_v26 (W : Valuation τ sig (Elt F)) : after segE1 W (main_v26 : DevRef τ sig) = W (main_v26 : DevRef τ sig) := by
  unfold segE1
  after_results_simp

theorem segE1_keep_main_arg0 (W : Valuation τ sig (Elt F)) : after segE1 W (main_arg0 : DevRef τ sig) = W (main_arg0 : DevRef τ sig) := by
  unfold segE1
  after_results_simp

theorem segE1_keep_main_arg1 (W : Valuation τ sig (Elt F)) : after segE1 W (main_arg1 : DevRef τ sig) = W (main_arg1 : DevRef τ sig) := by
  unfold segE1
  after_results_simp

theorem segE1_keep_main_arg2 (W : Valuation τ sig (Elt F)) : after segE1 W (main_arg2 : DevRef τ sig) = W (main_arg2 : DevRef τ sig) := by
  unfold segE1
  after_results_simp

def segC : List (HloOp τ sig (Elt F)) :=
  [ StableHlo.unary main_v27 main_v38 (broadcastInDim S2097152x1 ![0] bcast_S2097152_S2097152x1_0 : (⟨S2097152, .f32⟩ : BufTy).Contents (Elt F) → (⟨S2097152x1, .f32⟩ : BufTy).Contents (Elt F)) ]

attribute [local irreducible] select broadcastInDim cmpi cmpf addi muli andi mulf maximumf constantI constant iotaInDim shapeCast extractStridedSlice concatenate Host.gather Host.scatterAdd Host.reduce Host.tanh Host.expm1 in
set_option maxHeartbeats 400000 in
theorem segC_main_v38 (W : Valuation τ sig (Elt F)) :
    after segC W (main_v38 : DevRef τ sig)
      = broadcastInDim S2097152x1 ![0] bcast_S2097152_S2097152x1_0 (W (main_v27 : DevRef τ sig) : FVec F S2097152 .f32) := by
  unfold segC
  after_results_simp
  all_goals first | with_reducible rfl | rfl

theorem segC_keep_main_v37 (W : Valuation τ sig (Elt F)) : after segC W (main_v37 : DevRef τ sig) = W (main_v37 : DevRef τ sig) := by
  unfold segC
  after_results_simp

theorem segC_keep_main_v21 (W : Valuation τ sig (Elt F)) : after segC W (main_v21 : DevRef τ sig) = W (main_v21 : DevRef τ sig) := by
  unfold segC
  after_results_simp

theorem segC_keep_main_v26 (W : Valuation τ sig (Elt F)) : after segC W (main_v26 : DevRef τ sig) = W (main_v26 : DevRef τ sig) := by
  unfold segC
  after_results_simp

theorem segC_keep_main_arg0 (W : Valuation τ sig (Elt F)) : after segC W (main_arg0 : DevRef τ sig) = W (main_arg0 : DevRef τ sig) := by
  unfold segC
  after_results_simp

theorem segC_keep_main_arg1 (W : Valuation τ sig (Elt F)) : after segC W (main_arg1 : DevRef τ sig) = W (main_arg1 : DevRef τ sig) := by
  unfold segC
  after_results_simp

theorem segC_keep_main_arg2 (W : Valuation τ sig (Elt F)) : after segC W (main_arg2 : DevRef τ sig) = W (main_arg2 : DevRef τ sig) := by
  unfold segC
  after_results_simp

def segT2 : List (HloOp τ sig (Elt F)) :=
  [ StableHlo.TRef.nullary main_call3.c (constantI S_ 32 0#32),
    StableHlo.TRef.unary main_call3.c main_call3.v0 (broadcastInDim S2097152 ![] bcast_S_S2097152),
    StableHlo.TRef.binary (.of main_v21 : StableHlo.TRef sig ⟨S2097152, .i32⟩) main_call3.v0 main_call3.v1 (cmpi .slt),
    StableHlo.TRef.nullary main_call3.c_0 (constantI S_ 32 2048#32),
    StableHlo.TRef.unary main_call3.c_0 main_call3.v2 (broadcastInDim S2097152 ![] bcast_S_S2097152),
    StableHlo.TRef.binary (.of main_v21 : StableHlo.TRef sig ⟨S2097152, .i32⟩) main_call3.v2 main_call3.v3 addi,
    StableHlo.TRef.ternary main_call3.v1 main_call3.v3 (.of main_v21 : StableHlo.TRef sig ⟨S2097152, .i32⟩) main_call3.call0.v0 select,
    StableHlo.TRef.unary main_call3.call0.v0 main_call3.v5 (broadcastInDim S2097152x1 ![0] bcast_S2097152_S2097152x1_0),
    StableHlo.TRef.nullary main_call3.c_1 (constantI S1 32 2047#32),
    StableHlo.TRef.nullary main_call3.c_2 (constantI S_ 32 0#32),
    StableHlo.TRef.unary main_call3.c_2 main_call3.v6 (broadcastInDim S2097152x1 ![] bcast_S_S2097152x1),
    StableHlo.TRef.binary main_call3.v5 main_call3.v6 main_call3.v7 (cmpi .sge),
    StableHlo.TRef.unary main_call3.c_1 main_call3.v8 (broadcastInDim S1x1 ![1] bcast_S1_S1x1_1),
    StableHlo.TRef.unary main_call3.v8 main_call3.v9 (broadcastInDim S2097152x1 ![0, 1] bcast_S1x1_S2097152x1_0_1),
    StableHlo.TRef.binary main_call3.v5 main_call3.v9 main_call3.v10 (cmpi .sle),
    StableHlo.TRef.binary main_call3.v7 main_call3.v10 main_call3.v11 andi,
    StableHlo.TRef.nullary main_call3.c_3 (constantI S_ 1 1#1),
    StableHlo.TRef.binary main_call3.v11 main_call3.c_3 main_call3.v12 (fun x v => Host.reduce IntOp.andi x v reducesTo_S2097152x1_S2097152_d1 h_S_),
    StableHlo.TRef.binary (.of main_v37 : StableHlo.TRef sig ⟨S2048x32, .f32⟩) main_call3.v5 main_call3.v13 (fun x i => Host.gather gather_S2048x32_S2097152x1_S2097152x32_1_0_n_n_0_1_132 x i),
    StableHlo.TRef.unary main_call3.v12 main_call3.v14 (broadcastInDim S2097152x32 ![0] bcast_S2097152_S2097152x32_0),
    StableHlo.TRef.nullary main_call3.cst (constant S_ .f32 0x7FC00000#32),
    StableHlo.TRef.unary main_call3.cst main_call3.v15 (broadcastInDim S2097152x32 ![] bcast_S_S2097152x32),
    StableHlo.TRef.ternary main_call3.v14 main_call3.v13 main_call3.v15 main_call3.v16 select ]

attribute [local irreducible] select broadcastInDim cmpi cmpf addi muli andi mulf maximumf constantI constant iotaInDim shapeCast extractStridedSlice concatenate Host.gather Host.scatterAdd Host.reduce Host.tanh Host.expm1 in
set_option maxHeartbeats 400000 in
theorem segT2_main_v39 (W : Valuation τ sig (Elt F)) :
    after segT2 W (main_v39 : DevRef τ sig)
      = RefStages.take (W (main_v37 : DevRef τ sig) : FVec F S2048x32 .f32) (W (main_v21 : DevRef τ sig) : IVec S2097152 32) := by
  have h_main_v21 : (TRef.of main_v21 : TRef sig ⟨S2097152, .i32⟩).ofBuf (W (main_v21 : DevRef τ sig)) = W (main_v21 : DevRef τ sig) := rfl
  have h_main_v37 : (TRef.of main_v37 : TRef sig ⟨S2048x32, .f32⟩).ofBuf (W (main_v37 : DevRef τ sig)) = W (main_v37 : DevRef τ sig) := rfl
  unfold segT2
  after_results_simp
  simp only [ofBuf_toBuf, h_main_v21, h_main_v37]
  refine (toBuf_id main_v39 _ _ _).trans ?_
  all_goals delta RefStages.take RefStages.takeOk RefStages.takeIdx
  all_goals first | with_reducible rfl | rfl

theorem segT2_keep_main_v38 (W : Valuation τ sig (Elt F)) : after segT2 W (main_v38 : DevRef τ sig) = W (main_v38 : DevRef τ sig) := by
  unfold segT2
  after_results_simp

theorem segT2_keep_main_v26 (W : Valuation τ sig (Elt F)) : after segT2 W (main_v26 : DevRef τ sig) = W (main_v26 : DevRef τ sig) := by
  unfold segT2
  after_results_simp

theorem segT2_keep_main_arg0 (W : Valuation τ sig (Elt F)) : after segT2 W (main_arg0 : DevRef τ sig) = W (main_arg0 : DevRef τ sig) := by
  unfold segT2
  after_results_simp

theorem segT2_keep_main_arg1 (W : Valuation τ sig (Elt F)) : after segT2 W (main_arg1 : DevRef τ sig) = W (main_arg1 : DevRef τ sig) := by
  unfold segT2
  after_results_simp

theorem segT2_keep_main_arg2 (W : Valuation τ sig (Elt F)) : after segT2 W (main_arg2 : DevRef τ sig) = W (main_arg2 : DevRef τ sig) := by
  unfold segT2
  after_results_simp

def segD : List (HloOp τ sig (Elt F)) :=
  [ StableHlo.unary main_v38 main_v40 (broadcastInDim S2097152x32 ![0, 1] bcast_S2097152x1_S2097152x32_0_1 : (⟨S2097152x1, .f32⟩ : BufTy).Contents (Elt F) → (⟨S2097152x32, .f32⟩ : BufTy).Contents (Elt F)),
    StableHlo.binary main_v40 main_v39 main_v41 (mulf : (⟨S2097152x32, .f32⟩ : BufTy).Contents (Elt F) → (⟨S2097152x32, .f32⟩ : BufTy).Contents (Elt F) → (⟨S2097152x32, .f32⟩ : BufTy).Contents (Elt F)),
    StableHlo.nullary main_cst_0 (constant S_ .f32 0x00000000#32),
    StableHlo.unary main_cst_0 main_v42 (broadcastInDim S2048x32 ![] bcast_S_S2048x32 : (⟨S_, .f32⟩ : BufTy).Contents (Elt F) → (⟨S2048x32, .f32⟩ : BufTy).Contents (Elt F)),
    StableHlo.unary main_v26 main_v43 (broadcastInDim S2097152x1 ![0] bcast_S2097152_S2097152x1_0 : (⟨S2097152, .i32⟩ : BufTy).Contents (Elt F) → (⟨S2097152x1, .i32⟩ : BufTy).Contents (Elt F)),
    StableHlo.ternary main_v42 main_v43 main_v41 main_v44 ((fun x i u => Host.scatterAdd scatter_S2048x32_S2097152x1_S2097152x32_1_0_0_1 x i u) : (⟨S2048x32, .f32⟩ : BufTy).Contents (Elt F) → (⟨S2097152x1, .i32⟩ : BufTy).Contents (Elt F) → (⟨S2097152x32, .f32⟩ : BufTy).Contents (Elt F) → (⟨S2048x32, .f32⟩ : BufTy).Contents (Elt F)),
    StableHlo.binary main_v44 main_arg2 main_v45 ((fun l r => Host.dotGeneral dot_S2048x32_S32x32_S2048x32_1_0_0_1_n_n none l r) : (⟨S2048x32, .f32⟩ : BufTy).Contents (Elt F) → (⟨S32x32, .f32⟩ : BufTy).Contents (Elt F) → (⟨S2048x32, .f32⟩ : BufTy).Contents (Elt F)) ]

attribute [local irreducible] select broadcastInDim cmpi cmpf addi muli andi mulf maximumf constantI constant iotaInDim shapeCast extractStridedSlice concatenate Host.gather Host.scatterAdd Host.reduce Host.tanh Host.expm1 in
set_option maxHeartbeats 400000 in
theorem segD_main_v45 (W : Valuation τ sig (Elt F)) :
    after segD W (main_v45 : DevRef τ sig)
      = Host.dotGeneral dot_S2048x32_S32x32_S2048x32_1_0_0_1_n_n none (Host.scatterAdd scatter_S2048x32_S2097152x1_S2097152x32_1_0_0_1 (broadcastInDim S2048x32 ![] bcast_S_S2048x32 (constant S_ .f32 0x00000000#32)) (broadcastInDim S2097152x1 ![0] bcast_S2097152_S2097152x1_0 (W (main_v26 : DevRef τ sig) : IVec S2097152 32)) (mulf (broadcastInDim S2097152x32 ![0, 1] bcast_S2097152x1_S2097152x32_0_1 (W (main_v38 : DevRef τ sig) : FVec F S2097152x1 .f32)) (W (main_v39 : DevRef τ sig) : FVec F S2097152x32 .f32))) (W (main_arg2 : DevRef τ sig) : FVec F S32x32 .f32) := by
  unfold segD
  after_results_simp
  all_goals first | with_reducible rfl | rfl

theorem segD_keep_main_arg0 (W : Valuation τ sig (Elt F)) : after segD W (main_arg0 : DevRef τ sig) = W (main_arg0 : DevRef τ sig) := by
  unfold segD
  after_results_simp

theorem segD_keep_main_arg1 (W : Valuation τ sig (Elt F)) : after segD W (main_arg1 : DevRef τ sig) = W (main_arg1 : DevRef τ sig) := by
  unfold segD
  after_results_simp

theorem segD_keep_main_arg2 (W : Valuation τ sig (Elt F)) : after segD W (main_arg2 : DevRef τ sig) = W (main_arg2 : DevRef τ sig) := by
  unfold segD
  after_results_simp

def segE2 : List (HloOp τ sig (Elt F)) :=
  [ StableHlo.TRef.nullary main_call4.cst (constant S_ .f32 0x00000000#32),
    StableHlo.TRef.unary main_call4.cst main_call4.v0 (broadcastInDim S2048x32 ![] bcast_S_S2048x32),
    StableHlo.TRef.binary (.of main_v45 : StableHlo.TRef sig ⟨S2048x32, .f32⟩) main_call4.v0 main_call4.v1 (cmpf .ogt),
    StableHlo.TRef.nullary main_call4.cst_0 (constant S_ .f32 0x00000000#32),
    StableHlo.TRef.unary main_call4.cst_0 main_call4.v2 (broadcastInDim S2048x32 ![] bcast_S_S2048x32),
    StableHlo.TRef.binary (.of main_v45 : StableHlo.TRef sig ⟨S2048x32, .f32⟩) main_call4.v2 main_call4.v3 (cmpf .ogt),
    StableHlo.TRef.nullary main_call4.cst_1 (constant S_ .f32 0x00000000#32),
    StableHlo.TRef.unary main_call4.cst_1 main_call4.call0.v0 id,
    StableHlo.TRef.unary main_call4.call0.v0 main_call4.call0.v1 (broadcastInDim S2048x32 ![] bcast_S_S2048x32),
    StableHlo.TRef.ternary main_call4.v3 main_call4.call0.v1 (.of main_v45 : StableHlo.TRef sig ⟨S2048x32, .f32⟩) main_call4.call0.v2 select,
    StableHlo.TRef.unary main_call4.call0.v2 main_call4.v5 Host.expm1,
    StableHlo.TRef.nullary main_call4.cst_2 (constant S_ .f32 0x3F800000#32),
    StableHlo.TRef.unary main_call4.cst_2 main_call4.v6 (broadcastInDim S2048x32 ![] bcast_S_S2048x32),
    StableHlo.TRef.binary main_call4.v6 main_call4.v5 main_call4.v7 mulf,
    StableHlo.TRef.ternary main_call4.v1 (.of main_v45 : StableHlo.TRef sig ⟨S2048x32, .f32⟩) main_call4.v7 main_call4.call1.v0 select ]

attribute [local irreducible] select broadcastInDim cmpi cmpf addi muli andi mulf maximumf constantI constant iotaInDim shapeCast extractStridedSlice concatenate Host.gather Host.scatterAdd Host.reduce Host.tanh Host.expm1 in
set_option maxHeartbeats 400000 in
theorem segE2_main_v46 (W : Valuation τ sig (Elt F)) :
    after segE2 W (main_v46 : DevRef τ sig)
      = RefStages.elu (W (main_v45 : DevRef τ sig) : FVec F S2048x32 .f32) := by
  have h_main_v45 : (TRef.of main_v45 : TRef sig ⟨S2048x32, .f32⟩).ofBuf (W (main_v45 : DevRef τ sig)) = W (main_v45 : DevRef τ sig) := rfl
  unfold segE2
  after_results_simp
  simp only [ofBuf_toBuf, h_main_v45]
  refine (toBuf_id main_v46 _ _ _).trans ?_
  all_goals delta RefStages.elu
  all_goals first | with_reducible rfl | rfl

theorem segE2_keep_main_arg0 (W : Valuation τ sig (Elt F)) : after segE2 W (main_arg0 : DevRef τ sig) = W (main_arg0 : DevRef τ sig) := by
  unfold segE2
  after_results_simp

theorem segE2_keep_main_arg1 (W : Valuation τ sig (Elt F)) : after segE2 W (main_arg1 : DevRef τ sig) = W (main_arg1 : DevRef τ sig) := by
  unfold segE2
  after_results_simp

theorem segE2_keep_main_arg2 (W : Valuation τ sig (Elt F)) : after segE2 W (main_arg2 : DevRef τ sig) = W (main_arg2 : DevRef τ sig) := by
  unfold segE2
  after_results_simp

def segZ : List (HloOp τ sig (Elt F)) :=
  [ StableHlo.reshape main_v46 main_v47 rfl shapeCasts_S2048x32_S2x1024x32 ]

attribute [local irreducible] select broadcastInDim cmpi cmpf addi muli andi mulf maximumf constantI constant iotaInDim shapeCast extractStridedSlice concatenate Host.gather Host.scatterAdd Host.reduce Host.tanh Host.expm1 in
set_option maxHeartbeats 400000 in
theorem segZ_main_v47 (W : Valuation τ sig (Elt F)) :
    after segZ W (main_v47 : DevRef τ sig)
      = shapeCast S2x1024x32 (W (main_v46 : DevRef τ sig) : FVec F S2048x32 .f32) shapeCasts_S2048x32_S2x1024x32 := by
  unfold segZ
  after_results_simp
  all_goals first | with_reducible rfl | rfl

theorem segZ_keep_main_arg0 (W : Valuation τ sig (Elt F)) : after segZ W (main_arg0 : DevRef τ sig) = W (main_arg0 : DevRef τ sig) := by
  unfold segZ
  after_results_simp

theorem segZ_keep_main_arg1 (W : Valuation τ sig (Elt F)) : after segZ W (main_arg1 : DevRef τ sig) = W (main_arg1 : DevRef τ sig) := by
  unfold segZ
  after_results_simp

theorem segZ_keep_main_arg2 (W : Valuation τ sig (Elt F)) : after segZ W (main_arg2 : DevRef τ sig) = W (main_arg2 : DevRef τ sig) := by
  unfold segZ
  after_results_simp

/-! ## The whole line -/

/-- The line is its eleven stretches in order. -/
theorem ops_split : (ops : List (HloOp τ sig (Elt F))) = segA1 ++ (segR ++ (segA2 ++ (segT1 ++ (segB ++ (segE1 ++ (segC ++ (segT2 ++ (segD ++ (segE2 ++ (segZ)))))))))) := rfl

/-- The contents after the whole line: the stretches' folds composed. -/
theorem after_ops (V : Valuation τ sig (Elt F)) :
    after ops V = after segZ (after segE2 (after segD (after segT2 (after segC (after segE1 (after segB (after segT1 (after segA2 (after segR (after segA1 V)))))))))) :=
  (congrArg (fun l => after l V) ops_split).trans (by simp only [Cert.LibAfter.after_append])

/-- The result's buffer after the line: the stretches' results substituted into one another along the data flow (last
    stretch first), which is the two layers over the flattened adjacency, read back as `[2, 1024, 32]`. -/
theorem out_eq (V : Valuation τ sig (Elt F)) :
    after ops V (main_v47 : DevRef τ sig) = RefStages.out (V (main_arg0 : DevRef τ sig) : FVec F S2x1024x32 .f32) (V (main_arg1 : DevRef τ sig) : FVec F S32x32 .f32) (V (main_arg2 : DevRef τ sig) : FVec F S32x32 .f32) := by
  rw [after_ops,
    segZ_main_v47, segE2_main_v46, segD_main_v45, segT2_main_v39, segT2_keep_main_v38, segT2_keep_main_v26,
    segT2_keep_main_arg2, segC_main_v38, segC_keep_main_v37, segC_keep_main_v21, segC_keep_main_v26,
    segC_keep_main_arg2, segE1_main_v37, segE1_keep_main_v27, segE1_keep_main_v21, segE1_keep_main_v26,
    segE1_keep_main_arg2, segB_main_v36, segB_keep_main_v27, segB_keep_main_v21, segB_keep_main_v26,
    segB_keep_main_arg2, segT1_main_v30, segT1_keep_main_v29, segT1_keep_main_v26, segT1_keep_main_v27,
    segT1_keep_main_v21, segT1_keep_main_arg1, segT1_keep_main_arg2, segA2_main_v28, segA2_main_v21, segA2_main_v29,
    segA2_main_v26, segA2_main_v27, segA2_keep_main_arg1, segA2_keep_main_arg2, segR_main_v4, segR_keep_main_arg0,
    segR_keep_main_arg1, segR_keep_main_arg2, segA1_main_v3, segA1_keep_main_arg0, segA1_keep_main_arg1,
    segA1_keep_main_arg2]
  delta RefStages.out RefStages.layer RefStages.agg RefStages.msgs RefStages.adjFlat RefStages.adj3
  with_reducible rfl

/-- No operation writes the argument's buffer. -/
theorem arg0_eq (V : Valuation τ sig (Elt F)) : after ops V (main_arg0 : DevRef τ sig) = V (main_arg0 : DevRef τ sig) := by
  rw [after_ops,
    segZ_keep_main_arg0, segE2_keep_main_arg0, segD_keep_main_arg0, segT2_keep_main_arg0, segC_keep_main_arg0,
    segE1_keep_main_arg0, segB_keep_main_arg0, segT1_keep_main_arg0, segA2_keep_main_arg0, segR_keep_main_arg0,
    segA1_keep_main_arg0]

/-- No operation writes the argument's buffer. -/
theorem arg1_eq (V : Valuation τ sig (Elt F)) : after ops V (main_arg1 : DevRef τ sig) = V (main_arg1 : DevRef τ sig) := by
  rw [after_ops,
    segZ_keep_main_arg1, segE2_keep_main_arg1, segD_keep_main_arg1, segT2_keep_main_arg1, segC_keep_main_arg1,
    segE1_keep_main_arg1, segB_keep_main_arg1, segT1_keep_main_arg1, segA2_keep_main_arg1, segR_keep_main_arg1,
    segA1_keep_main_arg1]

/-- No operation writes the argument's buffer. -/
theorem arg2_eq (V : Valuation τ sig (Elt F)) : after ops V (main_arg2 : DevRef τ sig) = V (main_arg2 : DevRef τ sig) := by
  rw [after_ops,
    segZ_keep_main_arg2, segE2_keep_main_arg2, segD_keep_main_arg2, segT2_keep_main_arg2, segC_keep_main_arg2,
    segE1_keep_main_arg2, segB_keep_main_arg2, segT1_keep_main_arg2, segA2_keep_main_arg2, segR_keep_main_arg2,
    segA1_keep_main_arg2]

/-- On every device, for any float values, from any memory with zero counters: every weakly fair execution of the
    program terminates with the result's buffer at `RefStages.out` of the three arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v47)
          = RefStages.out (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(h c main_v47).trans (out_eq _), (h c main_arg0).trans (arg0_eq _),
      (h c main_arg1).trans (arg1_eq _), (h c main_arg2).trans (arg2_eq _)⟩)
    (run_main m ρ)

end Cert.ReferenceIdeal.RefRun

end
-- ==== Proof.lean ====
/-
  Two layers of graph convolution over the dense adjacency `A = tanh (max (X Xᵀ) 0)`, per batch.

  The kernel computes each layer as `elu (A · (H · W))`; the reference sends the message `A[n, m] · H[n]` along every
  edge `(n, m)` of the complete graph, adds the messages into their targets and multiplies the sums by `W`:
  `elu ((Aᵀ · H) · W)`. On the extended reals the two agree because `A` is symmetric (a product of two entries
  commutes) and, every input entry being a real number, every intermediate entry is real, so that the finite sums may
  be exchanged and the products distributed. A change of float format is the identity on the extended reals, and the
  two spellings of the exponential linear unit (`exp z - 1` against `1 · expm1 z` on the non-positive branch) denote
  one function.

  The kernel's result array is read off its one grid point (both batches stored whole); the reference's run is its
  line of host operations with the called functions' lines in place, read stage by stage at an index. Both results
  are then the specification's two-layer function of the same rows, and the precondition (every input finite)
  supplies the realness the exchange of sums needs.
-/
import proofs.«112177_g63393717289321_cont_9to1c4b_364_24_alg».proof.Defs
import proofs.«112177_g63393717289321_cont_9to1c4b_364_24_alg».proof.Proof.Gen.Kernel
import proofs.«112177_g63393717289321_cont_9to1c4b_364_24_alg».proof.Proof.Gen.Kernel.Skeleton
import proofs.«112177_g63393717289321_cont_9to1c4b_364_24_alg».proof.Proof.Gen.Kernel.Launch
import proofs.«112177_g63393717289321_cont_9to1c4b_364_24_alg».proof.Proof.Gen.Kernel.Points
import proofs.«112177_g63393717289321_cont_9to1c4b_364_24_alg».proof.Proof.Gen.Kernel.Frame
import proofs.«112177_g63393717289321_cont_9to1c4b_364_24_alg».proof.Proof.Gen.KernelIdeal
import proofs.«112177_g63393717289321_cont_9to1c4b_364_24_alg».proof.Proof.Gen.KernelIdeal.Skeleton
import proofs.«112177_g63393717289321_cont_9to1c4b_364_24_alg».proof.Proof.Gen.KernelIdeal.Launch
import proofs.«112177_g63393717289321_cont_9to1c4b_364_24_alg».proof.Proof.Gen.KernelIdeal.Points
import proofs.«112177_g63393717289321_cont_9to1c4b_364_24_alg».proof.Proof.Gen.KernelIdeal.Frame
import proofs.«112177_g63393717289321_cont_9to1c4b_364_24_alg».proof.Proof.Gen.KernelIdeal.Value
import proofs.«112177_g63393717289321_cont_9to1c4b_364_24_alg».proof.Proof.Gen.ReferenceIdeal
import proofs.«112177_g63393717289321_cont_9to1c4b_364_24_alg».proof.Proof.Gen.Pre_finite_inputs
import proofs.«112177_g63393717289321_cont_9to1c4b_364_24_alg».proof.Proof.KernelValue
import proofs.«112177_g63393717289321_cont_9to1c4b_364_24_alg».proof.Proof.RefReadS
import proofs.«112177_g63393717289321_cont_9to1c4b_364_24_alg».proof.Proof.Algebra
import proofs.«112177_g63393717289321_cont_9to1c4b_364_24_alg».proof.Proof.Finite
import proofs.«112177_g63393717289321_cont_9to1c4b_364_24_alg».proof.Proof.RefRun
import Idealize.ShloMosaic.Adequacy
import Idealize.ShloMosaic.Init

noncomputable section
namespace Cert.Proof

open Idealize.ShloMosaic Idealize.SL.Sem Idealize.ShloMosaic.ValueIdx

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.RefRun.run (F := Ideal) m ρ)

/-- From memories agreeing on the arguments both programs end with the same array: at `(b, r, j)` the kernel's is the
    two-layer function in the first grouping and the reference's the one in the second, of the same real rows. -/
theorem algebraic : Cert.algebraic_KernelIdeal_ReferenceIdeal := by
  intro m ρ m' ρ' hpre hagree
  refine ⟨fun c => (Cert.KernelIdeal.Gen.dats m 0 c).arrAt 3 Cert.KernelIdeal.cfg0.N,
    Cert.KernelIdeal.Value.run_blocks m ρ, ?_⟩
  refine (θ_run Cert.ReferenceIdeal.defs _ _).mono (fun _ h c => ⟨(h c).1.trans ?_, (h c).2⟩)
    (Cert.ReferenceIdeal.RefRun.run (F := Ideal) m' ρ')
  rw [(hagree c).1, (hagree c).2.1, (hagree c).2.2]
  funext i
  obtain ⟨b, r, j, rfl⟩ : ∃ (b : Fin 2) (r : Fin 1024) (j : Fin 32), i = ix3 b r j := ⟨i 0, i 1, i 2, eq_ix3 i⟩
  obtain ⟨hx, hw1, hw2⟩ := Cert.FiniteInputs.rows_real_of_pre _ _ _ (hpre c)
  exact (Cert.ReferenceIdeal.RefRead.out_apply _ _ _ b r j).trans
    ((congrFun (congrFun (Cert.Gcn.refOut_eq_kerOut (hx b) hw1 hw2) r) j).trans
      (Cert.KernelIdeal.KValue.final_apply m c b r j).symm)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
